-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3 : Shape := ⟨2, ![8192, 3]⟩
abbrev S8192x8192 : Shape := ⟨2, ![8192, 8192]⟩
abbrev S_ : Shape := ⟨0, ![]⟩

class Facts : Prop where
  bcast_S_S8192x3 : S_.BroadcastsInDim S8192x3 (![] : Fin 0 → Fin S8192x3.rank)
  reducesTo_S8192x3_S_d0_1 : S8192x3.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S8192x3 .f32) (main_arg1 : FVec F S8192x3 .f32) (main_arg2 : FVec F S8192x8192 .f32) : IVec S_ 1 :=
  let main_v0 : FVec F S8192x3 .f32 := Host.absf main_arg0
  let main_cst : FVec F S_ .f32 := constant S_ .f32 0x7F800000#32
  let main_v1 : FVec F S8192x3 .f32 := broadcastInDim S8192x3 ![] bcast_S_S8192x3 main_cst
  let main_v2 : IVec S8192x3 1 := cmpf .olt main_v0 main_v1
  let main_c : IVec S_ 1 := constantI S_ 1 1#1
  let main_v3 : IVec S_ 1 := (fun x v => Host.reduce IntOp.andi x v reducesTo_S8192x3_S_d0_1 h_S_) main_v2 main_c
  let main_v4 : FVec F S8192x3 .f32 := Host.absf main_arg1
  let main_cst_0 : FVec F S_ .f32 := constant S_ .f32 0x7F800000#32
  let main_v5 : FVec F S8192x3 .f32 := broadcastInDim S8192x3 ![] bcast_S_S8192x3 main_cst_0
  let main_v6 : IVec S8192x3 1 := cmpf .olt main_v4 main_v5
  let main_c_1 : IVec S_ 1 := constantI S_ 1 1#1
  let main_v7 : IVec S_ 1 := (fun x v => Host.reduce IntOp.andi x v reducesTo_S8192x3_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  main_v13
-- ==== Kernel.lean ====
abbrev S8192x3 : Shape := ⟨2, ![8192, 3]⟩
abbrev S8192x8192 : Shape := ⟨2, ![8192, 8192]⟩
abbrev S8x8x8192 : Shape := ⟨3, ![8, 8, 8192]⟩
abbrev S1024x1024 : Shape := ⟨2, ![1024, 1024]⟩
abbrev S1024x3 : Shape := ⟨2, ![1024, 3]⟩
abbrev S1x8x1024 : Shape := ⟨3, ![1, 8, 1024]⟩
abbrev S1024 : Shape := ⟨1, ![1024]⟩
abbrev S1x1024 : Shape := ⟨2, ![1, 1024]⟩
abbrev S1x1x1024 : Shape := ⟨3, ![1, 1, 1024]⟩
abbrev S8x1x8192 : Shape := ⟨3, ![8, 1, 8192]⟩
abbrev S8x8192 : Shape := ⟨2, ![8, 8192]⟩
abbrev S_ : Shape := ⟨0, ![]⟩
abbrev S8192 : Shape := ⟨1, ![8192]⟩
abbrev S8192x1 : Shape := ⟨2, ![8192, 1]⟩
abbrev S1x1 : Shape := ⟨2, ![1, 1]⟩
abbrev S1024x1 : Shape := ⟨2, ![1024, 1]⟩
abbrev S1 : Shape := ⟨1, ![1]⟩

abbrev nBuf : Space → Nat
  | .hbm => 13
  | .vmem => 24
  | .smem => 0
  | _ => 0

abbrev bufTy : (tb : Table) → Fin (tcTables nBuf tb) → BufTy
  | .hbm, ⟨0, _⟩ => ⟨S8192x3, .f32⟩
  | .hbm, ⟨1, _⟩ => ⟨S8192x3, .f32⟩
  | .hbm, ⟨2, _⟩ => ⟨S8192x8192, .f32⟩
  | .hbm, ⟨3, _⟩ => ⟨S8192x3, .f32⟩
  | .hbm, ⟨4, _⟩ => ⟨S8192x3, .f32⟩
  | .hbm, ⟨5, _⟩ => ⟨S8x8x8192, .f32⟩
  | .hbm, ⟨6, _⟩ => ⟨S8x1x8192, .f32⟩
  | .hbm, ⟨7, _⟩ => ⟨S8x8192, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S1x1, .f32⟩
  | .hbm, ⟨12, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x3, .f32⟩
  | .local _ .vmem, ⟨3, _⟩ => ⟨S1024x3, .f32⟩
  | .local _ .vmem, ⟨4, _⟩ => ⟨S1024x3, .f32⟩
  | .local _ .vmem, ⟨5, _⟩ => ⟨S1024x3, .f32⟩
  | .local _ .vmem, ⟨6, _⟩ => ⟨S1024x3, .f32⟩
  | .local _ .vmem, ⟨7, _⟩ => ⟨S1024x3, .f32⟩
  | .local _ .vmem, ⟨8, _⟩ => ⟨S1024x3, .f32⟩
  | .local _ .vmem, ⟨9, _⟩ => ⟨S1024x3, .f32⟩
  | .local _ .vmem, ⟨10, _⟩ => ⟨S1x8x1024, .f32⟩
  | .local _ .vmem, ⟨11, _⟩ => ⟨S1x8x1024, .f32⟩
  | .local _ .vmem, ⟨12, _⟩ => ⟨S1024x3, .f32⟩
  | .local _ .vmem, ⟨13, _⟩ => ⟨S1024x3, .f32⟩
  | .local _ .vmem, ⟨14, _⟩ => ⟨S1024x3, .f32⟩
  | .local _ .vmem, ⟨15, _⟩ => ⟨S1024x3, .f32⟩
  | .local _ .vmem, ⟨16, _⟩ => ⟨S1024x3, .f32⟩
  | .local _ .vmem, ⟨17, _⟩ => ⟨S1024x3, .f32⟩
  | .local _ .vmem, ⟨18, _⟩ => ⟨S1024x3, .f32⟩
  | .local _ .vmem, ⟨19, _⟩ => ⟨S1024x3, .f32⟩
  | .local _ .vmem, ⟨20, _⟩ => ⟨S1024x1, .f32⟩
  | .local _ .vmem, ⟨21, _⟩ => ⟨S1024x1, .f32⟩
  | .local _ .vmem, ⟨22, _⟩ => ⟨S1x1, .f32⟩
  | .local _ .vmem, ⟨23, _⟩ => ⟨S1x1, .f32⟩
  | _, _ => ⟨S8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨1, ![8], ![false]⟩

def k1_cond2 (i : grid1.Coords) : BitVec 1 :=
  let arg0 : BitVec 32 := BitVec.ofNat 32 (i 0).val
  let c7_i32 : BitVec 32 := 7#32
  let v28 : BitVec 1 := Scalar.cmpi .eq arg0 c7_i32
  let v29 : BitVec 32 := Scalar.extui v28
  let c0_i32_15 : BitVec 32 := 0#32
  let v30 : BitVec 1 := Scalar.cmpi .ne v29 c0_i32_15
  v30

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  inb_S1024x3_S1024x3_0_0 : ∀ a, (![0, 0] : Fin 2 → Nat) a + S1024x3.size a ≤ S1024x3.size a
  h_S1024x3 : 0 < S1024x3.numel
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  shapeCasts_S1024x3_S1024x3 : S1024x3.ShapeCasts S1024x3
  reduces_S1024x1024_S1024 : S1024x1024.Reduces [0] S1024
  shapeCasts_S1024_S1x1024 : S1024.ShapeCasts S1x1024
  shapeCasts_S1x1024_S1x1x1024 : S1x1024.ShapeCasts S1x1x1024
  broadcasts_S1x1x1024_S1x8x1024 : S1x1x1024.Broadcasts S1x8x1024
  inb_S1x8x1024_S1x8x1024_0_0_0 : ∀ a, (![0, 0, 0] : Fin 3 → Nat) a + S1x8x1024.size a ≤ S1x8x1024.size a
  h_S1x8x1024 : 0 < S1x8x1024.numel
  slices_S8x8x8192_S8x1x8192_0_0_0 : S8x8x8192.Slices ![0, 0, 0] S8x1x8192
  shapeCasts_S8x1x8192_S8x8192 : S8x1x8192.ShapeCasts S8x8192
  reducesTo_S8x8192_S8192_d0 : S8x8192.ReducesTo [0] S8192
  h_S_ : 0 < S_.numel
  bcast_S8192_S8192x1_0 : S8192.BroadcastsInDim S8192x1 (![0] : Fin 1 → Fin S8192x1.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x3 : S1024x1.Broadcasts S1024x3
  reduces_S1024x3_S1024 : S1024x3.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S_ : S1x1.ShapeCasts S_
  dot_S1024x1024_S1024x3_S1024x3_1_0_0_1_n_n_wf : DotDims.WF S1024x1024 S1024x3 S1024x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x3.size a ≤ S8192x3.size a
  hwx0_1 : ∀ i : grid0.Coords, EltTy.bits .f32 = 32 ∨ (Rect.block (s := S8192x3) S1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x3.size a ≤ S8192x3.size a
  hwx0_2 : ∀ i : grid0.Coords, EltTy.bits .f32 = 32 ∨ (Rect.block (s := S8192x3) S1024x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x3.size a ≤ S8192x3.size a
  hwx0_3 : ∀ i : grid0.Coords, EltTy.bits .f32 = 32 ∨ (Rect.block (s := S8192x3) S1024x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x3.size a ≤ S8192x3.size a
  hwx0_4 : ∀ i : grid0.Coords, EltTy.bits .f32 = 32 ∨ (Rect.block (s := S8192x3) S1024x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x1024.size a ≤ S8x8x8192.size a
  hwx0_5 : ∀ i : grid0.Coords, EltTy.bits .f32 = 32 ∨ (Rect.block (s := S8x8x8192) S1x8x1024.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x3.size a ≤ S8192x3.size a
  hwx1_0 : ∀ i : grid1.Coords, EltTy.bits .f32 = 32 ∨ (Rect.block (s := S8192x3) S1024x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x3.size a ≤ S8192x3.size a
  hwx1_1 : ∀ i : grid1.Coords, EltTy.bits .f32 = 32 ∨ (Rect.block (s := S8192x3) S1024x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x3.size a ≤ S8192x3.size a
  hwx1_2 : ∀ i : grid1.Coords, EltTy.bits .f32 = 32 ∨ (Rect.block (s := S8192x3) S1024x3.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x3.size a ≤ S8192x3.size a
  hwx1_3 : ∀ i : grid1.Coords, EltTy.bits .f32 = 32 ∨ (Rect.block (s := S8192x3) S1024x3.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S8192x1.size a
  hwx1_4 : ∀ i : grid1.Coords, EltTy.bits .f32 = 32 ∨ (Rect.block (s := S8192x1) S1024x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)

variable [Facts₀]

def dot_S1024x1024_S1024x3_S1024x3_1_0_0_1_n_n : DotDims S1024x1024 S1024x3 S1024x3 where
  lhsContracting := [1]
  rhsContracting := [0]
  lhsNonContracting := [0]
  rhsNonContracting := [1]
  lhsBatch := []
  rhsBatch := []
  wf := dot_S1024x1024_S1024x3_S1024x3_1_0_0_1_n_n_wf

abbrev win0_0 : Pipeline.Window sig grid0 :=
  Pipeline.Window.ofSpec (Memref.whole main_arg2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1024x3.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1024x3.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x8x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S1024x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S1024x3.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_1) S1024x3.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1024x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x1.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8192x3 : Shape := ⟨2, ![8192, 3]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 19
  | .vmem => 0
  | .smem => 0
  | _ => 0

abbrev bufTy : (tb : Table) → Fin (tcTables nBuf tb) → BufTy
  | .hbm, ⟨0, _⟩ => ⟨S8192x3, .f32⟩
  | .hbm, ⟨1, _⟩ => ⟨S8192x3, .f32⟩
  | .hbm, ⟨2, _⟩ => ⟨S8192x8192, .f32⟩
  | .hbm, ⟨3, _⟩ => ⟨S_, .f32⟩
  | .hbm, ⟨4, _⟩ => ⟨S8192, .f32⟩
  | .hbm, ⟨5, _⟩ => ⟨S8192x3, .f32⟩
  | .hbm, ⟨6, _⟩ => ⟨S8192x1, .f32⟩
  | .hbm, ⟨7, _⟩ => ⟨S8192x3, .f32⟩
  | .hbm, ⟨8, _⟩ => ⟨S8192x3, .f32⟩
  | .hbm, ⟨9, _⟩ => ⟨S8192x3, .f32⟩
  | .hbm, ⟨10, _⟩ => ⟨S8192x3, .f32⟩
  | .hbm, ⟨11, _⟩ => ⟨S8192x1, .f32⟩
  | .hbm, ⟨12, _⟩ => ⟨S8192x3, .f32⟩
  | .hbm, ⟨13, _⟩ => ⟨S8192x3, .f32⟩
  | .hbm, ⟨14, _⟩ => ⟨S8192x3, .f32⟩
  | .hbm, ⟨15, _⟩ => ⟨S8192x3, .f32⟩
  | .hbm, ⟨16, _⟩ => ⟨S8192x3, .f32⟩
  | .hbm, ⟨17, _⟩ => ⟨S_, .f32⟩
  | .hbm, ⟨18, _⟩ => ⟨S_, .f32⟩
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  reducesTo_S8192x8192_S8192_d0 : S8192x8192.ReducesTo [0] S8192
  h_S_ : 0 < S_.numel
  bcast_S8192_S8192x1_0 : S8192.BroadcastsInDim S8192x1 (![0] : Fin 1 → Fin S8192x1.rank)
  bcast_S8192x1_S8192x3_0_1 : S8192x1.BroadcastsInDim S8192x3 (![0, 1] : Fin 2 → Fin S8192x3.rank)
  reducesTo_S8192x3_S_d0_1 : S8192x3.ReducesTo [0, 1] S_
  dot_S8192x8192_S8192x3_S8192x3_1_0_0_1_n_n_wf : DotDims.WF S8192x8192 S8192x3 S8192x3 [1] [0] [0] [1] [] []

variable [Facts₀]

def dot_S8192x8192_S8192x3_S8192x3_1_0_0_1_n_n : DotDims S8192x8192 S8192x3 S8192x3 where
  lhsContracting := [1]
  rhsContracting := [0]
  lhsNonContracting := [0]
  rhsNonContracting := [1]
  lhsBatch := []
  rhsBatch := []
  wf := dot_S8192x8192_S8192x3_S8192x3_1_0_0_1_n_n_wf

class Facts : Prop extends Facts₀ where

variable [Facts]
-- ==== Proof.K.Data.lean ====
/-
  The proof data of the two pipelines, at any float instance and at any contents `V` of the core's buffers when a
  region is entered.

  Pipeline 0 walks an 8 x 8 grid of 1024 x 1024 tiles of the adjacency matrix, the column tile `j` fastest. At
  tile (i, j) it adds the tile's product with the j-th row block of each feature matrix onto the i-th row block of
  the two aggregates (cleared at j = 0, written back at j = 7), and writes the tile's column sums, repeated on
  eight sublanes, into block (i, ·, j) of the partial degrees. Pipeline 1 walks the eight row blocks, carries a
  1 x 1 running sum in a scratch buffer (cleared at the first block) and copies it to the result at the last.
-/
import proofs.«145481_j19559281066265_2_alg».proof.Proof.Gen.Kernel.Launch
import proofs.«145481_j19559281066265_2_alg».proof.Proof.Gen.Kernel.Skeleton
import proofs.«145481_j19559281066265_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

/-! ## Pipeline 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the two aggregates' staging buffers hold after the body at position `n`: at the first column tile of a
    row of tiles the tile's product added to zero, at a later one added to what the position before left. -/
def acc0 (c : Dev nD) : (n : ℕ) → n < cfg0.N → Vec F S1024x3 .f32 × Vec F S1024x3 .f32
  | 0, hn => (k0_pay4 (iblk0 V c 0 ⟨0, hn⟩) (iblk0 V c 1 ⟨0, hn⟩) (k0_pay1 (F := F)),
              k0_pay5 (iblk0 V c 0 ⟨0, hn⟩) (iblk0 V c 2 ⟨0, hn⟩) (k0_pay2 (F := F)))
  | n + 1, hn =>
    if (n + 1) % 8 = 0 then
      (k0_pay4 (iblk0 V c 0 ⟨n + 1, hn⟩) (iblk0 V c 1 ⟨n + 1, hn⟩) (k0_pay1 (F := F)),
       k0_pay5 (iblk0 V c 0 ⟨n + 1, hn⟩) (iblk0 V c 2 ⟨n + 1, hn⟩) (k0_pay2 (F := F)))
    else
      (k0_pay4 (iblk0 V c 0 ⟨n + 1, hn⟩) (iblk0 V c 1 ⟨n + 1, hn⟩) (acc0 c n (Nat.lt_of_succ_lt hn)).1,
       k0_pay5 (iblk0 V c 0 ⟨n + 1, hn⟩) (iblk0 V c 2 ⟨n + 1, hn⟩) (acc0 c n (Nat.lt_of_succ_lt hn)).2)

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (acc0 V c t.val t.isLt).1
    | ⟨4, _⟩ => (acc0 V c t.val t.isLt).2
    | ⟨5, _⟩ => k0_pay6 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (acc0 V c t.val t.isLt).1 := by dsimp only [dat0]
theorem after0_4 (c : Dev nD) (t : Fin cfg0.N) : (dat0 V c).after 4 t = (acc0 V c t.val t.isLt).2 := by dsimp only [dat0]
theorem after0_5 (c : Dev nD) (t : Fin cfg0.N) : (dat0 V c).after 5 t = k0_pay6 (iblk0 V c 0 t) := by dsimp only [dat0]

/-- `acc0` at the first column tile of a row of tiles. -/
theorem acc0_first (c : Dev nD) (t : Fin cfg0.N) (h : t.val % 8 = 0) :
    acc0 V c t.val t.isLt = (k0_pay4 (iblk0 V c 0 t) (iblk0 V c 1 t) (k0_pay1 (F := F)),
                             k0_pay5 (iblk0 V c 0 t) (iblk0 V c 2 t) (k0_pay2 (F := F))) := by
  obtain ⟨n, hn⟩ := t
  cases n with
  | zero => rfl
  | succ n => exact (if_pos h).trans rfl

/-- `acc0` at a later column tile. -/
theorem acc0_next (c : Dev nD) (t : Fin cfg0.N) (h : ¬ t.val % 8 = 0) :
    acc0 V c t.val t.isLt
      = (k0_pay4 (iblk0 V c 0 t) (iblk0 V c 1 t) (acc0 V c (t.val - 1) (Nat.lt_of_le_of_lt (Nat.sub_le _ _) t.isLt)).1,
         k0_pay5 (iblk0 V c 0 t) (iblk0 V c 2 t) (acc0 V c (t.val - 1) (Nat.lt_of_le_of_lt (Nat.sub_le _ _) t.isLt)).2) := by
  obtain ⟨n, hn⟩ := t
  cases n with
  | zero => exact absurd (Nat.zero_mod _) h
  | succ n => exact (if_neg h).trans rfl

/-! ## Pipeline 1 -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the scratch accumulator holds after the body at position `n`: the block's sum of squares added to zero at
    the first block, to what the block before left afterwards. -/
def acc1 (c : Dev nD) : (n : ℕ) → n < cfg1.N → Vec F S1x1 .f32
  | 0, hn => k1_pay2 (iblk1 V c 0 ⟨0, hn⟩) (iblk1 V c 1 ⟨0, hn⟩) (iblk1 V c 2 ⟨0, hn⟩) (iblk1 V c 3 ⟨0, hn⟩) (iblk1 V c 4 ⟨0, hn⟩) (k1_pay1 (F := F))
  | n + 1, hn => k1_pay2 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
      (acc1 c n (Nat.lt_of_succ_lt hn))

/-- The kernel's scratch operand. -/
abbrev scM1 : Memref sig .tc .vmem S1x1 .f32 := Memref.whole cc1_scratch0

/-- The core's scoped buffers that are neither a staging buffer of pipeline 1 nor its scratch (pipeline 0's staging
    buffers), each whole at some contents. -/
def otherScoped1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-- The region invariant before position `n`: before the first point the class's (every scoped buffer that is no
    staging buffer at anything, the generator register at some state); afterwards the same with the scratch at what
    the point before left in it. -/
def PhiS1 (c : Dev nD) : (n : ℕ) → n ≤ cfg1.N → sProp 𝕄
  | 0, _ => Pipeline.ΦA spec1 c
  | n + 1, hn => iprop(otherScoped1 (F := F) c ∗ owns (c : Thread nD τ) scM1 fullShare (acc1 V c n hn) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(otherScoped1 (F := F) c ∗ owns (c : Thread nD τ) scM1 fullShare (acc1 V c n hn) ∗ (∃ r, prngReg c r)) := rfl

theorem PhiS1_pos (c : Dev nD) (n : ℕ) (h : n ≤ cfg1.N) (hz : n ≠ 0) :
    PhiS1 V c n h = iprop(otherScoped1 (F := F) c ∗ owns (c : Thread nD τ) scM1 fullShare (acc1 V c (n - 1) (by omega)) ∗ (∃ r, prngReg c r)) := by
  cases n with
  | zero => exact absurd rfl hz
  | succ n => rfl

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = acc1 V c t.val t.isLt := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

end Regions

end Cert.Kernel.Hand

end
-- ==== Proof.K.Body0.lean ====
/-
  Pipeline 0's body obligation: at every grid point the kernel body, run on the windows' staging buffers holding
  what the proof data says they hold, leaves them as the proof data says.
-/
import proofs.«145481_j19559281066265_2_alg».proof.Proof.Gen.Kernel.Launch
import proofs.«145481_j19559281066265_2_alg».proof.Proof.Gen.Kernel.Skeleton
import proofs.«145481_j19559281066265_2_alg».proof.Proof.Gen.Kernel.Points
import proofs.«145481_j19559281066265_2_alg».proof.Proof.K.Data
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch condition -/

/-- The condition of the body's one conditional, from the grid coordinates (the skeleton's scalar chain). -/
abbrev cond0_0 (i : grid0.Coords) : Prop := (Scalar.cmpi .ne (Scalar.extui (Scalar.cmpi .eq (BitVec.ofNat 32 (i 1).val) 0#32)) 0#32) = 1#1

/-- It holds exactly at the first column tile of each row of tiles: decided over the 64 points. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## Whole-rectangle accesses -/

theorem hz2 : (![0, 0] : Fin 2 → Nat) = fun _ => 0 := funext fun a => by fin_cases a <;> rfl
theorem hz3 : (![0, 0, 0] : Fin 3 → Nat) = fun _ => 0 := funext fun a => by fin_cases a <;> rfl

/-- A list of pieces whose head is a store through the whole 1024 x 3 rectangle covers the block. -/
theorem cover_S1024x3 (p0 : Vec F S1024x3 .f32) (L : List (View.Piece (Elt F) S1024x3 .f32)) (y : S1024x3.Idx) :
    ∃ pc ∈ ((⟨Rect.unit (s := S1024x3) ![0, 0] S1024x3.size inb_S1024x3_S1024x3_0_0, p0⟩ : View.Piece (Elt F) S1024x3 .f32) :: L), y ∈ pc.1.set :=
  ⟨_, List.mem_cons.mpr (Or.inl rfl), View.mem_set_unit_zero (S := S1024x3) hz2 inb_S1024x3_S1024x3_0_0 y⟩

/-- The same for the 1 x 8 x 1024 block. -/
theorem cover_S1x8x1024 (p0 : Vec F S1x8x1024 .f32) (L : List (View.Piece (Elt F) S1x8x1024 .f32)) (y : S1x8x1024.Idx) :
    ∃ pc ∈ ((⟨Rect.unit (s := S1x8x1024) ![0, 0, 0] S1x8x1024.size inb_S1x8x1024_S1x8x1024_0_0_0, p0⟩ : View.Piece (Elt F) S1x8x1024 .f32) :: L), y ∈ pc.1.set :=
  ⟨_, List.mem_cons.mpr (Or.inl rfl), View.mem_set_unit_zero (S := S1x8x1024) hz3 inb_S1x8x1024_S1x8x1024_0_0_0 y⟩

/-! ## The body's triple, one per control case -/

set_option maxHeartbeats 1000000 in
/-- The kernel body at a first column tile (the branch taken): on whole staging memrefs, the inputs' at contents
    `x0`, `x1`, `x2` and the outputs' at anything, it runs to the continuation holding the inputs' as they were, the
    two aggregates' at the tile's product added to the zeros just stored and read back, and the partial degrees' at
    the tile's column sums. Each buffer ends with a store through its whole rectangle last, so it reads that store's
    payload; a load through the whole rectangle reads the contents, and after the zeroing store the zeros. -/
theorem sound_kernel0_A (c : Dev nD) (E : Set ℕ) (i : grid0.Coords)
    (arg2 : Memref sig .tc .vmem S1024x1024 .f32) (harg2 : arg2.IsWhole) (arg3 : Memref sig .tc .vmem S1024x3 .f32) (harg3 : arg3.IsWhole)
    (arg4 : Memref sig .tc .vmem S1024x3 .f32) (harg4 : arg4.IsWhole) (arg5 : Memref sig .tc .vmem S1024x3 .f32) (harg5 : arg5.IsWhole)
    (arg6 : Memref sig .tc .vmem S1024x3 .f32) (harg6 : arg6.IsWhole) (arg7 : Memref sig .tc .vmem S1x8x1024 .f32) (harg7 : arg7.IsWhole)
    (hc0 : cond0_0 i)
    (x0 : Vec F S1024x1024 .f32) (x1 x2 : Vec F S1024x3 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay4 x0 x1 (k0_pay1 (F := F))) ∗ owns (c : Thread nD τ) arg6 fullShare (k0_pay5 x0 x2 (k0_pay2 (F := F)))
            ∗ owns (c : Thread nD τ) arg7 fullShare (k0_pay6 x0)) -∗ K ⟨⟩))
      ⊢ wp frame (wpE (defs₀ (F := F)) Variants.none c none) E (cc0__agg_kernel i arg2 harg2 arg3 harg3 arg4 harg4 arg5 harg5 arg6 harg6 arg7 harg7) K := by
  simp only [cc0__agg_kernel_eq_skeleton]; unfold cc0__agg_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := harg2.eq_unread hf0; obtain rfl := harg3.eq_unread hf1; obtain rfl := harg4.eq_unread hf2
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [View.read_writes_eq_canon _ _ _ (cover_S1024x3 _ _)]
    sl_unfold_words
    rw [View.canon_cons_unit_zero (S := S1024x3) hz2, View.readCov_unit_zero (S := S1024x3) _ hz2]
    simp only [View.readAt_eq_ld, harg2.read_unread, harg3.read_unread, View.ld_unit_zero (S := S1024x1024) hz2, View.ld_unit_zero (S := S1024x3) hz2]
  isplitl [H4]
  · iexists _; isplitr
    swap; · iexact H4
    ipureintro
    rw [View.read_writes_eq_canon _ _ _ (cover_S1024x3 _ _)]
    sl_unfold_words
    rw [View.canon_cons_unit_zero (S := S1024x3) hz2, View.readCov_unit_zero (S := S1024x3) _ hz2]
    simp only [View.readAt_eq_ld, harg2.read_unread, harg4.read_unread, View.ld_unit_zero (S := S1024x1024) hz2, View.ld_unit_zero (S := S1024x3) hz2]
  iexists _; isplitr
  swap; · iexact H5
  ipureintro
  rw [View.read_writes_eq_canon _ _ _ (cover_S1x8x1024 _ _), View.canon_unit_zero hz3]
  simp only [View.readAt_eq_ld, harg2.read_unread, View.ld_unit_zero (S := S1024x1024) hz2]

set_option maxHeartbeats 1000000 in
/-- The kernel body at a later column tile (the branch not taken): the same, the two aggregates' buffers entering
    at contents `z3`, `z4` and leaving at the tile's product added to them. -/
theorem sound_kernel0_B (c : Dev nD) (E : Set ℕ) (i : grid0.Coords)
    (arg2 : Memref sig .tc .vmem S1024x1024 .f32) (harg2 : arg2.IsWhole) (arg3 : Memref sig .tc .vmem S1024x3 .f32) (harg3 : arg3.IsWhole)
    (arg4 : Memref sig .tc .vmem S1024x3 .f32) (harg4 : arg4.IsWhole) (arg5 : Memref sig .tc .vmem S1024x3 .f32) (harg5 : arg5.IsWhole)
    (arg6 : Memref sig .tc .vmem S1024x3 .f32) (harg6 : arg6.IsWhole) (arg7 : Memref sig .tc .vmem S1x8x1024 .f32) (harg7 : arg7.IsWhole)
    (hc0 : ¬cond0_0 i)
    (x0 : Vec F S1024x1024 .f32) (x1 x2 : Vec F S1024x3 .f32) (z3 z4 : Vec F S1024x3 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare z3 ∗ owns (c : Thread nD τ) arg6 fullShare z4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay4 x0 x1 z3) ∗ owns (c : Thread nD τ) arg6 fullShare (k0_pay5 x0 x2 z4)
            ∗ owns (c : Thread nD τ) arg7 fullShare (k0_pay6 x0)) -∗ K ⟨⟩))
      ⊢ wp frame (wpE (defs₀ (F := F)) Variants.none c none) E (cc0__agg_kernel i arg2 harg2 arg3 harg3 arg4 harg4 arg5 harg5 arg6 harg6 arg7 harg7) K := by
  simp only [cc0__agg_kernel_eq_skeleton]; unfold cc0__agg_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [View.read_writes_eq_canon _ _ _ (cover_S1024x3 _ _), View.canon_unit_zero hz2]
    simp only [View.readAt_eq_ld, harg2.read_unread, harg3.read_unread, harg5.read_unread, View.ld_unit_zero (S := S1024x1024) hz2, View.ld_unit_zero (S := S1024x3) hz2]
  isplitl [H4]
  · iexists _; isplitr
    swap; · iexact H4
    ipureintro
    rw [View.read_writes_eq_canon _ _ _ (cover_S1024x3 _ _), View.canon_unit_zero hz2]
    simp only [View.readAt_eq_ld, harg2.read_unread, harg4.read_unread, harg6.read_unread, View.ld_unit_zero (S := S1024x1024) hz2, View.ld_unit_zero (S := S1024x3) hz2]
  iexists _; isplitr
  swap; · iexact H5
  ipureintro
  rw [View.read_writes_eq_canon _ _ _ (cover_S1x8x1024 _ _), View.canon_unit_zero hz3]
  simp only [View.readAt_eq_ld, harg2.read_unread, View.ld_unit_zero (S := S1024x1024) hz2]

section Regions

variable (V : (c : Dev nD) → (b : Ref sig .tc) → Buf (Elt F) ((c : Thread nD τ).loc b))

/-! ## What the body finds in each staging buffer -/

/-- An input's current staging buffer holds its block at every point, fetched there or not: the windows are uncut
    and never idle, and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-- At a later column tile the first aggregate's staging buffer holds what the body left at the point before: the
    point is not the first, and the buffer is written back only at the last column tile of a row of tiles. -/
theorem before0_3_B (c : Dev nD) (t : Fin cfg0.N) (h0 : ¬t.val % 8 = 0) (d) :
    (dat0 V c).before 3 t d = (acc0 V c (t.val - 1) (Nat.lt_of_le_of_lt (Nat.sub_le _ _) t.isLt)).1 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  exact after0_3 V c _
/-- The same for the second aggregate. -/
theorem before0_4_B (c : Dev nD) (t : Fin cfg0.N) (h0 : ¬t.val % 8 = 0) (d) :
    (dat0 V c).before 4 t d = (acc0 V c (t.val - 1) (Nat.lt_of_le_of_lt (Nat.sub_le _ _) t.isLt)).2 := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  exact after0_4 V c _

/-- The recursion's components at a first column tile, -/
theorem acc0_A_1 (c : Dev nD) (t : Fin cfg0.N) (h : t.val % 8 = 0) :
    (acc0 V c t.val t.isLt).1 = k0_pay4 (iblk0 V c 0 t) (iblk0 V c 1 t) (k0_pay1 (F := F)) := by rw [acc0_first V c t h]
theorem acc0_A_2 (c : Dev nD) (t : Fin cfg0.N) (h : t.val % 8 = 0) :
    (acc0 V c t.val t.isLt).2 = k0_pay5 (iblk0 V c 0 t) (iblk0 V c 2 t) (k0_pay2 (F := F)) := by rw [acc0_first V c t h]
/-- and at a later one. -/
theorem acc0_B_1 (c : Dev nD) (t : Fin cfg0.N) (h : ¬t.val % 8 = 0) :
    (acc0 V c t.val t.isLt).1 = k0_pay4 (iblk0 V c 0 t) (iblk0 V c 1 t) (acc0 V c (t.val - 1) (Nat.lt_of_le_of_lt (Nat.sub_le _ _) t.isLt)).1 := by
  rw [acc0_next V c t h]
theorem acc0_B_2 (c : Dev nD) (t : Fin cfg0.N) (h : ¬t.val % 8 = 0) :
    (acc0 V c t.val t.isLt).2 = k0_pay5 (iblk0 V c 0 t) (iblk0 V c 2 t) (acc0 V c (t.val - 1) (Nat.lt_of_le_of_lt (Nat.sub_le _ _) t.isLt)).2 := by
  rw [acc0_next V c t h]

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 800000 in
/-- The body at any point: the inputs' buffers hold their blocks; the closed form of the condition says which case
    the point is in; at a later column tile the aggregates' buffers hold what the point before left; so the case's
    triple applies. The invariant passes through unread and the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  by_cases h0 : t.val % 8 = 0
  · rw [acc0_A_1 V c t h0, acc0_A_2 V c t h0]
    iintro ⟨HΦ, Ho, ⟨%d0, H0⟩, ⟨%d1, H1⟩, ⟨%d2, H2⟩, ⟨%d3, H3⟩, ⟨%d4, H4⟩, ⟨%d5, H5⟩⟩
    iapply (sound_kernel0_A c Set.univ (grid0.coords t) _ _ _ _ _ _ _ _ _ _ _ _ ((hcond0_0 t).mpr h0) (iblk0 V c 0 t) (iblk0 V c 1 t) (iblk0 V c 2 t) _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc0_B_1 V c t h0, acc0_B_2 V c t h0]
    simp only [before0_3_B V c t h0, before0_4_B V c t h0]
    iintro ⟨HΦ, Ho, ⟨%d0, H0⟩, ⟨%d1, H1⟩, ⟨%d2, H2⟩, ⟨%d3, H3⟩, ⟨%d4, H4⟩, ⟨%d5, H5⟩⟩
    iapply (sound_kernel0_B c Set.univ (grid0.coords t) _ _ _ _ _ _ _ _ _ _ _ _ (fun h => h0 ((hcond0_0 t).mp h)) (iblk0 V c 0 t) (iblk0 V c 1 t) (iblk0 V c 2 t) _ _ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The library's body obligation for pipeline 0, at every point. -/
theorem body_obligation0 (c : Dev nD) : BodyObligation (dat0 (F := F) V c) (defs₀ (F := F)) Variants.none () Set.univ := by
  intro t
  rw [bigSep_W0, bigSep_W0]
  exact sound_body0 V c t

end Regions

end Cert.Kernel.Hand

end
-- ==== Proof.K.Body1.lean ====
/-
  Pipeline 1's body obligation, and the passage between the class's invariant and the one that names the scratch
  accumulator's contents.
-/
import proofs.«145481_j19559281066265_2_alg».proof.Proof.Gen.Kernel.Launch
import proofs.«145481_j19559281066265_2_alg».proof.Proof.Gen.Kernel.Skeleton
import proofs.«145481_j19559281066265_2_alg».proof.Proof.Gen.Kernel.Points
import proofs.«145481_j19559281066265_2_alg».proof.Proof.K.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

/-! ## Reading through the whole rectangle -/

/-- The zero offsets of a rank-2 rectangle, as the printed accesses spell them. -/
theorem zeros2 : (![0, 0] : Fin 2 → ℕ) = fun _ => 0 := by
  funext a; fin_cases a <;> rfl

/-- Every index lies in the whole-shape rectangle at zero offsets. -/
theorem mem_whole_rect {S : Shape} {off : Fin S.rank → ℕ} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- A load through the whole-shape rectangle at zero offsets reads the buffer's contents. -/
theorem readAt_whole {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a) :
    v.readAt (Elt F) (Rect.unit off S.size inb).toLoadRect f = v.read (Elt F) f := by
  subst h; rw [View.readAt_eq_ld]; funext x
  show v.read (Elt F) f ((Rect.whole S).emb x) = v.read (Elt F) f x
  rw [Rect.emb_whole_apply]

/-- Stores of which the last went through the whole-shape rectangle at zero offsets leave the last one's value. -/
theorem canon_cons_whole {S : Shape} {e : EltTy} {off : Fin S.rank → ℕ} (h : off = fun _ => 0)
    (inb : ∀ a, off a + S.size a ≤ S.size a) (w : S.Idx → Elt F e) (L : List (View.Piece (Elt F) S e)) :
    View.canon ((⟨Rect.unit off S.size inb, w⟩ : View.Piece (Elt F) S e) :: L) = w := by
  subst h; funext y
  have e := View.canon_cons_emb (Val := Elt F) (Rect.whole S) w L y
  rw [Rect.emb_whole_apply] at e
  exact e

/-- After such stores the buffer reads as the last one's value, whatever it held before. -/
theorem read_store_whole {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, mem_whole_rect h inb y⟩),
    canon_cons_whole h inb w L]

/-- A load through it reads back the value of the last store, when that store went through it too. -/
theorem readCov_store_whole {sg : RefSig} {κ : Kind} {sp : Space} {S : Shape} {e : EltTy} (v : View sg κ sp S e)
    {off : Fin S.rank → ℕ} (h : off = fun _ => 0) (inb : ∀ a, off a + S.size a ≤ S.size a)
    (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld v _ _ (fun y => ⟨_, List.mem_cons_self, mem_whole_rect h inb y⟩), canon_cons_whole h inb w L]
  subst h; funext x
  show w ((Rect.whole S).emb x) = w x
  rw [Rect.emb_whole_apply]

/-! ## The two conditionals, decided over the grid -/

/-- The first conditional's test (the grid coordinate is zero), as the kernel computes it. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)
/-- The second conditional's test (the grid coordinate is seven). -/
abbrev cond1_1 (i : grid1.Coords) : Prop := k1_cond2 i = 1#1
/-- It holds at the last point only. -/
theorem hcond1_1 : ∀ t : Fin cfg1.N, cond1_1 (grid1.coords t) ↔ t.val = 7 :=
  (by decide +kernel : ∀ t : Fin grid1.N, cond1_1 (grid1.coords t) ↔ t.val = 7)

/-! ## The body's triple, case by case

The printed function is its skeleton of memory operations; run step by step, each conditional is decided by the
case's hypotheses. What is left is to read the accumulator's final contents in plain form: every access goes through
the whole 1 x 1 rectangle, so a load reads what the last store left. -/

set_option maxHeartbeats 1000000 in
/-- The kernel body at a middle point (neither conditional taken), on whole memrefs holding the five input blocks, the result's buffer and the
    accumulator: the block's term is added to what the accumulator held, and the result's buffer is untouched. -/
theorem run1_B (c : Dev nD) (i : grid1.Coords)
    (arg1 : Memref sig .tc .vmem S1024x3 .f32) (harg1 : arg1.IsWhole) (arg2 : Memref sig .tc .vmem S1024x3 .f32) (harg2 : arg2.IsWhole)
    (arg3 : Memref sig .tc .vmem S1024x3 .f32) (harg3 : arg3.IsWhole) (arg4 : Memref sig .tc .vmem S1024x3 .f32) (harg4 : arg4.IsWhole)
    (arg5 : Memref sig .tc .vmem S1024x1 .f32) (harg5 : arg5.IsWhole) (arg6 : Memref sig .tc .vmem S1x1 .f32) (harg6 : arg6.IsWhole)
    (arg7 : Memref sig .tc .vmem S1x1 .f32) (harg7 : arg7.IsWhole) (hc0 : ¬cond1_0 i) (hc1 : ¬cond1_1 i)
    (x0 x1 x2 x3 : Vec F S1024x3 .f32) (x4 : Vec F S1024x1 .f32) (xi5 z : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xi5
        ∗ owns (c : Thread nD τ) arg7 fullShare z
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xi5
            ∗ owns (c : Thread nD τ) arg7 fullShare (k1_pay2 x0 x1 x2 x3 x4 z)) -∗ K ⟨⟩))
      ⊢ wp frame (wpE (defs₀ (F := F)) Variants.none c none) E (cc1__loss_kernel i arg1 harg1 arg2 harg2 arg3 harg3 arg4 harg4 arg5 harg5 arg6 harg6 arg7 harg7) K := by
  simp only [cc1__loss_kernel_eq_skeleton]; unfold cc1__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro
  rw [read_store_whole _ _ zeros2]
  simp only [readAt_whole (S := S1024x3) _ _ zeros2, readAt_whole (S := S1024x1) _ _ zeros2, readAt_whole (S := S1x1) _ _ zeros2, hf0, hf1, hf2, hf3, hf4, hf6]

set_option maxHeartbeats 1000000 in
/-- The kernel body at the first point (only the first conditional taken), on whole memrefs holding the five input blocks, the result's buffer and the
    accumulator: the accumulator is cleared first, so the block's term is added to zero whatever it held, and the result's buffer is untouched. -/
theorem run1_A (c : Dev nD) (i : grid1.Coords)
    (arg1 : Memref sig .tc .vmem S1024x3 .f32) (harg1 : arg1.IsWhole) (arg2 : Memref sig .tc .vmem S1024x3 .f32) (harg2 : arg2.IsWhole)
    (arg3 : Memref sig .tc .vmem S1024x3 .f32) (harg3 : arg3.IsWhole) (arg4 : Memref sig .tc .vmem S1024x3 .f32) (harg4 : arg4.IsWhole)
    (arg5 : Memref sig .tc .vmem S1024x1 .f32) (harg5 : arg5.IsWhole) (arg6 : Memref sig .tc .vmem S1x1 .f32) (harg6 : arg6.IsWhole)
    (arg7 : Memref sig .tc .vmem S1x1 .f32) (harg7 : arg7.IsWhole) (hc0 : cond1_0 i) (hc1 : ¬cond1_1 i)
    (x0 x1 x2 x3 : Vec F S1024x3 .f32) (x4 : Vec F S1024x1 .f32) (xi5 z : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xi5
        ∗ owns (c : Thread nD τ) arg7 fullShare z
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xi5
            ∗ owns (c : Thread nD τ) arg7 fullShare (k1_pay2 x0 x1 x2 x3 x4 (k1_pay1 (F := F)))) -∗ K ⟨⟩))
      ⊢ wp frame (wpE (defs₀ (F := F)) Variants.none c none) E (cc1__loss_kernel i arg1 harg1 arg2 harg2 arg3 harg3 arg4 harg4 arg5 harg5 arg6 harg6 arg7 harg7) K := by
  simp only [cc1__loss_kernel_eq_skeleton]; unfold cc1__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro
  rw [read_store_whole _ _ zeros2]
  sl_unfold_run_names
  rw [readCov_store_whole _ zeros2]
  simp only [readAt_whole (S := S1024x3) _ _ zeros2, readAt_whole (S := S1024x1) _ _ zeros2, readAt_whole (S := S1x1) _ _ zeros2, hf0, hf1, hf2, hf3, hf4, hf6]

set_option maxHeartbeats 1000000 in
/-- The kernel body at the last point (only the second conditional taken), on whole memrefs holding the five input blocks, the result's buffer and the
    accumulator: the block's term is added to what the accumulator held, and the sum is copied into the result's buffer, whatever that held. -/
theorem run1_C (c : Dev nD) (i : grid1.Coords)
    (arg1 : Memref sig .tc .vmem S1024x3 .f32) (harg1 : arg1.IsWhole) (arg2 : Memref sig .tc .vmem S1024x3 .f32) (harg2 : arg2.IsWhole)
    (arg3 : Memref sig .tc .vmem S1024x3 .f32) (harg3 : arg3.IsWhole) (arg4 : Memref sig .tc .vmem S1024x3 .f32) (harg4 : arg4.IsWhole)
    (arg5 : Memref sig .tc .vmem S1024x1 .f32) (harg5 : arg5.IsWhole) (arg6 : Memref sig .tc .vmem S1x1 .f32) (harg6 : arg6.IsWhole)
    (arg7 : Memref sig .tc .vmem S1x1 .f32) (harg7 : arg7.IsWhole) (hc0 : ¬cond1_0 i) (hc1 : cond1_1 i)
    (x0 x1 x2 x3 : Vec F S1024x3 .f32) (x4 : Vec F S1024x1 .f32) (xi5 z : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xi5
        ∗ owns (c : Thread nD τ) arg7 fullShare z
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare (k1_pay2 x0 x1 x2 x3 x4 z)
            ∗ owns (c : Thread nD τ) arg7 fullShare (k1_pay2 x0 x1 x2 x3 x4 z)) -∗ K ⟨⟩))
      ⊢ wp frame (wpE (defs₀ (F := F)) Variants.none c none) E (cc1__loss_kernel i arg1 harg1 arg2 harg2 arg3 harg3 arg4 harg4 arg5 harg5 arg6 harg6 arg7 harg7) K := by
  simp only [cc1__loss_kernel_eq_skeleton]; unfold cc1__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    rw [read_store_whole _ _ zeros2]
    sl_unfold_run_names
    rw [readCov_store_whole _ zeros2]
    simp only [readAt_whole (S := S1024x3) _ _ zeros2, readAt_whole (S := S1024x1) _ _ zeros2, readAt_whole (S := S1x1) _ _ zeros2, hf0, hf1, hf2, hf3, hf4, hf6]
  iexists _; isplitr
  swap; · iexact H6
  ipureintro
  sl_unfold_run_names
  rw [read_store_whole _ _ zeros2]
  simp only [readAt_whole (S := S1024x3) _ _ zeros2, readAt_whole (S := S1024x1) _ _ zeros2, readAt_whole (S := S1x1) _ _ zeros2, hf0, hf1, hf2, hf3, hf4, hf6]

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
/-- Away from the last point the result's window is idle (the body stores nothing into it), -/
theorem idleAt1_5 : ∀ t : Fin cfg1.N, ¬cond1_1 (grid1.coords t) → cfg1.idle 5 (grid1.coords t) = true := by decide +kernel
/-- and is not written back; -/
theorem noFlush1_5 : ∀ t : Fin cfg1.N, ¬cond1_1 (grid1.coords t) → (cfg1.win 5).flush t = false := by decide +kernel
/-- at the last point it is live. -/
theorem liveAt1_5 : ∀ t : Fin cfg1.N, cond1_1 (grid1.coords t) → cfg1.idle 5 (grid1.coords t) = false := by decide +kernel

/-! ## The inputs' buffers at the body -/

/-- Input window 0's current staging buffer holds its block at every point, fetched there or not: the body leaves
    the block in place, and the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_0 (c : Dev nD) (t : Fin cfg1.N) (d) : (dat1 V c).before 0 t d = iblk1 V c 0 t :=
  before1_0_of V (dat1 V c) (A_eq1 V c 0) (after1_0 V c) t d
/-- The body's post for input window 0: never idle, so the buffer at the block. -/
theorem leaves1_0 (c : Dev nD) (t : Fin cfg1.N) :
    (dat1 V c).leavesExact 0 t = owns (c : Thread nD τ) (st1_0 t) fullShare (iblk1 V c 0 t) := by
  unfold Dat.leavesExact; rw [liveAt1_0 t, after1_0]

/-- Input window 1's current staging buffer holds its block at every point, fetched there or not: the body leaves
    the block in place, and the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_1 (c : Dev nD) (t : Fin cfg1.N) (d) : (dat1 V c).before 1 t d = iblk1 V c 1 t :=
  before1_1_of V (dat1 V c) (A_eq1 V c 1) (after1_1 V c) t d
/-- The body's post for input window 1: never idle, so the buffer at the block. -/
theorem leaves1_1 (c : Dev nD) (t : Fin cfg1.N) :
    (dat1 V c).leavesExact 1 t = owns (c : Thread nD τ) (st1_1 t) fullShare (iblk1 V c 1 t) := by
  unfold Dat.leavesExact; rw [liveAt1_1 t, after1_1]

/-- Input window 2's current staging buffer holds its block at every point, fetched there or not: the body leaves
    the block in place, and the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_2 (c : Dev nD) (t : Fin cfg1.N) (d) : (dat1 V c).before 2 t d = iblk1 V c 2 t :=
  before1_2_of V (dat1 V c) (A_eq1 V c 2) (after1_2 V c) t d
/-- The body's post for input window 2: never idle, so the buffer at the block. -/
theorem leaves1_2 (c : Dev nD) (t : Fin cfg1.N) :
    (dat1 V c).leavesExact 2 t = owns (c : Thread nD τ) (st1_2 t) fullShare (iblk1 V c 2 t) := by
  unfold Dat.leavesExact; rw [liveAt1_2 t, after1_2]

/-- Input window 3's current staging buffer holds its block at every point, fetched there or not: the body leaves
    the block in place, and the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_3 (c : Dev nD) (t : Fin cfg1.N) (d) : (dat1 V c).before 3 t d = iblk1 V c 3 t :=
  before1_3_of V (dat1 V c) (A_eq1 V c 3) (after1_3 V c) t d
/-- The body's post for input window 3: never idle, so the buffer at the block. -/
theorem leaves1_3 (c : Dev nD) (t : Fin cfg1.N) :
    (dat1 V c).leavesExact 3 t = owns (c : Thread nD τ) (st1_3 t) fullShare (iblk1 V c 3 t) := by
  unfold Dat.leavesExact; rw [liveAt1_3 t, after1_3]

/-- Input window 4's current staging buffer holds its block at every point, fetched there or not: the body leaves
    the block in place, and the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_4 (c : Dev nD) (t : Fin cfg1.N) (d) : (dat1 V c).before 4 t d = iblk1 V c 4 t :=
  before1_4_of V (dat1 V c) (A_eq1 V c 4) (after1_4 V c) t d
/-- The body's post for input window 4: never idle, so the buffer at the block. -/
theorem leaves1_4 (c : Dev nD) (t : Fin cfg1.N) :
    (dat1 V c).leavesExact 4 t = owns (c : Thread nD τ) (st1_4 t) fullShare (iblk1 V c 4 t) := by
  unfold Dat.leavesExact; rw [liveAt1_4 t, after1_4]

/-! ## The accumulator, point by point -/

/-- At the first point the block's term is added to zero. -/
theorem acc1_first (c : Dev nD) (t : Fin cfg1.N) (h : t.val = 0) :
    acc1 V c t.val t.isLt = k1_pay2 (iblk1 V c 0 t) (iblk1 V c 1 t) (iblk1 V c 2 t) (iblk1 V c 3 t) (iblk1 V c 4 t) (k1_pay1 (F := F)) := by
  obtain ⟨n, hn⟩ := t
  cases n with
  | zero => rfl
  | succ n => exact absurd h (Nat.succ_ne_zero n)

/-- At a later point it is added to what the point before left. -/
theorem acc1_next (c : Dev nD) (t : Fin cfg1.N) (h : ¬t.val = 0) :
    acc1 V c t.val t.isLt = k1_pay2 (iblk1 V c 0 t) (iblk1 V c 1 t) (iblk1 V c 2 t) (iblk1 V c 3 t) (iblk1 V c 4 t)
      (acc1 V c (t.val - 1) (Nat.lt_of_le_of_lt (Nat.sub_le _ _) t.isLt)) := by
  obtain ⟨n, hn⟩ := t
  cases n with
  | zero => exact absurd rfl h
  | succ n => rfl

/-! ## The class's invariant with the scratch buffer apart -/

/-- The class's invariant lists the scoped buffers that are no staging buffer of this pipeline, the scratch buffer
    last: it is the other twelve, the scratch operand owned at some contents, and the generator register. -/
theorem PhiA1_eq (c : Dev nD) :
    (Pipeline.ΦA spec1 c : sProp 𝕄)
      = iprop(otherScoped1 (F := F) c ∗ (∃ d, owns (c : Thread nD τ) scM1 fullShare d) ∗ (∃ r, prngReg c r)) := by
  unfold Pipeline.ΦA otherScoped1; rw [scopedRest1_eq]; simp only [scM1, owns_whole]
  refine Idealize.SL.BI.Entails.antisymm (show (_ : sProp 𝕄) ⊢ _ from ?_) (show (_ : sProp 𝕄) ⊢ _ from ?_)
  · iintro ⟨⟨A1, A2, A3, A4, A5, A6, A7, A8, A9, A10, A11, A12, A13⟩, Hg⟩
    isplitr [A13 Hg]
    · isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      iexact A12
    isplitl [A13]; · iexact A13
    iexact Hg
  · iintro ⟨⟨A1, A2, A3, A4, A5, A6, A7, A8, A9, A10, A11, A12⟩, A13, Hg⟩
    isplitr [Hg]
    · isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      iexact A13
    iexact Hg

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' buffers hold their blocks; the point is the first, a middle one or the last,
    which decides the two conditionals and so which triple applies. The invariant hands the body the accumulator —
    at anything before the first point, afterwards at what the point before left — and takes it back at this point's
    sum; the other scoped buffers, the generator register and what the core owes pass through. The result's buffer is
    handed back as found except at the last point, where it holds the final sum. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4]
  have hN : t.val < 8 := lt_of_lt_of_eq t.isLt (show cfg1.N = 8 from N_1)
  by_cases h0 : t.val = 0
  · have h7 : ¬t.val = 7 := by omega
    have hc0 : cond1_0 (grid1.coords t) := (hcond1_0 t).mpr h0
    have hc1 : ¬cond1_1 (grid1.coords t) := fun h => h7 ((hcond1_1 t).mp h)
    rw [Dat.leavesExact_idle (dat1 V c) 5 t (idleAt1_5 t hc1) (noFlush1_5 t hc1)]
    rw [acc1_first V c t h0]
    rw [PhiS1_castSucc V c t, PhiS1_zero V c _ _ h0, PhiA1_eq]
    iintro ⟨⟨Hr, ⟨%z, HS⟩, Hg⟩, Ho, ⟨%d0, H0⟩, ⟨%d1, H1⟩, ⟨%d2, H2⟩, ⟨%d3, H3⟩, ⟨%d4, H4⟩, ⟨%d5, H5⟩⟩
    iapply (run1_A c (grid1.coords t) _ _ _ _ _ _ _ _ _ _ _ _ _ _ hc0 hc1 (iblk1 V c 0 t) (iblk1 V c 1 t) (iblk1 V c 2 t) (iblk1 V c 3 t) (iblk1 V c 4 t) _ z Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [Hr HS Hg]
    · isplitl [Hr]; · iexact Hr
      isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hc0 : ¬cond1_0 (grid1.coords t) := fun h => h0 ((hcond1_0 t).mp h)
    rw [acc1_next V c t h0]
    rw [PhiS1_castSucc V c t, PhiS1_pos V c _ _ h0]
    by_cases h7 : t.val = 7
    · have hc1 : cond1_1 (grid1.coords t) := (hcond1_1 t).mpr h7
      rw [show (dat1 V c).leavesExact 5 t = owns (c : Thread nD τ) (st1_5 t) fullShare ((dat1 V c).after 5 t) from by
        unfold Dat.leavesExact; rw [liveAt1_5 t hc1], after1_5, acc1_next V c t h0]
      iintro ⟨⟨Hr, HS, Hg⟩, Ho, ⟨%d0, H0⟩, ⟨%d1, H1⟩, ⟨%d2, H2⟩, ⟨%d3, H3⟩, ⟨%d4, H4⟩, ⟨%d5, H5⟩⟩
      iapply (run1_C c (grid1.coords t) _ _ _ _ _ _ _ _ _ _ _ _ _ _ hc0 hc1 (iblk1 V c 0 t) (iblk1 V c 1 t) (iblk1 V c 2 t) (iblk1 V c 3 t) (iblk1 V c 4 t) _ _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond1_1 (grid1.coords t) := fun h => h7 ((hcond1_1 t).mp h)
      rw [Dat.leavesExact_idle (dat1 V c) 5 t (idleAt1_5 t hc1) (noFlush1_5 t hc1)]
      iintro ⟨⟨Hr, HS, Hg⟩, Ho, ⟨%d0, H0⟩, ⟨%d1, H1⟩, ⟨%d2, H2⟩, ⟨%d3, H3⟩, ⟨%d4, H4⟩, ⟨%d5, H5⟩⟩
      iapply (run1_B c (grid1.coords t) _ _ _ _ _ _ _ _ _ _ _ _ _ _ hc0 hc1 (iblk1 V c 0 t) (iblk1 V c 1 t) (iblk1 V c 2 t) (iblk1 V c 3 t) (iblk1 V c 4 t) _ _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation for pipeline 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch's named contents are forgotten. -/
theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 8 := N_1; omega), PhiA1_eq]
  iintro ⟨Hr, HS, Hg⟩
  isplitl [Hr]; · iexact Hr
  isplitl [HS]; · iexists _; iexact HS
  iexact Hg

end Regions

end Cert.Kernel.Hand

end
-- ==== Proof.K.Run.lean ====
/-
  The whole program's run: pipeline 0, the host operations that turn its partial column sums into the degree
  column, pipeline 1, the final reshape. The contents of every unscoped buffer are followed from the launch to the
  return: a pipeline leaves its arrays at what its write-backs fold to and every other buffer as it found it, a host
  stretch applies its operations. Every weakly fair execution terminates, and the final memory holds the last of
  these contents.
-/
import proofs.«145481_j19559281066265_2_alg».proof.Proof.Gen.Kernel.Launch
import proofs.«145481_j19559281066265_2_alg».proof.Proof.Gen.Kernel.Skeleton
import proofs.«145481_j19559281066265_2_alg».proof.Proof.Gen.Kernel.Points
import proofs.«145481_j19559281066265_2_alg».proof.Proof.K.Body0
import proofs.«145481_j19559281066265_2_alg».proof.Proof.K.Body1
import proofs.«145481_j19559281066265_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev Wl : Dev nD → Valuation τ sig (Elt F) := fun c b => m (c, b)
/-- The same read at the TensorCore's references (what pipeline 0's proof data take). -/
abbrev Vl : (c : Dev nD) → (b : Ref sig .tc) → Buf (Elt F) ((c : Thread nD τ).loc b) := fun c b => Wl m c b

/-- After pipeline 0: its arrays at what the write-backs leave, every other buffer as entered. -/
def Wa (c : Dev nD) : Valuation τ sig (Elt F) :=
  Pipeline.withArrays spec0 c (Wl m c) fun w => (dat0 (Vl m) c).arrAt w cfg0.N
theorem Wa_arr (c : Dev nD) (w : Fin cfg0.W) :
    Wa m c (Proc.devRef .tc (Pipeline.arrRef spec0 w)) = (dat0 (Vl m) c).arrAt w cfg0.N := by
  unfold Wa; exact Pipeline.withArrays_arr spec0 launch0.win.arr_inj c _ _ w
theorem Wa_of_ne (c : Dev nD) (b : Ref sig .tc) (hb : ∀ w, Pipeline.arrRef spec0 w ≠ b) :
    Wa m c (Proc.devRef .tc b) = Wl m c (Proc.devRef .tc b) := by
  unfold Wa; exact Pipeline.withArrays_of_ne spec0 c _ _ b hb
abbrev Va : (c : Dev nD) → (b : Ref sig .tc) → Buf (Elt F) ((c : Thread nD τ).loc b) := fun c b => Wa m c b
theorem hF0 (c : Dev nD) (w : Fin cfg0.W) : (dat0 (Vl m) c).arrAt w cfg0.N = Va m c (Pipeline.arrRef spec0 w) :=
  (Wa_arr m c w).symm
theorem hrest0 (c : Dev nD) : ∀ b, b ∉ Finset.univ.image (Pipeline.arrRef spec0) → Va m c b = Vl m c b :=
  fun b hb => Wa_of_ne m c b fun w e => hb (Finset.mem_image.mpr ⟨w, Finset.mem_univ _, e⟩)

/-- After the host operations between the pipelines (pipeline 1's entry). -/
abbrev Wb : Dev nD → Valuation τ sig (Elt F) := fun c => StableHlo.after hostOps1 (Wa m c)
abbrev Vb : (c : Dev nD) → (b : Ref sig .tc) → Buf (Elt F) ((c : Thread nD τ).loc b) := fun c b => Wb m c b

/-- After pipeline 1. -/
def Wc (c : Dev nD) : Valuation τ sig (Elt F) :=
  Pipeline.withArrays spec1 c (Wb m c) fun w => (dat1 (Vb m) c).arrAt w cfg1.N
theorem Wc_arr (c : Dev nD) (w : Fin cfg1.W) :
    Wc m c (Proc.devRef .tc (Pipeline.arrRef spec1 w)) = (dat1 (Vb m) c).arrAt w cfg1.N := by
  unfold Wc; exact Pipeline.withArrays_arr spec1 launch1.win.arr_inj c _ _ w
theorem Wc_of_ne (c : Dev nD) (b : Ref sig .tc) (hb : ∀ w, Pipeline.arrRef spec1 w ≠ b) :
    Wc m c (Proc.devRef .tc b) = Wb m c (Proc.devRef .tc b) := by
  unfold Wc; exact Pipeline.withArrays_of_ne spec1 c _ _ b hb
abbrev Vc : (c : Dev nD) → (b : Ref sig .tc) → Buf (Elt F) ((c : Thread nD τ).loc b) := fun c b => Wc m c b
theorem hF1 (c : Dev nD) (w : Fin cfg1.W) : (dat1 (Vb m) c).arrAt w cfg1.N = Vc m c (Pipeline.arrRef spec1 w) :=
  (Wc_arr m c w).symm
theorem hrest1 (c : Dev nD) : ∀ b, b ∉ Finset.univ.image (Pipeline.arrRef spec1) → Vc m c b = Vb m c b :=
  fun b hb => Wc_of_ne m c b fun w e => hb (Finset.mem_image.mpr ⟨w, Finset.mem_univ _, e⟩)

/-- After the last host operation: what the program returns with. -/
abbrev Wd : Dev nD → Valuation τ sig (Elt F) := fun c => StableHlo.after hostOps2 (Wc m c)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vl m) c
  | ⟨1, _⟩ => fun c => dat1 (Vb m) c
abbrev 𝒱H : Variants := Variants.none
/-- No core owes another anything: no level is assigned. -/
abbrev LH : GSem nD τ sig → Finset Unit := fun _ => ∅
abbrev lvH : GSem nD τ sig → Unit → ℕ := fun _ _ => 0
/-- What rides beside the buffers through every segment: the core's generator register at some state and its dues,
    at nothing. -/
abbrev RH (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register. -/
abbrev TH (c : Dev nD) : sProp 𝕄 := iprop(StableHlo.held (c : Thread nD τ) (Pipeline.ucRefs τ sig) (Wd m c) ∗ ∃ r, prngReg c r)

/-! ## The pipelines as segments -/

-- a library lemma stated over the pinned configuration unifies with the printed one only when unification may
-- unfold plain definitions in a metavariable's type
set_option backward.isDefEq.respectTransparency.types false in
/-- Pipeline 0 as a segment: entered with every unscoped buffer at the contents before it, left with the pipeline's
    arrays at what its write-backs leave and every other buffer as entered; the generator register goes into the
    region invariant and comes back; nothing is owed; the kernel has no semaphore of its own. -/
def reg0 : Pipeline.RegionSeg (pcfgs (F := F)) adm (pdats m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Vl m) c).loose
  hwaits := Pipeline.hwaits_of_owed_zero _ _ _ _ LH lvH 0 fun _ _ => rfl
  pre c := iprop(StableHlo.held (c : Thread nD τ) (Pipeline.ucRefs τ sig) (Wl m c) ∗ RH c)
  post c := iprop(StableHlo.held (c : Thread nD τ) (Pipeline.ucRefs τ sig) (Wa m c) ∗ RH c)
  X c := iprop(∃ r, prngReg c r)
  Y c := iprop(∃ r, prngReg c r)
  Z c := Pipeline.unscopedRest (Ix := Unit) (Name := ℕ) (U := UR sig nD τ) (Lvl := ℕ) spec0 c (Vl m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vl m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vl m c) (Va m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Pipeline 1 as a segment: entered with every unscoped buffer at the contents before it, left with the pipeline's
    arrays at what its write-backs leave and every other buffer as entered; the generator register goes into the
    region invariant and comes back; nothing is owed; the kernel has no semaphore of its own. -/
def reg1 : Pipeline.RegionSeg (pcfgs (F := F)) adm (pdats m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (Vb m) c).loose
  hwaits := Pipeline.hwaits_of_owed_zero _ _ _ _ LH lvH 1 fun _ _ => rfl
  pre c := iprop(StableHlo.held (c : Thread nD τ) (Pipeline.ucRefs τ sig) (Wb m c) ∗ RH c)
  post c := iprop(StableHlo.held (c : Thread nD τ) (Pipeline.ucRefs τ sig) (Wc m c) ∗ RH c)
  X c := iprop(∃ r, prngReg c r)
  Y c := iprop(∃ r, prngReg c r)
  Z c := Pipeline.unscopedRest (Ix := Unit) (Name := ℕ) (U := UR sig nD τ) (Lvl := ℕ) spec1 c (Vb m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vb m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (Vb m) c)
    unfold Pipeline.ΦA
    iintro ⟨Hp, -, Hr⟩
    isplitl [Hr]; · iexact Hr
    iexact Hp
  hout c := by
    rw [Pipeline.ownSems0_none]
    refine (hout1 (Vb m) c).trans (show (Pipeline.ΦA spec1 c : sProp 𝕄) ⊢ _ from ?_)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vb m c) (Vc m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segsH : List (Pipeline.Seg (pcfgs (F := F)) adm (pdats m) () defs₀ 𝒱H LH lvH) :=
  [ .region (reg0 m),
    .host (hseg hostOps1 hostOps1_sub hostOps1_fresh (Wa m)),
    .region (reg1 m),
    .host (hseg hostOps2 hostOps2_sub hostOps2_fresh (Wc m)) ]

theorem main_run (c : Dev nD) : main (F := F) c = Pipeline.Seg.run (segsH m) := (main_chain c).trans (by chain_rfl)

set_option backward.isDefEq.respectTransparency.types false in
/-- Every weakly fair execution of the program from memory `m` with zero counters terminates, nothing faulting, and the
    final memory holds, at every unscoped buffer, the contents followed above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wd m c b) :=
  Pipeline.θ_run_regions_kit (pcfgs (F := F)) adm (pdats m) () cellOf_inj emb₁ defs₀ 𝒱H LH lvH m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wl m c) ∗ RH c)) (Tₙ := TH m)
    (hch := ⟨fun _ => .rfl, fun _ => .rfl, fun _ => .rfl, fun _ => .rfl, fun c => by
      show iprop(StableHlo.held (c : Thread nD τ) (Pipeline.ucRefs τ sig) (StableHlo.after hostOps2 (Wc m c)) ∗ RH c) ⊢ _
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (Wl m c)
        from Pipeline.unscopedBufs_held c (Wl m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wd m c b)
    (hfin := fun c s' => by
      iintro ⟨⟨Hh, -⟩, HSI⟩
      unfold StableHlo.held
      imodintro
      iapply (pointsTo_read_all (Pipeline.ucRefs τ sig) (fun b => (((c : Thread nD τ)).1, b)) (Wd m c) s')
      isplitl [Hh] <;> iassumption)
    (hQ := fun s h c => h c)

end Cert.Kernel.Hand

end
-- ==== Proof.K.Kept.lean ====
/-
  The argument arrays at the end of the run: no host operation writes one, and a pipeline reads them through input
  windows or not at all, so each holds at the return what it held at the launch.
-/
import proofs.«145481_j19559281066265_2_alg».proof.Proof.Gen.Kernel.Launch
import proofs.«145481_j19559281066265_2_alg».proof.Proof.Gen.Kernel.Skeleton
import proofs.«145481_j19559281066265_2_alg».proof.Proof.Gen.Kernel.Points
import proofs.«145481_j19559281066265_2_alg».proof.Proof.K.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem Va_arg2 (c : Dev nD) : Va m c main_arg2 = m ((c : Thread nD τ).loc main_arg2) :=
  (Wa_arr m c 0).trans (((dat0 (Vl m) c).arrAt_in 0 rfl _).trans (A_eq0 (Vl m) c 0))
theorem Va_arg0 (c : Dev nD) : Va m c main_arg0 = m ((c : Thread nD τ).loc main_arg0) :=
  (Wa_arr m c 1).trans (((dat0 (Vl m) c).arrAt_in 1 rfl _).trans (A_eq0 (Vl m) c 1))
theorem Va_arg1 (c : Dev nD) : Va m c main_arg1 = m ((c : Thread nD τ).loc main_arg1) :=
  (Wa_arr m c 2).trans (((dat0 (Vl m) c).arrAt_in 2 rfl _).trans (A_eq0 (Vl m) c 2))

/-- A buffer the host operations between the pipelines do not write keeps its contents. -/
theorem Vb_keep (c : Dev nD) (b : Ref sig .tc) (h : b ∉ hostOps1_W) : Vb m c b = Va m c b :=
  StableHlo.after_of_writes_sub hostOps1 _ hostOps1_writes h

theorem Wd_arg0 (c : Dev nD) : Wd m c (Proc.devRef .tc main_arg0) = m ((c : Thread nD τ).loc main_arg0) :=
  (StableHlo.after_of_writes_sub hostOps2 _ hostOps2_writes (by decide : main_arg0 ∉ hostOps2_W)).trans <|
    (Wc_arr m c 0).trans <| ((dat1 (Vb m) c).arrAt_in 0 rfl _).trans <| (A_eq1 (Vb m) c 0).trans <|
    (Vb_keep m c main_arg0 (by decide)).trans (Va_arg0 m c)
theorem Wd_arg1 (c : Dev nD) : Wd m c (Proc.devRef .tc main_arg1) = m ((c : Thread nD τ).loc main_arg1) :=
  (StableHlo.after_of_writes_sub hostOps2 _ hostOps2_writes (by decide : main_arg1 ∉ hostOps2_W)).trans <|
    (Wc_arr m c 1).trans <| ((dat1 (Vb m) c).arrAt_in 1 rfl _).trans <| (A_eq1 (Vb m) c 1).trans <|
    (Vb_keep m c main_arg1 (by decide)).trans (Va_arg1 m c)
theorem Wd_arg2 (c : Dev nD) : Wd m c (Proc.devRef .tc main_arg2) = m ((c : Thread nD τ).loc main_arg2) :=
  (StableHlo.after_of_writes_sub hostOps2 _ hostOps2_writes (by decide : main_arg2 ∉ hostOps2_W)).trans <|
    (Wc_of_ne m c main_arg2 (by decide)).trans <| (Vb_keep m c main_arg2 (by decide)).trans (Va_arg2 m c)

end Cert.Kernel.Hand

end
-- ==== Proof.KI.Data.lean ====
/-
  The proof data of the two pipelines, at any float instance and at any contents `V` of the core's buffers when a
  region is entered.

  Pipeline 0 walks an 8 x 8 grid of 1024 x 1024 tiles of the adjacency matrix, the column tile `j` fastest. At
  tile (i, j) it adds the tile's product with the j-th row block of each feature matrix onto the i-th row block of
  the two aggregates (cleared at j = 0, written back at j = 7), and writes the tile's column sums, repeated on
  eight sublanes, into block (i, ·, j) of the partial degrees. Pipeline 1 walks the eight row blocks, carries a
  1 x 1 running sum in a scratch buffer (cleared at the first block) and copies it to the result at the last.
-/
import proofs.«145481_j19559281066265_2_alg».proof.Proof.Gen.KernelIdeal.Launch
import proofs.«145481_j19559281066265_2_alg».proof.Proof.Gen.KernelIdeal.Skeleton
import proofs.«145481_j19559281066265_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

/-! ## Pipeline 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the two aggregates' staging buffers hold after the body at position `n`: at the first column tile of a
    row of tiles the tile's product added to zero, at a later one added to what the position before left. -/
def acc0 (c : Dev nD) : (n : ℕ) → n < cfg0.N → Vec F S1024x3 .f32 × Vec F S1024x3 .f32
  | 0, hn => (k0_pay4 (iblk0 V c 0 ⟨0, hn⟩) (iblk0 V c 1 ⟨0, hn⟩) (k0_pay1 (F := F)),
              k0_pay5 (iblk0 V c 0 ⟨0, hn⟩) (iblk0 V c 2 ⟨0, hn⟩) (k0_pay2 (F := F)))
  | n + 1, hn =>
    if (n + 1) % 8 = 0 then
      (k0_pay4 (iblk0 V c 0 ⟨n + 1, hn⟩) (iblk0 V c 1 ⟨n + 1, hn⟩) (k0_pay1 (F := F)),
       k0_pay5 (iblk0 V c 0 ⟨n + 1, hn⟩) (iblk0 V c 2 ⟨n + 1, hn⟩) (k0_pay2 (F := F)))
    else
      (k0_pay4 (iblk0 V c 0 ⟨n + 1, hn⟩) (iblk0 V c 1 ⟨n + 1, hn⟩) (acc0 c n (Nat.lt_of_succ_lt hn)).1,
       k0_pay5 (iblk0 V c 0 ⟨n + 1, hn⟩) (iblk0 V c 2 ⟨n + 1, hn⟩) (acc0 c n (Nat.lt_of_succ_lt hn)).2)

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (acc0 V c t.val t.isLt).1
    | ⟨4, _⟩ => (acc0 V c t.val t.isLt).2
    | ⟨5, _⟩ => k0_pay6 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (acc0 V c t.val t.isLt).1 := by dsimp only [dat0]
theorem after0_4 (c : Dev nD) (t : Fin cfg0.N) : (dat0 V c).after 4 t = (acc0 V c t.val t.isLt).2 := by dsimp only [dat0]
theorem after0_5 (c : Dev nD) (t : Fin cfg0.N) : (dat0 V c).after 5 t = k0_pay6 (iblk0 V c 0 t) := by dsimp only [dat0]

/-- `acc0` at the first column tile of a row of tiles. -/
theorem acc0_first (c : Dev nD) (t : Fin cfg0.N) (h : t.val % 8 = 0) :
    acc0 V c t.val t.isLt = (k0_pay4 (iblk0 V c 0 t) (iblk0 V c 1 t) (k0_pay1 (F := F)),
                             k0_pay5 (iblk0 V c 0 t) (iblk0 V c 2 t) (k0_pay2 (F := F))) := by
  obtain ⟨n, hn⟩ := t
  cases n with
  | zero => rfl
  | succ n => exact (if_pos h).trans rfl

/-- `acc0` at a later column tile. -/
theorem acc0_next (c : Dev nD) (t : Fin cfg0.N) (h : ¬ t.val % 8 = 0) :
    acc0 V c t.val t.isLt
      = (k0_pay4 (iblk0 V c 0 t) (iblk0 V c 1 t) (acc0 V c (t.val - 1) (Nat.lt_of_le_of_lt (Nat.sub_le _ _) t.isLt)).1,
         k0_pay5 (iblk0 V c 0 t) (iblk0 V c 2 t) (acc0 V c (t.val - 1) (Nat.lt_of_le_of_lt (Nat.sub_le _ _) t.isLt)).2) := by
  obtain ⟨n, hn⟩ := t
  cases n with
  | zero => exact absurd (Nat.zero_mod _) h
  | succ n => exact (if_neg h).trans rfl

/-! ## Pipeline 1 -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the scratch accumulator holds after the body at position `n`: the block's sum of squares added to zero at
    the first block, to what the block before left afterwards. -/
def acc1 (c : Dev nD) : (n : ℕ) → n < cfg1.N → Vec F S1x1 .f32
  | 0, hn => k1_pay2 (iblk1 V c 0 ⟨0, hn⟩) (iblk1 V c 1 ⟨0, hn⟩) (iblk1 V c 2 ⟨0, hn⟩) (iblk1 V c 3 ⟨0, hn⟩) (iblk1 V c 4 ⟨0, hn⟩) (k1_pay1 (F := F))
  | n + 1, hn => k1_pay2 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
      (acc1 c n (Nat.lt_of_succ_lt hn))

/-- The kernel's scratch operand. -/
abbrev scM1 : Memref sig .tc .vmem S1x1 .f32 := Memref.whole cc1_scratch0

/-- The core's scoped buffers that are neither a staging buffer of pipeline 1 nor its scratch (pipeline 0's staging
    buffers), each whole at some contents. -/
def otherScoped1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-- The region invariant before position `n`: before the first point the class's (every scoped buffer that is no
    staging buffer at anything, the generator register at some state); afterwards the same with the scratch at what
    the point before left in it. -/
def PhiS1 (c : Dev nD) : (n : ℕ) → n ≤ cfg1.N → sProp 𝕄
  | 0, _ => Pipeline.ΦA spec1 c
  | n + 1, hn => iprop(otherScoped1 (F := F) c ∗ owns (c : Thread nD τ) scM1 fullShare (acc1 V c n hn) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(otherScoped1 (F := F) c ∗ owns (c : Thread nD τ) scM1 fullShare (acc1 V c n hn) ∗ (∃ r, prngReg c r)) := rfl

theorem PhiS1_pos (c : Dev nD) (n : ℕ) (h : n ≤ cfg1.N) (hz : n ≠ 0) :
    PhiS1 V c n h = iprop(otherScoped1 (F := F) c ∗ owns (c : Thread nD τ) scM1 fullShare (acc1 V c (n - 1) (by omega)) ∗ (∃ r, prngReg c r)) := by
  cases n with
  | zero => exact absurd rfl hz
  | succ n => rfl

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = acc1 V c t.val t.isLt := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

end Regions

end Cert.KernelIdeal.Hand

end
-- ==== Proof.KI.Body0.lean ====
/-
  Pipeline 0's body obligation: at every grid point the kernel body, run on the windows' staging buffers holding
  what the proof data says they hold, leaves them as the proof data says.
-/
import proofs.«145481_j19559281066265_2_alg».proof.Proof.Gen.KernelIdeal.Launch
import proofs.«145481_j19559281066265_2_alg».proof.Proof.Gen.KernelIdeal.Skeleton
import proofs.«145481_j19559281066265_2_alg».proof.Proof.Gen.KernelIdeal.Points
import proofs.«145481_j19559281066265_2_alg».proof.Proof.KI.Data
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch condition -/

/-- The condition of the body's one conditional, from the grid coordinates (the skeleton's scalar chain). -/
abbrev cond0_0 (i : grid0.Coords) : Prop := (Scalar.cmpi .ne (Scalar.extui (Scalar.cmpi .eq (BitVec.ofNat 32 (i 1).val) 0#32)) 0#32) = 1#1

/-- It holds exactly at the first column tile of each row of tiles: decided over the 64 points. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## Whole-rectangle accesses -/

theorem hz2 : (![0, 0] : Fin 2 → Nat) = fun _ => 0 := funext fun a => by fin_cases a <;> rfl
theorem hz3 : (![0, 0, 0] : Fin 3 → Nat) = fun _ => 0 := funext fun a => by fin_cases a <;> rfl

/-- A list of pieces whose head is a store through the whole 1024 x 3 rectangle covers the block. -/
theorem cover_S1024x3 (p0 : Vec F S1024x3 .f32) (L : List (View.Piece (Elt F) S1024x3 .f32)) (y : S1024x3.Idx) :
    ∃ pc ∈ ((⟨Rect.unit (s := S1024x3) ![0, 0] S1024x3.size inb_S1024x3_S1024x3_0_0, p0⟩ : View.Piece (Elt F) S1024x3 .f32) :: L), y ∈ pc.1.set :=
  ⟨_, List.mem_cons.mpr (Or.inl rfl), View.mem_set_unit_zero (S := S1024x3) hz2 inb_S1024x3_S1024x3_0_0 y⟩

/-- The same for the 1 x 8 x 1024 block. -/
theorem cover_S1x8x1024 (p0 : Vec F S1x8x1024 .f32) (L : List (View.Piece (Elt F) S1x8x1024 .f32)) (y : S1x8x1024.Idx) :
    ∃ pc ∈ ((⟨Rect.unit (s := S1x8x1024) ![0, 0, 0] S1x8x1024.size inb_S1x8x1024_S1x8x1024_0_0_0, p0⟩ : View.Piece (Elt F) S1x8x1024 .f32) :: L), y ∈ pc.1.set :=
  ⟨_, List.mem_cons.mpr (Or.inl rfl), View.mem_set_unit_zero (S := S1x8x1024) hz3 inb_S1x8x1024_S1x8x1024_0_0_0 y⟩

/-! ## The body's triple, one per control case -/

set_option maxHeartbeats 1000000 in
/-- The kernel body at a first column tile (the branch taken): on whole staging memrefs, the inputs' at contents
    `x0`, `x1`, `x2` and the outputs' at anything, it runs to the continuation holding the inputs' as they were, the
    two aggregates' at the tile's product added to the zeros just stored and read back, and the partial degrees' at
    the tile's column sums. Each buffer ends with a store through its whole rectangle last, so it reads that store's
    payload; a load through the whole rectangle reads the contents, and after the zeroing store the zeros. -/
theorem sound_kernel0_A (c : Dev nD) (E : Set ℕ) (i : grid0.Coords)
    (arg2 : Memref sig .tc .vmem S1024x1024 .f32) (harg2 : arg2.IsWhole) (arg3 : Memref sig .tc .vmem S1024x3 .f32) (harg3 : arg3.IsWhole)
    (arg4 : Memref sig .tc .vmem S1024x3 .f32) (harg4 : arg4.IsWhole) (arg5 : Memref sig .tc .vmem S1024x3 .f32) (harg5 : arg5.IsWhole)
    (arg6 : Memref sig .tc .vmem S1024x3 .f32) (harg6 : arg6.IsWhole) (arg7 : Memref sig .tc .vmem S1x8x1024 .f32) (harg7 : arg7.IsWhole)
    (hc0 : cond0_0 i)
    (x0 : Vec F S1024x1024 .f32) (x1 x2 : Vec F S1024x3 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay4 x0 x1 (k0_pay1 (F := F))) ∗ owns (c : Thread nD τ) arg6 fullShare (k0_pay5 x0 x2 (k0_pay2 (F := F)))
            ∗ owns (c : Thread nD τ) arg7 fullShare (k0_pay6 x0)) -∗ K ⟨⟩))
      ⊢ wp frame (wpE (defs₀ (F := F)) Variants.none c none) E (cc0__agg_kernel i arg2 harg2 arg3 harg3 arg4 harg4 arg5 harg5 arg6 harg6 arg7 harg7) K := by
  simp only [cc0__agg_kernel_eq_skeleton]; unfold cc0__agg_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := harg2.eq_unread hf0; obtain rfl := harg3.eq_unread hf1; obtain rfl := harg4.eq_unread hf2
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [View.read_writes_eq_canon _ _ _ (cover_S1024x3 _ _)]
    sl_unfold_words
    rw [View.canon_cons_unit_zero (S := S1024x3) hz2, View.readCov_unit_zero (S := S1024x3) _ hz2]
    simp only [View.readAt_eq_ld, harg2.read_unread, harg3.read_unread, View.ld_unit_zero (S := S1024x1024) hz2, View.ld_unit_zero (S := S1024x3) hz2]
  isplitl [H4]
  · iexists _; isplitr
    swap; · iexact H4
    ipureintro
    rw [View.read_writes_eq_canon _ _ _ (cover_S1024x3 _ _)]
    sl_unfold_words
    rw [View.canon_cons_unit_zero (S := S1024x3) hz2, View.readCov_unit_zero (S := S1024x3) _ hz2]
    simp only [View.readAt_eq_ld, harg2.read_unread, harg4.read_unread, View.ld_unit_zero (S := S1024x1024) hz2, View.ld_unit_zero (S := S1024x3) hz2]
  iexists _; isplitr
  swap; · iexact H5
  ipureintro
  rw [View.read_writes_eq_canon _ _ _ (cover_S1x8x1024 _ _), View.canon_unit_zero hz3]
  simp only [View.readAt_eq_ld, harg2.read_unread, View.ld_unit_zero (S := S1024x1024) hz2]

set_option maxHeartbeats 1000000 in
/-- The kernel body at a later column tile (the branch not taken): the same, the two aggregates' buffers entering
    at contents `z3`, `z4` and leaving at the tile's product added to them. -/
theorem sound_kernel0_B (c : Dev nD) (E : Set ℕ) (i : grid0.Coords)
    (arg2 : Memref sig .tc .vmem S1024x1024 .f32) (harg2 : arg2.IsWhole) (arg3 : Memref sig .tc .vmem S1024x3 .f32) (harg3 : arg3.IsWhole)
    (arg4 : Memref sig .tc .vmem S1024x3 .f32) (harg4 : arg4.IsWhole) (arg5 : Memref sig .tc .vmem S1024x3 .f32) (harg5 : arg5.IsWhole)
    (arg6 : Memref sig .tc .vmem S1024x3 .f32) (harg6 : arg6.IsWhole) (arg7 : Memref sig .tc .vmem S1x8x1024 .f32) (harg7 : arg7.IsWhole)
    (hc0 : ¬cond0_0 i)
    (x0 : Vec F S1024x1024 .f32) (x1 x2 : Vec F S1024x3 .f32) (z3 z4 : Vec F S1024x3 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare z3 ∗ owns (c : Thread nD τ) arg6 fullShare z4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay4 x0 x1 z3) ∗ owns (c : Thread nD τ) arg6 fullShare (k0_pay5 x0 x2 z4)
            ∗ owns (c : Thread nD τ) arg7 fullShare (k0_pay6 x0)) -∗ K ⟨⟩))
      ⊢ wp frame (wpE (defs₀ (F := F)) Variants.none c none) E (cc0__agg_kernel i arg2 harg2 arg3 harg3 arg4 harg4 arg5 harg5 arg6 harg6 arg7 harg7) K := by
  simp only [cc0__agg_kernel_eq_skeleton]; unfold cc0__agg_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [View.read_writes_eq_canon _ _ _ (cover_S1024x3 _ _), View.canon_unit_zero hz2]
    simp only [View.readAt_eq_ld, harg2.read_unread, harg3.read_unread, harg5.read_unread, View.ld_unit_zero (S := S1024x1024) hz2, View.ld_unit_zero (S := S1024x3) hz2]
  isplitl [H4]
  · iexists _; isplitr
    swap; · iexact H4
    ipureintro
    rw [View.read_writes_eq_canon _ _ _ (cover_S1024x3 _ _), View.canon_unit_zero hz2]
    simp only [View.readAt_eq_ld, harg2.read_unread, harg4.read_unread, harg6.read_unread, View.ld_unit_zero (S := S1024x1024) hz2, View.ld_unit_zero (S := S1024x3) hz2]
  iexists _; isplitr
  swap; · iexact H5
  ipureintro
  rw [View.read_writes_eq_canon _ _ _ (cover_S1x8x1024 _ _), View.canon_unit_zero hz3]
  simp only [View.readAt_eq_ld, harg2.read_unread, View.ld_unit_zero (S := S1024x1024) hz2]

section Regions

variable (V : (c : Dev nD) → (b : Ref sig .tc) → Buf (Elt F) ((c : Thread nD τ).loc b))

/-! ## What the body finds in each staging buffer -/

/-- An input's current staging buffer holds its block at every point, fetched there or not: the windows are uncut
    and never idle, and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-- At a later column tile the first aggregate's staging buffer holds what the body left at the point before: the
    point is not the first, and the buffer is written back only at the last column tile of a row of tiles. -/
theorem before0_3_B (c : Dev nD) (t : Fin cfg0.N) (h0 : ¬t.val % 8 = 0) (d) :
    (dat0 V c).before 3 t d = (acc0 V c (t.val - 1) (Nat.lt_of_le_of_lt (Nat.sub_le _ _) t.isLt)).1 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  exact after0_3 V c _
/-- The same for the second aggregate. -/
theorem before0_4_B (c : Dev nD) (t : Fin cfg0.N) (h0 : ¬t.val % 8 = 0) (d) :
    (dat0 V c).before 4 t d = (acc0 V c (t.val - 1) (Nat.lt_of_le_of_lt (Nat.sub_le _ _) t.isLt)).2 := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  exact after0_4 V c _

/-- The recursion's components at a first column tile, -/
theorem acc0_A_1 (c : Dev nD) (t : Fin cfg0.N) (h : t.val % 8 = 0) :
    (acc0 V c t.val t.isLt).1 = k0_pay4 (iblk0 V c 0 t) (iblk0 V c 1 t) (k0_pay1 (F := F)) := by rw [acc0_first V c t h]
theorem acc0_A_2 (c : Dev nD) (t : Fin cfg0.N) (h : t.val % 8 = 0) :
    (acc0 V c t.val t.isLt).2 = k0_pay5 (iblk0 V c 0 t) (iblk0 V c 2 t) (k0_pay2 (F := F)) := by rw [acc0_first V c t h]
/-- and at a later one. -/
theorem acc0_B_1 (c : Dev nD) (t : Fin cfg0.N) (h : ¬t.val % 8 = 0) :
    (acc0 V c t.val t.isLt).1 = k0_pay4 (iblk0 V c 0 t) (iblk0 V c 1 t) (acc0 V c (t.val - 1) (Nat.lt_of_le_of_lt (Nat.sub_le _ _) t.isLt)).1 := by
  rw [acc0_next V c t h]
theorem acc0_B_2 (c : Dev nD) (t : Fin cfg0.N) (h : ¬t.val % 8 = 0) :
    (acc0 V c t.val t.isLt).2 = k0_pay5 (iblk0 V c 0 t) (iblk0 V c 2 t) (acc0 V c (t.val - 1) (Nat.lt_of_le_of_lt (Nat.sub_le _ _) t.isLt)).2 := by
  rw [acc0_next V c t h]

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 800000 in
/-- The body at any point: the inputs' buffers hold their blocks; the closed form of the condition says which case
    the point is in; at a later column tile the aggregates' buffers hold what the point before left; so the case's
    triple applies. The invariant passes through unread and the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  by_cases h0 : t.val % 8 = 0
  · rw [acc0_A_1 V c t h0, acc0_A_2 V c t h0]
    iintro ⟨HΦ, Ho, ⟨%d0, H0⟩, ⟨%d1, H1⟩, ⟨%d2, H2⟩, ⟨%d3, H3⟩, ⟨%d4, H4⟩, ⟨%d5, H5⟩⟩
    iapply (sound_kernel0_A c Set.univ (grid0.coords t) _ _ _ _ _ _ _ _ _ _ _ _ ((hcond0_0 t).mpr h0) (iblk0 V c 0 t) (iblk0 V c 1 t) (iblk0 V c 2 t) _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc0_B_1 V c t h0, acc0_B_2 V c t h0]
    simp only [before0_3_B V c t h0, before0_4_B V c t h0]
    iintro ⟨HΦ, Ho, ⟨%d0, H0⟩, ⟨%d1, H1⟩, ⟨%d2, H2⟩, ⟨%d3, H3⟩, ⟨%d4, H4⟩, ⟨%d5, H5⟩⟩
    iapply (sound_kernel0_B c Set.univ (grid0.coords t) _ _ _ _ _ _ _ _ _ _ _ _ (fun h => h0 ((hcond0_0 t).mp h)) (iblk0 V c 0 t) (iblk0 V c 1 t) (iblk0 V c 2 t) _ _ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The library's body obligation for pipeline 0, at every point. -/
theorem body_obligation0 (c : Dev nD) : BodyObligation (dat0 (F := F) V c) (defs₀ (F := F)) Variants.none () Set.univ := by
  intro t
  rw [bigSep_W0, bigSep_W0]
  exact sound_body0 V c t

end Regions

end Cert.KernelIdeal.Hand

end
-- ==== Proof.KI.Body1.lean ====
/-
  Pipeline 1's body obligation, and the passage between the class's invariant and the one that names the scratch
  accumulator's contents.
-/
import proofs.«145481_j19559281066265_2_alg».proof.Proof.Gen.KernelIdeal.Launch
import proofs.«145481_j19559281066265_2_alg».proof.Proof.Gen.KernelIdeal.Skeleton
import proofs.«145481_j19559281066265_2_alg».proof.Proof.Gen.KernelIdeal.Points
import proofs.«145481_j19559281066265_2_alg».proof.Proof.KI.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

/-! ## Reading through the whole rectangle -/

/-- The zero offsets of a rank-2 rectangle, as the printed accesses spell them. -/
theorem zeros2 : (![0, 0] : Fin 2 → ℕ) = fun _ => 0 := by
  funext a; fin_cases a <;> rfl

/-- Every index lies in the whole-shape rectangle at zero offsets. -/
theorem mem_whole_rect {S : Shape} {off : Fin S.rank → ℕ} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- A load through the whole-shape rectangle at zero offsets reads the buffer's contents. -/
theorem readAt_whole {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a) :
    v.readAt (Elt F) (Rect.unit off S.size inb).toLoadRect f = v.read (Elt F) f := by
  subst h; rw [View.readAt_eq_ld]; funext x
  show v.read (Elt F) f ((Rect.whole S).emb x) = v.read (Elt F) f x
  rw [Rect.emb_whole_apply]

/-- Stores of which the last went through the whole-shape rectangle at zero offsets leave the last one's value. -/
theorem canon_cons_whole {S : Shape} {e : EltTy} {off : Fin S.rank → ℕ} (h : off = fun _ => 0)
    (inb : ∀ a, off a + S.size a ≤ S.size a) (w : S.Idx → Elt F e) (L : List (View.Piece (Elt F) S e)) :
    View.canon ((⟨Rect.unit off S.size inb, w⟩ : View.Piece (Elt F) S e) :: L) = w := by
  subst h; funext y
  have e := View.canon_cons_emb (Val := Elt F) (Rect.whole S) w L y
  rw [Rect.emb_whole_apply] at e
  exact e

/-- After such stores the buffer reads as the last one's value, whatever it held before. -/
theorem read_store_whole {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, mem_whole_rect h inb y⟩),
    canon_cons_whole h inb w L]

/-- A load through it reads back the value of the last store, when that store went through it too. -/
theorem readCov_store_whole {sg : RefSig} {κ : Kind} {sp : Space} {S : Shape} {e : EltTy} (v : View sg κ sp S e)
    {off : Fin S.rank → ℕ} (h : off = fun _ => 0) (inb : ∀ a, off a + S.size a ≤ S.size a)
    (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld v _ _ (fun y => ⟨_, List.mem_cons_self, mem_whole_rect h inb y⟩), canon_cons_whole h inb w L]
  subst h; funext x
  show w ((Rect.whole S).emb x) = w x
  rw [Rect.emb_whole_apply]

/-! ## The two conditionals, decided over the grid -/

/-- The first conditional's test (the grid coordinate is zero), as the kernel computes it. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)
/-- The second conditional's test (the grid coordinate is seven). -/
abbrev cond1_1 (i : grid1.Coords) : Prop := k1_cond2 i = 1#1
/-- It holds at the last point only. -/
theorem hcond1_1 : ∀ t : Fin cfg1.N, cond1_1 (grid1.coords t) ↔ t.val = 7 :=
  (by decide +kernel : ∀ t : Fin grid1.N, cond1_1 (grid1.coords t) ↔ t.val = 7)

/-! ## The body's triple, case by case

The printed function is its skeleton of memory operations; run step by step, each conditional is decided by the
case's hypotheses. What is left is to read the accumulator's final contents in plain form: every access goes through
the whole 1 x 1 rectangle, so a load reads what the last store left. -/

set_option maxHeartbeats 1000000 in
/-- The kernel body at a middle point (neither conditional taken), on whole memrefs holding the five input blocks, the result's buffer and the
    accumulator: the block's term is added to what the accumulator held, and the result's buffer is untouched. -/
theorem run1_B (c : Dev nD) (i : grid1.Coords)
    (arg1 : Memref sig .tc .vmem S1024x3 .f32) (harg1 : arg1.IsWhole) (arg2 : Memref sig .tc .vmem S1024x3 .f32) (harg2 : arg2.IsWhole)
    (arg3 : Memref sig .tc .vmem S1024x3 .f32) (harg3 : arg3.IsWhole) (arg4 : Memref sig .tc .vmem S1024x3 .f32) (harg4 : arg4.IsWhole)
    (arg5 : Memref sig .tc .vmem S1024x1 .f32) (harg5 : arg5.IsWhole) (arg6 : Memref sig .tc .vmem S1x1 .f32) (harg6 : arg6.IsWhole)
    (arg7 : Memref sig .tc .vmem S1x1 .f32) (harg7 : arg7.IsWhole) (hc0 : ¬cond1_0 i) (hc1 : ¬cond1_1 i)
    (x0 x1 x2 x3 : Vec F S1024x3 .f32) (x4 : Vec F S1024x1 .f32) (xi5 z : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xi5
        ∗ owns (c : Thread nD τ) arg7 fullShare z
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xi5
            ∗ owns (c : Thread nD τ) arg7 fullShare (k1_pay2 x0 x1 x2 x3 x4 z)) -∗ K ⟨⟩))
      ⊢ wp frame (wpE (defs₀ (F := F)) Variants.none c none) E (cc1__loss_kernel i arg1 harg1 arg2 harg2 arg3 harg3 arg4 harg4 arg5 harg5 arg6 harg6 arg7 harg7) K := by
  simp only [cc1__loss_kernel_eq_skeleton]; unfold cc1__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro
  rw [read_store_whole _ _ zeros2]
  simp only [readAt_whole (S := S1024x3) _ _ zeros2, readAt_whole (S := S1024x1) _ _ zeros2, readAt_whole (S := S1x1) _ _ zeros2, hf0, hf1, hf2, hf3, hf4, hf6]

set_option maxHeartbeats 1000000 in
/-- The kernel body at the first point (only the first conditional taken), on whole memrefs holding the five input blocks, the result's buffer and the
    accumulator: the accumulator is cleared first, so the block's term is added to zero whatever it held, and the result's buffer is untouched. -/
theorem run1_A (c : Dev nD) (i : grid1.Coords)
    (arg1 : Memref sig .tc .vmem S1024x3 .f32) (harg1 : arg1.IsWhole) (arg2 : Memref sig .tc .vmem S1024x3 .f32) (harg2 : arg2.IsWhole)
    (arg3 : Memref sig .tc .vmem S1024x3 .f32) (harg3 : arg3.IsWhole) (arg4 : Memref sig .tc .vmem S1024x3 .f32) (harg4 : arg4.IsWhole)
    (arg5 : Memref sig .tc .vmem S1024x1 .f32) (harg5 : arg5.IsWhole) (arg6 : Memref sig .tc .vmem S1x1 .f32) (harg6 : arg6.IsWhole)
    (arg7 : Memref sig .tc .vmem S1x1 .f32) (harg7 : arg7.IsWhole) (hc0 : cond1_0 i) (hc1 : ¬cond1_1 i)
    (x0 x1 x2 x3 : Vec F S1024x3 .f32) (x4 : Vec F S1024x1 .f32) (xi5 z : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xi5
        ∗ owns (c : Thread nD τ) arg7 fullShare z
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xi5
            ∗ owns (c : Thread nD τ) arg7 fullShare (k1_pay2 x0 x1 x2 x3 x4 (k1_pay1 (F := F)))) -∗ K ⟨⟩))
      ⊢ wp frame (wpE (defs₀ (F := F)) Variants.none c none) E (cc1__loss_kernel i arg1 harg1 arg2 harg2 arg3 harg3 arg4 harg4 arg5 harg5 arg6 harg6 arg7 harg7) K := by
  simp only [cc1__loss_kernel_eq_skeleton]; unfold cc1__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro
  rw [read_store_whole _ _ zeros2]
  sl_unfold_run_names
  rw [readCov_store_whole _ zeros2]
  simp only [readAt_whole (S := S1024x3) _ _ zeros2, readAt_whole (S := S1024x1) _ _ zeros2, readAt_whole (S := S1x1) _ _ zeros2, hf0, hf1, hf2, hf3, hf4, hf6]

set_option maxHeartbeats 1000000 in
/-- The kernel body at the last point (only the second conditional taken), on whole memrefs holding the five input blocks, the result's buffer and the
    accumulator: the block's term is added to what the accumulator held, and the sum is copied into the result's buffer, whatever that held. -/
theorem run1_C (c : Dev nD) (i : grid1.Coords)
    (arg1 : Memref sig .tc .vmem S1024x3 .f32) (harg1 : arg1.IsWhole) (arg2 : Memref sig .tc .vmem S1024x3 .f32) (harg2 : arg2.IsWhole)
    (arg3 : Memref sig .tc .vmem S1024x3 .f32) (harg3 : arg3.IsWhole) (arg4 : Memref sig .tc .vmem S1024x3 .f32) (harg4 : arg4.IsWhole)
    (arg5 : Memref sig .tc .vmem S1024x1 .f32) (harg5 : arg5.IsWhole) (arg6 : Memref sig .tc .vmem S1x1 .f32) (harg6 : arg6.IsWhole)
    (arg7 : Memref sig .tc .vmem S1x1 .f32) (harg7 : arg7.IsWhole) (hc0 : ¬cond1_0 i) (hc1 : cond1_1 i)
    (x0 x1 x2 x3 : Vec F S1024x3 .f32) (x4 : Vec F S1024x1 .f32) (xi5 z : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xi5
        ∗ owns (c : Thread nD τ) arg7 fullShare z
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare (k1_pay2 x0 x1 x2 x3 x4 z)
            ∗ owns (c : Thread nD τ) arg7 fullShare (k1_pay2 x0 x1 x2 x3 x4 z)) -∗ K ⟨⟩))
      ⊢ wp frame (wpE (defs₀ (F := F)) Variants.none c none) E (cc1__loss_kernel i arg1 harg1 arg2 harg2 arg3 harg3 arg4 harg4 arg5 harg5 arg6 harg6 arg7 harg7) K := by
  simp only [cc1__loss_kernel_eq_skeleton]; unfold cc1__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    rw [read_store_whole _ _ zeros2]
    sl_unfold_run_names
    rw [readCov_store_whole _ zeros2]
    simp only [readAt_whole (S := S1024x3) _ _ zeros2, readAt_whole (S := S1024x1) _ _ zeros2, readAt_whole (S := S1x1) _ _ zeros2, hf0, hf1, hf2, hf3, hf4, hf6]
  iexists _; isplitr
  swap; · iexact H6
  ipureintro
  sl_unfold_run_names
  rw [read_store_whole _ _ zeros2]
  simp only [readAt_whole (S := S1024x3) _ _ zeros2, readAt_whole (S := S1024x1) _ _ zeros2, readAt_whole (S := S1x1) _ _ zeros2, hf0, hf1, hf2, hf3, hf4, hf6]

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
/-- Away from the last point the result's window is idle (the body stores nothing into it), -/
theorem idleAt1_5 : ∀ t : Fin cfg1.N, ¬cond1_1 (grid1.coords t) → cfg1.idle 5 (grid1.coords t) = true := by decide +kernel
/-- and is not written back; -/
theorem noFlush1_5 : ∀ t : Fin cfg1.N, ¬cond1_1 (grid1.coords t) → (cfg1.win 5).flush t = false := by decide +kernel
/-- at the last point it is live. -/
theorem liveAt1_5 : ∀ t : Fin cfg1.N, cond1_1 (grid1.coords t) → cfg1.idle 5 (grid1.coords t) = false := by decide +kernel

/-! ## The inputs' buffers at the body -/

/-- Input window 0's current staging buffer holds its block at every point, fetched there or not: the body leaves
    the block in place, and the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_0 (c : Dev nD) (t : Fin cfg1.N) (d) : (dat1 V c).before 0 t d = iblk1 V c 0 t :=
  before1_0_of V (dat1 V c) (A_eq1 V c 0) (after1_0 V c) t d
/-- The body's post for input window 0: never idle, so the buffer at the block. -/
theorem leaves1_0 (c : Dev nD) (t : Fin cfg1.N) :
    (dat1 V c).leavesExact 0 t = owns (c : Thread nD τ) (st1_0 t) fullShare (iblk1 V c 0 t) := by
  unfold Dat.leavesExact; rw [liveAt1_0 t, after1_0]

/-- Input window 1's current staging buffer holds its block at every point, fetched there or not: the body leaves
    the block in place, and the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_1 (c : Dev nD) (t : Fin cfg1.N) (d) : (dat1 V c).before 1 t d = iblk1 V c 1 t :=
  before1_1_of V (dat1 V c) (A_eq1 V c 1) (after1_1 V c) t d
/-- The body's post for input window 1: never idle, so the buffer at the block. -/
theorem leaves1_1 (c : Dev nD) (t : Fin cfg1.N) :
    (dat1 V c).leavesExact 1 t = owns (c : Thread nD τ) (st1_1 t) fullShare (iblk1 V c 1 t) := by
  unfold Dat.leavesExact; rw [liveAt1_1 t, after1_1]

/-- Input window 2's current staging buffer holds its block at every point, fetched there or not: the body leaves
    the block in place, and the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_2 (c : Dev nD) (t : Fin cfg1.N) (d) : (dat1 V c).before 2 t d = iblk1 V c 2 t :=
  before1_2_of V (dat1 V c) (A_eq1 V c 2) (after1_2 V c) t d
/-- The body's post for input window 2: never idle, so the buffer at the block. -/
theorem leaves1_2 (c : Dev nD) (t : Fin cfg1.N) :
    (dat1 V c).leavesExact 2 t = owns (c : Thread nD τ) (st1_2 t) fullShare (iblk1 V c 2 t) := by
  unfold Dat.leavesExact; rw [liveAt1_2 t, after1_2]

/-- Input window 3's current staging buffer holds its block at every point, fetched there or not: the body leaves
    the block in place, and the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_3 (c : Dev nD) (t : Fin cfg1.N) (d) : (dat1 V c).before 3 t d = iblk1 V c 3 t :=
  before1_3_of V (dat1 V c) (A_eq1 V c 3) (after1_3 V c) t d
/-- The body's post for input window 3: never idle, so the buffer at the block. -/
theorem leaves1_3 (c : Dev nD) (t : Fin cfg1.N) :
    (dat1 V c).leavesExact 3 t = owns (c : Thread nD τ) (st1_3 t) fullShare (iblk1 V c 3 t) := by
  unfold Dat.leavesExact; rw [liveAt1_3 t, after1_3]

/-- Input window 4's current staging buffer holds its block at every point, fetched there or not: the body leaves
    the block in place, and the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_4 (c : Dev nD) (t : Fin cfg1.N) (d) : (dat1 V c).before 4 t d = iblk1 V c 4 t :=
  before1_4_of V (dat1 V c) (A_eq1 V c 4) (after1_4 V c) t d
/-- The body's post for input window 4: never idle, so the buffer at the block. -/
theorem leaves1_4 (c : Dev nD) (t : Fin cfg1.N) :
    (dat1 V c).leavesExact 4 t = owns (c : Thread nD τ) (st1_4 t) fullShare (iblk1 V c 4 t) := by
  unfold Dat.leavesExact; rw [liveAt1_4 t, after1_4]

/-! ## The accumulator, point by point -/

/-- At the first point the block's term is added to zero. -/
theorem acc1_first (c : Dev nD) (t : Fin cfg1.N) (h : t.val = 0) :
    acc1 V c t.val t.isLt = k1_pay2 (iblk1 V c 0 t) (iblk1 V c 1 t) (iblk1 V c 2 t) (iblk1 V c 3 t) (iblk1 V c 4 t) (k1_pay1 (F := F)) := by
  obtain ⟨n, hn⟩ := t
  cases n with
  | zero => rfl
  | succ n => exact absurd h (Nat.succ_ne_zero n)

/-- At a later point it is added to what the point before left. -/
theorem acc1_next (c : Dev nD) (t : Fin cfg1.N) (h : ¬t.val = 0) :
    acc1 V c t.val t.isLt = k1_pay2 (iblk1 V c 0 t) (iblk1 V c 1 t) (iblk1 V c 2 t) (iblk1 V c 3 t) (iblk1 V c 4 t)
      (acc1 V c (t.val - 1) (Nat.lt_of_le_of_lt (Nat.sub_le _ _) t.isLt)) := by
  obtain ⟨n, hn⟩ := t
  cases n with
  | zero => exact absurd rfl h
  | succ n => rfl

/-! ## The class's invariant with the scratch buffer apart -/

/-- The class's invariant lists the scoped buffers that are no staging buffer of this pipeline, the scratch buffer
    last: it is the other twelve, the scratch operand owned at some contents, and the generator register. -/
theorem PhiA1_eq (c : Dev nD) :
    (Pipeline.ΦA spec1 c : sProp 𝕄)
      = iprop(otherScoped1 (F := F) c ∗ (∃ d, owns (c : Thread nD τ) scM1 fullShare d) ∗ (∃ r, prngReg c r)) := by
  unfold Pipeline.ΦA otherScoped1; rw [scopedRest1_eq]; simp only [scM1, owns_whole]
  refine Idealize.SL.BI.Entails.antisymm (show (_ : sProp 𝕄) ⊢ _ from ?_) (show (_ : sProp 𝕄) ⊢ _ from ?_)
  · iintro ⟨⟨A1, A2, A3, A4, A5, A6, A7, A8, A9, A10, A11, A12, A13⟩, Hg⟩
    isplitr [A13 Hg]
    · isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      iexact A12
    isplitl [A13]; · iexact A13
    iexact Hg
  · iintro ⟨⟨A1, A2, A3, A4, A5, A6, A7, A8, A9, A10, A11, A12⟩, A13, Hg⟩
    isplitr [Hg]
    · isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      iexact A13
    iexact Hg

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' buffers hold their blocks; the point is the first, a middle one or the last,
    which decides the two conditionals and so which triple applies. The invariant hands the body the accumulator —
    at anything before the first point, afterwards at what the point before left — and takes it back at this point's
    sum; the other scoped buffers, the generator register and what the core owes pass through. The result's buffer is
    handed back as found except at the last point, where it holds the final sum. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4]
  have hN : t.val < 8 := lt_of_lt_of_eq t.isLt (show cfg1.N = 8 from N_1)
  by_cases h0 : t.val = 0
  · have h7 : ¬t.val = 7 := by omega
    have hc0 : cond1_0 (grid1.coords t) := (hcond1_0 t).mpr h0
    have hc1 : ¬cond1_1 (grid1.coords t) := fun h => h7 ((hcond1_1 t).mp h)
    rw [Dat.leavesExact_idle (dat1 V c) 5 t (idleAt1_5 t hc1) (noFlush1_5 t hc1)]
    rw [acc1_first V c t h0]
    rw [PhiS1_castSucc V c t, PhiS1_zero V c _ _ h0, PhiA1_eq]
    iintro ⟨⟨Hr, ⟨%z, HS⟩, Hg⟩, Ho, ⟨%d0, H0⟩, ⟨%d1, H1⟩, ⟨%d2, H2⟩, ⟨%d3, H3⟩, ⟨%d4, H4⟩, ⟨%d5, H5⟩⟩
    iapply (run1_A c (grid1.coords t) _ _ _ _ _ _ _ _ _ _ _ _ _ _ hc0 hc1 (iblk1 V c 0 t) (iblk1 V c 1 t) (iblk1 V c 2 t) (iblk1 V c 3 t) (iblk1 V c 4 t) _ z Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [Hr HS Hg]
    · isplitl [Hr]; · iexact Hr
      isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hc0 : ¬cond1_0 (grid1.coords t) := fun h => h0 ((hcond1_0 t).mp h)
    rw [acc1_next V c t h0]
    rw [PhiS1_castSucc V c t, PhiS1_pos V c _ _ h0]
    by_cases h7 : t.val = 7
    · have hc1 : cond1_1 (grid1.coords t) := (hcond1_1 t).mpr h7
      rw [show (dat1 V c).leavesExact 5 t = owns (c : Thread nD τ) (st1_5 t) fullShare ((dat1 V c).after 5 t) from by
        unfold Dat.leavesExact; rw [liveAt1_5 t hc1], after1_5, acc1_next V c t h0]
      iintro ⟨⟨Hr, HS, Hg⟩, Ho, ⟨%d0, H0⟩, ⟨%d1, H1⟩, ⟨%d2, H2⟩, ⟨%d3, H3⟩, ⟨%d4, H4⟩, ⟨%d5, H5⟩⟩
      iapply (run1_C c (grid1.coords t) _ _ _ _ _ _ _ _ _ _ _ _ _ _ hc0 hc1 (iblk1 V c 0 t) (iblk1 V c 1 t) (iblk1 V c 2 t) (iblk1 V c 3 t) (iblk1 V c 4 t) _ _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond1_1 (grid1.coords t) := fun h => h7 ((hcond1_1 t).mp h)
      rw [Dat.leavesExact_idle (dat1 V c) 5 t (idleAt1_5 t hc1) (noFlush1_5 t hc1)]
      iintro ⟨⟨Hr, HS, Hg⟩, Ho, ⟨%d0, H0⟩, ⟨%d1, H1⟩, ⟨%d2, H2⟩, ⟨%d3, H3⟩, ⟨%d4, H4⟩, ⟨%d5, H5⟩⟩
      iapply (run1_B c (grid1.coords t) _ _ _ _ _ _ _ _ _ _ _ _ _ _ hc0 hc1 (iblk1 V c 0 t) (iblk1 V c 1 t) (iblk1 V c 2 t) (iblk1 V c 3 t) (iblk1 V c 4 t) _ _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation for pipeline 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch's named contents are forgotten. -/
theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 8 := N_1; omega), PhiA1_eq]
  iintro ⟨Hr, HS, Hg⟩
  isplitl [Hr]; · iexact Hr
  isplitl [HS]; · iexists _; iexact HS
  iexact Hg

end Regions

end Cert.KernelIdeal.Hand

end
-- ==== Proof.KI.Run.lean ====
/-
  The whole program's run: pipeline 0, the host operations that turn its partial column sums into the degree
  column, pipeline 1, the final reshape. The contents of every unscoped buffer are followed from the launch to the
  return: a pipeline leaves its arrays at what its write-backs fold to and every other buffer as it found it, a host
  stretch applies its operations. Every weakly fair execution terminates, and the final memory holds the last of
  these contents.
-/
import proofs.«145481_j19559281066265_2_alg».proof.Proof.Gen.KernelIdeal.Launch
import proofs.«145481_j19559281066265_2_alg».proof.Proof.Gen.KernelIdeal.Skeleton
import proofs.«145481_j19559281066265_2_alg».proof.Proof.Gen.KernelIdeal.Points
import proofs.«145481_j19559281066265_2_alg».proof.Proof.KI.Body0
import proofs.«145481_j19559281066265_2_alg».proof.Proof.KI.Body1
import proofs.«145481_j19559281066265_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev Wl : Dev nD → Valuation τ sig (Elt F) := fun c b => m (c, b)
/-- The same read at the TensorCore's references (what pipeline 0's proof data take). -/
abbrev Vl : (c : Dev nD) → (b : Ref sig .tc) → Buf (Elt F) ((c : Thread nD τ).loc b) := fun c b => Wl m c b

/-- After pipeline 0: its arrays at what the write-backs leave, every other buffer as entered. -/
def Wa (c : Dev nD) : Valuation τ sig (Elt F) :=
  Pipeline.withArrays spec0 c (Wl m c) fun w => (dat0 (Vl m) c).arrAt w cfg0.N
theorem Wa_arr (c : Dev nD) (w : Fin cfg0.W) :
    Wa m c (Proc.devRef .tc (Pipeline.arrRef spec0 w)) = (dat0 (Vl m) c).arrAt w cfg0.N := by
  unfold Wa; exact Pipeline.withArrays_arr spec0 launch0.win.arr_inj c _ _ w
theorem Wa_of_ne (c : Dev nD) (b : Ref sig .tc) (hb : ∀ w, Pipeline.arrRef spec0 w ≠ b) :
    Wa m c (Proc.devRef .tc b) = Wl m c (Proc.devRef .tc b) := by
  unfold Wa; exact Pipeline.withArrays_of_ne spec0 c _ _ b hb
abbrev Va : (c : Dev nD) → (b : Ref sig .tc) → Buf (Elt F) ((c : Thread nD τ).loc b) := fun c b => Wa m c b
theorem hF0 (c : Dev nD) (w : Fin cfg0.W) : (dat0 (Vl m) c).arrAt w cfg0.N = Va m c (Pipeline.arrRef spec0 w) :=
  (Wa_arr m c w).symm
theorem hrest0 (c : Dev nD) : ∀ b, b ∉ Finset.univ.image (Pipeline.arrRef spec0) → Va m c b = Vl m c b :=
  fun b hb => Wa_of_ne m c b fun w e => hb (Finset.mem_image.mpr ⟨w, Finset.mem_univ _, e⟩)

/-- After the host operations between the pipelines (pipeline 1's entry). -/
abbrev Wb : Dev nD → Valuation τ sig (Elt F) := fun c => StableHlo.after hostOps1 (Wa m c)
abbrev Vb : (c : Dev nD) → (b : Ref sig .tc) → Buf (Elt F) ((c : Thread nD τ).loc b) := fun c b => Wb m c b

/-- After pipeline 1. -/
def Wc (c : Dev nD) : Valuation τ sig (Elt F) :=
  Pipeline.withArrays spec1 c (Wb m c) fun w => (dat1 (Vb m) c).arrAt w cfg1.N
theorem Wc_arr (c : Dev nD) (w : Fin cfg1.W) :
    Wc m c (Proc.devRef .tc (Pipeline.arrRef spec1 w)) = (dat1 (Vb m) c).arrAt w cfg1.N := by
  unfold Wc; exact Pipeline.withArrays_arr spec1 launch1.win.arr_inj c _ _ w
theorem Wc_of_ne (c : Dev nD) (b : Ref sig .tc) (hb : ∀ w, Pipeline.arrRef spec1 w ≠ b) :
    Wc m c (Proc.devRef .tc b) = Wb m c (Proc.devRef .tc b) := by
  unfold Wc; exact Pipeline.withArrays_of_ne spec1 c _ _ b hb
abbrev Vc : (c : Dev nD) → (b : Ref sig .tc) → Buf (Elt F) ((c : Thread nD τ).loc b) := fun c b => Wc m c b
theorem hF1 (c : Dev nD) (w : Fin cfg1.W) : (dat1 (Vb m) c).arrAt w cfg1.N = Vc m c (Pipeline.arrRef spec1 w) :=
  (Wc_arr m c w).symm
theorem hrest1 (c : Dev nD) : ∀ b, b ∉ Finset.univ.image (Pipeline.arrRef spec1) → Vc m c b = Vb m c b :=
  fun b hb => Wc_of_ne m c b fun w e => hb (Finset.mem_image.mpr ⟨w, Finset.mem_univ _, e⟩)

/-- After the last host operation: what the program returns with. -/
abbrev Wd : Dev nD → Valuation τ sig (Elt F) := fun c => StableHlo.after hostOps2 (Wc m c)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vl m) c
  | ⟨1, _⟩ => fun c => dat1 (Vb m) c
abbrev 𝒱H : Variants := Variants.none
/-- No core owes another anything: no level is assigned. -/
abbrev LH : GSem nD τ sig → Finset Unit := fun _ => ∅
abbrev lvH : GSem nD τ sig → Unit → ℕ := fun _ _ => 0
/-- What rides beside the buffers through every segment: the core's generator register at some state and its dues,
    at nothing. -/
abbrev RH (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register. -/
abbrev TH (c : Dev nD) : sProp 𝕄 := iprop(StableHlo.held (c : Thread nD τ) (Pipeline.ucRefs τ sig) (Wd m c) ∗ ∃ r, prngReg c r)

/-! ## The pipelines as segments -/

-- a library lemma stated over the pinned configuration unifies with the printed one only when unification may
-- unfold plain definitions in a metavariable's type
set_option backward.isDefEq.respectTransparency.types false in
/-- Pipeline 0 as a segment: entered with every unscoped buffer at the contents before it, left with the pipeline's
    arrays at what its write-backs leave and every other buffer as entered; the generator register goes into the
    region invariant and comes back; nothing is owed; the kernel has no semaphore of its own. -/
def reg0 : Pipeline.RegionSeg (pcfgs (F := F)) adm (pdats m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Vl m) c).loose
  hwaits := Pipeline.hwaits_of_owed_zero _ _ _ _ LH lvH 0 fun _ _ => rfl
  pre c := iprop(StableHlo.held (c : Thread nD τ) (Pipeline.ucRefs τ sig) (Wl m c) ∗ RH c)
  post c := iprop(StableHlo.held (c : Thread nD τ) (Pipeline.ucRefs τ sig) (Wa m c) ∗ RH c)
  X c := iprop(∃ r, prngReg c r)
  Y c := iprop(∃ r, prngReg c r)
  Z c := Pipeline.unscopedRest (Ix := Unit) (Name := ℕ) (U := UR sig nD τ) (Lvl := ℕ) spec0 c (Vl m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vl m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vl m c) (Va m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Pipeline 1 as a segment: entered with every unscoped buffer at the contents before it, left with the pipeline's
    arrays at what its write-backs leave and every other buffer as entered; the generator register goes into the
    region invariant and comes back; nothing is owed; the kernel has no semaphore of its own. -/
def reg1 : Pipeline.RegionSeg (pcfgs (F := F)) adm (pdats m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (Vb m) c).loose
  hwaits := Pipeline.hwaits_of_owed_zero _ _ _ _ LH lvH 1 fun _ _ => rfl
  pre c := iprop(StableHlo.held (c : Thread nD τ) (Pipeline.ucRefs τ sig) (Wb m c) ∗ RH c)
  post c := iprop(StableHlo.held (c : Thread nD τ) (Pipeline.ucRefs τ sig) (Wc m c) ∗ RH c)
  X c := iprop(∃ r, prngReg c r)
  Y c := iprop(∃ r, prngReg c r)
  Z c := Pipeline.unscopedRest (Ix := Unit) (Name := ℕ) (U := UR sig nD τ) (Lvl := ℕ) spec1 c (Vb m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vb m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (Vb m) c)
    unfold Pipeline.ΦA
    iintro ⟨Hp, -, Hr⟩
    isplitl [Hr]; · iexact Hr
    iexact Hp
  hout c := by
    rw [Pipeline.ownSems0_none]
    refine (hout1 (Vb m) c).trans (show (Pipeline.ΦA spec1 c : sProp 𝕄) ⊢ _ from ?_)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vb m c) (Vc m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segsH : List (Pipeline.Seg (pcfgs (F := F)) adm (pdats m) () defs₀ 𝒱H LH lvH) :=
  [ .region (reg0 m),
    .host (hseg hostOps1 hostOps1_sub hostOps1_fresh (Wa m)),
    .region (reg1 m),
    .host (hseg hostOps2 hostOps2_sub hostOps2_fresh (Wc m)) ]

theorem main_run (c : Dev nD) : main (F := F) c = Pipeline.Seg.run (segsH m) := (main_chain c).trans (by chain_rfl)

set_option backward.isDefEq.respectTransparency.types false in
/-- Every weakly fair execution of the program from memory `m` with zero counters terminates, nothing faulting, and the
    final memory holds, at every unscoped buffer, the contents followed above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wd m c b) :=
  Pipeline.θ_run_regions_kit (pcfgs (F := F)) adm (pdats m) () cellOf_inj emb₁ defs₀ 𝒱H LH lvH m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wl m c) ∗ RH c)) (Tₙ := TH m)
    (hch := ⟨fun _ => .rfl, fun _ => .rfl, fun _ => .rfl, fun _ => .rfl, fun c => by
      show iprop(StableHlo.held (c : Thread nD τ) (Pipeline.ucRefs τ sig) (StableHlo.after hostOps2 (Wc m c)) ∗ RH c) ⊢ _
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (Wl m c)
        from Pipeline.unscopedBufs_held c (Wl m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wd m c b)
    (hfin := fun c s' => by
      iintro ⟨⟨Hh, -⟩, HSI⟩
      unfold StableHlo.held
      imodintro
      iapply (pointsTo_read_all (Pipeline.ucRefs τ sig) (fun b => (((c : Thread nD τ)).1, b)) (Wd m c) s')
      isplitl [Hh] <;> iassumption)
    (hQ := fun s h c => h c)

end Cert.KernelIdeal.Hand

end
-- ==== Proof.KI.Kept.lean ====
/-
  The argument arrays at the end of the run: no host operation writes one, and a pipeline reads them through input
  windows or not at all, so each holds at the return what it held at the launch.
-/
import proofs.«145481_j19559281066265_2_alg».proof.Proof.Gen.KernelIdeal.Launch
import proofs.«145481_j19559281066265_2_alg».proof.Proof.Gen.KernelIdeal.Skeleton
import proofs.«145481_j19559281066265_2_alg».proof.Proof.Gen.KernelIdeal.Points
import proofs.«145481_j19559281066265_2_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem Va_arg2 (c : Dev nD) : Va m c main_arg2 = m ((c : Thread nD τ).loc main_arg2) :=
  (Wa_arr m c 0).trans (((dat0 (Vl m) c).arrAt_in 0 rfl _).trans (A_eq0 (Vl m) c 0))
theorem Va_arg0 (c : Dev nD) : Va m c main_arg0 = m ((c : Thread nD τ).loc main_arg0) :=
  (Wa_arr m c 1).trans (((dat0 (Vl m) c).arrAt_in 1 rfl _).trans (A_eq0 (Vl m) c 1))
theorem Va_arg1 (c : Dev nD) : Va m c main_arg1 = m ((c : Thread nD τ).loc main_arg1) :=
  (Wa_arr m c 2).trans (((dat0 (Vl m) c).arrAt_in 2 rfl _).trans (A_eq0 (Vl m) c 2))

/-- A buffer the host operations between the pipelines do not write keeps its contents. -/
theorem Vb_keep (c : Dev nD) (b : Ref sig .tc) (h : b ∉ hostOps1_W) : Vb m c b = Va m c b :=
  StableHlo.after_of_writes_sub hostOps1 _ hostOps1_writes h

theorem Wd_arg0 (c : Dev nD) : Wd m c (Proc.devRef .tc main_arg0) = m ((c : Thread nD τ).loc main_arg0) :=
  (StableHlo.after_of_writes_sub hostOps2 _ hostOps2_writes (by decide : main_arg0 ∉ hostOps2_W)).trans <|
    (Wc_arr m c 0).trans <| ((dat1 (Vb m) c).arrAt_in 0 rfl _).trans <| (A_eq1 (Vb m) c 0).trans <|
    (Vb_keep m c main_arg0 (by decide)).trans (Va_arg0 m c)
theorem Wd_arg1 (c : Dev nD) : Wd m c (Proc.devRef .tc main_arg1) = m ((c : Thread nD τ).loc main_arg1) :=
  (StableHlo.after_of_writes_sub hostOps2 _ hostOps2_writes (by decide : main_arg1 ∉ hostOps2_W)).trans <|
    (Wc_arr m c 1).trans <| ((dat1 (Vb m) c).arrAt_in 1 rfl _).trans <| (A_eq1 (Vb m) c 1).trans <|
    (Vb_keep m c main_arg1 (by decide)).trans (Va_arg1 m c)
theorem Wd_arg2 (c : Dev nD) : Wd m c (Proc.devRef .tc main_arg2) = m ((c : Thread nD τ).loc main_arg2) :=
  (StableHlo.after_of_writes_sub hostOps2 _ hostOps2_writes (by decide : main_arg2 ∉ hostOps2_W)).trans <|
    (Wc_of_ne m c main_arg2 (by decide)).trans <| (Vb_keep m c main_arg2 (by decide)).trans (Va_arg2 m c)

end Cert.KernelIdeal.Hand

end
-- ==== Proof.LibBlockSum.lean ====
/-
  Dot products of matrix rows, cut into consecutive stretches of columns.

  For matrices X (A × K) and W (B × K) of extended reals the product X · Wᵀ has, at (a, b), the dot product of
  row a of X with row b of W. Summing the first n columns only gives a partial dot product; adding the next T
  columns to it gives the partial dot product over n + T columns. That is all a blocked matrix product does
  along its contraction axis, and it needs nothing but the associativity and commutativity of addition, which
  hold on the extended reals with the infinities included: no entry has to be finite.

  To speak of "row r, column k" for arbitrary naturals, a matrix is continued by zero outside its extents.
-/
import Idealize.ShloMosaic.Lib.ValueIdx
import Idealize.ShloMosaic.PureOps.Ideal

noncomputable section

open scoped BigOperators

namespace Cert.BlockSum

open Idealize.ShloMosaic Idealize.ShloMosaic.ValueIdx

/-- A matrix continued by zero outside its extents: it can be read at any pair of naturals. -/
def ext2 {A B : Nat} (X : (⟨2, ![A, B]⟩ : Shape).Idx → EReal) (r k : ℕ) : EReal :=
  if h : r < A ∧ k < B then X (ix2 ⟨r, h.1⟩ ⟨k, h.2⟩) else 0

/-- Inside the extents the continuation is the matrix. -/
theorem ext2_val {A B : Nat} (X : (⟨2, ![A, B]⟩ : Shape).Idx → EReal) (a : Fin A) (b : Fin B) :
    ext2 X a.val b.val = X (ix2 a b) := by
  unfold ext2
  rw [dif_pos ⟨a.isLt, b.isLt⟩]

/-- An entry, read by the values of its index's two coordinates. -/
theorem apply_eq_ext2 {A B : Nat} (X : (⟨2, ![A, B]⟩ : Shape).Idx → EReal) (i : (⟨2, ![A, B]⟩ : Shape).Idx)
    (r k : ℕ) (hr : (i 0).val = r) (hk : (i 1).val = k) : X i = ext2 X r k := by
  subst hr hk
  unfold ext2
  rw [dif_pos (⟨(i 0).isLt, (i 1).isLt⟩ : (i 0).val < A ∧ (i 1).val < B)]
  refine congrArg X (funext fun d => ?_)
  match d with
  | ⟨0, _⟩ => rfl
  | ⟨1, _⟩ => rfl

/-- An entry at an index known by its two coordinates. -/
theorem apply_of_eq_ix2 {A B : Nat} (X : (⟨2, ![A, B]⟩ : Shape).Idx → EReal) (i : (⟨2, ![A, B]⟩ : Shape).Idx)
    (r k : ℕ) (hr : r < A) (hk : k < B) (hi : i = ix2 ⟨r, hr⟩ ⟨k, hk⟩) : X i = ext2 X r k := by
  subst hi
  exact (ext2_val X ⟨r, hr⟩ ⟨k, hk⟩).symm

/-- Row r of X against row o of W over the first n columns. -/
def rowDot {A B K : Nat} (X : (⟨2, ![A, K]⟩ : Shape).Idx → EReal) (W : (⟨2, ![B, K]⟩ : Shape).Idx → EReal)
    (r o n : ℕ) : EReal :=
  ∑ k ∈ Finset.range n, ext2 X r k * ext2 W o k

/-- Over no column the partial dot product is zero. -/
theorem rowDot_zero {A B K : Nat} (X : (⟨2, ![A, K]⟩ : Shape).Idx → EReal) (W : (⟨2, ![B, K]⟩ : Shape).Idx → EReal)
    (r o : ℕ) : rowDot X W r o 0 = 0 := by
  unfold rowDot
  rw [Finset.range_zero, Finset.sum_empty]

/-- The next T columns added to the partial dot product over n columns give the one over n + T columns. -/
theorem rowDot_add {A B K : Nat} (X : (⟨2, ![A, K]⟩ : Shape).Idx → EReal) (W : (⟨2, ![B, K]⟩ : Shape).Idx → EReal)
    (r o n T : ℕ) :
    rowDot X W r o n + ∑ k : Fin T, ext2 X r (n + k.val) * ext2 W o (n + k.val) = rowDot X W r o (n + T) := by
  unfold rowDot
  rw [Finset.sum_range_add, Finset.sum_range (fun x => ext2 X r (n + x) * ext2 W o (n + x))]

/-- The product X · Wᵀ: at (a, b) the dot product of row a of X with row b of W. -/
def mulT {A B K : Nat} (X : (⟨2, ![A, K]⟩ : Shape).Idx → EReal) (W : (⟨2, ![B, K]⟩ : Shape).Idx → EReal) :
    (⟨2, ![A, B]⟩ : Shape).Idx → EReal :=
  fun j => ∑ k : Fin K, X (ix2 (j 0) k) * W (ix2 (j 1) k)

/-- Its entry is the partial dot product over all K columns. -/
theorem mulT_eq_rowDot {A B K : Nat} (X : (⟨2, ![A, K]⟩ : Shape).Idx → EReal) (W : (⟨2, ![B, K]⟩ : Shape).Idx → EReal)
    (j : (⟨2, ![A, B]⟩ : Shape).Idx) (r o : ℕ) (hr : (j 0).val = r) (ho : (j 1).val = o) :
    mulT X W j = rowDot X W r o K := by
  subst hr ho
  unfold mulT rowDot
  rw [Finset.sum_range (fun k => ext2 X (j 0).val k * ext2 W (j 1).val k)]
  exact Finset.sum_congr rfl fun k _ =>
    congrArg₂ (· * ·) (ext2_val X (j 0) k).symm (ext2_val W (j 1) k).symm

end Cert.BlockSum

end
-- ==== Proof.Spec.lean ====
/-
  The quantity both programs compute, over the extended reals.

  For an N x N matrix A and two N x 3 matrices p1, p2 (N = 8192): deg n is the n-th COLUMN sum of A, (A p) n d the
  matrix product, and the result is the total over all rows n and columns d of

      ((p2 n d - (A p2) n d / deg n) - (p1 n d - (A p1) n d / deg n)) ^ 2.

  Every sum is also given as a PARTIAL sum over the first so many terms, with the step that appends a block of
  further terms: a blocked computation walks through exactly those partial sums, and the steps need only that
  addition of extended reals is associative and commutative, so no entry has to be finite.
  Arrays are read at pairs of naturals, continued by zero outside their extents.
-/
import proofs.«145481_j19559281066265_2_alg».proof.Proof.LibBlockSum

noncomputable section

open scoped BigOperators

namespace Cert.Spec

open Idealize.ShloMosaic Idealize.ShloMosaic.ValueIdx Cert.BlockSum

abbrev Mat (a b : Nat) : Type := (⟨2, ![a, b]⟩ : Shape).Idx → EReal

/-- Row n of A against column d of p, over the first K columns of A. -/
def dotN {N D : Nat} (A : Mat N N) (p : Mat N D) (n d K : ℕ) : EReal :=
  ∑ k ∈ Finset.range K, ext2 A n k * ext2 p k d

theorem dotN_zero {N D : Nat} (A : Mat N N) (p : Mat N D) (n d : ℕ) : dotN A p n d 0 = 0 := by
  unfold dotN; rw [Finset.range_zero, Finset.sum_empty]

/-- The next T columns appended. -/
theorem dotN_add {N D : Nat} (A : Mat N N) (p : Mat N D) (n d K T : ℕ) :
    dotN A p n d K + ∑ k : Fin T, ext2 A n (K + k.val) * ext2 p (K + k.val) d = dotN A p n d (K + T) := by
  unfold dotN
  rw [Finset.sum_range_add, Finset.sum_range (fun x => ext2 A n (K + x) * ext2 p (K + x) d)]

/-- Column n of A summed over its first R rows. -/
def colN {N : Nat} (A : Mat N N) (n R : ℕ) : EReal :=
  ∑ r ∈ Finset.range R, ext2 A r n

theorem colN_zero {N : Nat} (A : Mat N N) (n : ℕ) : colN A n 0 = 0 := by
  unfold colN; rw [Finset.range_zero, Finset.sum_empty]

/-- The next T rows appended. -/
theorem colN_add {N : Nat} (A : Mat N N) (n R T : ℕ) :
    colN A n R + ∑ r : Fin T, ext2 A (R + r.val) n = colN A n (R + T) := by
  unfold colN
  rw [Finset.sum_range_add, Finset.sum_range (fun x => ext2 A (R + x) n)]

/-- One entry's difference of the two normalised residuals, from the aggregates and the degree. -/
def diffOf (x1 x2 a1 a2 dg : EReal) : EReal :=
  (x2 - Ideal.div a2 dg) - (x1 - Ideal.div a1 dg)

/-- The squared difference at row n, column d. -/
def sq {N D : Nat} (p1 p2 : Mat N D) (A : Mat N N) (n d : ℕ) : EReal :=
  diffOf (ext2 p1 n d) (ext2 p2 n d) (dotN A p1 n d N) (dotN A p2 n d N) (colN A n N)
    * diffOf (ext2 p1 n d) (ext2 p2 n d) (dotN A p1 n d N) (dotN A p2 n d N) (colN A n N)

/-- The squared differences of the first R rows, totalled. -/
def total {N D : Nat} (p1 p2 : Mat N D) (A : Mat N N) (R : ℕ) : EReal :=
  ∑ n ∈ Finset.range R, ∑ d : Fin D, sq p1 p2 A n d.val

theorem total_zero {N D : Nat} (p1 p2 : Mat N D) (A : Mat N N) : total p1 p2 A 0 = 0 := by
  unfold total; rw [Finset.range_zero, Finset.sum_empty]

/-- The next T rows appended. -/
theorem total_add {N D : Nat} (p1 p2 : Mat N D) (A : Mat N N) (R T : ℕ) :
    total p1 p2 A R + ∑ r : Fin T, ∑ d : Fin D, sq p1 p2 A (R + r.val) d.val = total p1 p2 A (R + T) := by
  unfold total
  rw [Finset.sum_range_add, Finset.sum_range (fun x => ∑ d : Fin D, sq p1 p2 A (R + x) d.val)]

/-- The result: all N rows. -/
def loss {N D : Nat} (p1 p2 : Mat N D) (A : Mat N N) : EReal := total p1 p2 A N

end Cert.Spec

end
-- ==== Proof.KI.Pay.lean ====
/-
  The kernels' arithmetic read at an index, at the extended reals: what one grid point adds.

  A 1024 x 1024 tile a of the matrix, a 1024 x 3 block x of a feature matrix and what the aggregate's block held, z:
  the new block is z + a x, entry by entry; the tile's column sums, repeated on eight sublanes; and for a block of
  1024 rows the running total z plus the block's sum of squared residual differences.
-/
import proofs.«145481_j19559281066265_2_alg».proof.Proof.Gen.KernelIdeal.Skeleton
import proofs.«145481_j19559281066265_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-- The cleared aggregate block is zero everywhere. -/
theorem pay1_at (j : S1024x3.Idx) : k0_pay1 (F := Ideal) j = (0 : EReal) := by
  show Ideal.ofBits .f32 0x00000000#32 = 0
  exact Ideal.ofBits_zero_f32

theorem pay2_at (j : S1024x3.Idx) : k0_pay2 (F := Ideal) j = (0 : EReal) := by
  show Ideal.ofBits .f32 0x00000000#32 = 0
  exact Ideal.ofBits_zero_f32

/-- The left operand's index of the tile product: its row is the result's row. -/
theorem lhs_row (i : S1024x3.Idx) (q : dot_S1024x1024_S1024x3_S1024x3_1_0_0_1_n_n.contr.Idx) :
    (dot_S1024x1024_S1024x3_S1024x3_1_0_0_1_n_n.lhsIdx i q 0).val = (i 0).val := by
  unfold DotDims.lhsIdx
  rw [dif_neg (show ¬(0 : Fin S1024x1024.rank) ∈ dot_S1024x1024_S1024x3_S1024x3_1_0_0_1_n_n.lhsBatch by decide), dif_pos (show (0 : Fin S1024x1024.rank) ∈ dot_S1024x1024_S1024x3_S1024x3_1_0_0_1_n_n.lhsNonContracting by decide)]
  rfl

/-- The right operand's index of the tile product: its column is the result's column. -/
theorem rhs_col (i : S1024x3.Idx) (q : dot_S1024x1024_S1024x3_S1024x3_1_0_0_1_n_n.contr.Idx) :
    (dot_S1024x1024_S1024x3_S1024x3_1_0_0_1_n_n.rhsIdx i q 1).val = (i 1).val := by
  unfold DotDims.rhsIdx
  rw [dif_neg (show ¬(1 : Fin S1024x3.rank) ∈ dot_S1024x1024_S1024x3_S1024x3_1_0_0_1_n_n.rhsBatch by decide), dif_pos (show (1 : Fin S1024x3.rank) ∈ dot_S1024x1024_S1024x3_S1024x3_1_0_0_1_n_n.rhsNonContracting by decide)]
  rfl

/-- The tile product accumulated into the zero block: at (r, d) the sum over the tile's 1024 columns k of
    a (r, k) times x (k, d), the operands taken at whatever float types they come in. -/
theorem mm_at {φ₁ φ₂ : FTy} (a : FVec Ideal S1024x1024 φ₁) (x : FVec Ideal S1024x3 φ₂) (r : Fin 1024) (d : Fin 3) :
    FloatOps.matmul dot_S1024x1024_S1024x3_S1024x3_1_0_0_1_n_n none a x (constant S1024x3 .f32 0x00000000#32) (ix2 r d)
      = ∑ k : Fin 1024, a (ix2 r k) * x (ix2 k d) := by
  rw [Ideal.matmul_constant_zero_apply, ← Equiv.sum_comp (ValueIdx.contrEquiv1 dot_S1024x1024_S1024x3_S1024x3_1_0_0_1_n_n 1024 rfl rfl).symm]
  refine Finset.sum_congr rfl fun k _ => ?_
  have hk := ValueIdx.contrEquiv1_symm_val dot_S1024x1024_S1024x3_S1024x3_1_0_0_1_n_n 1024 rfl rfl k
  have el : dot_S1024x1024_S1024x3_S1024x3_1_0_0_1_n_n.lhsIdx (ix2 r d) ((ValueIdx.contrEquiv1 dot_S1024x1024_S1024x3_S1024x3_1_0_0_1_n_n 1024 rfl rfl).symm k) = ix2 r k := funext fun c => Fin.ext (by
    match c with
    | ⟨0, _⟩ => exact lhs_row _ _
    | ⟨1, _⟩ => exact (dot_S1024x1024_S1024x3_S1024x3_1_0_0_1_n_n.lhsIdx_val_of_single rfl _ _).trans hk)
  have er : dot_S1024x1024_S1024x3_S1024x3_1_0_0_1_n_n.rhsIdx (ix2 r d) ((ValueIdx.contrEquiv1 dot_S1024x1024_S1024x3_S1024x3_1_0_0_1_n_n 1024 rfl rfl).symm k) = ix2 k d := funext fun c => Fin.ext (by
    match c with
    | ⟨0, _⟩ => exact (dot_S1024x1024_S1024x3_S1024x3_1_0_0_1_n_n.rhsIdx_val_of_single rfl _ _).trans hk
    | ⟨1, _⟩ => exact rhs_col _ _)
  rw [el, er]

/-- One tile's contribution added to what the block held. -/
theorem pay4_at (a : Vec Ideal S1024x1024 .f32) (x : Vec Ideal S1024x3 .f32) (z : Vec Ideal S1024x3 .f32) (r : Fin 1024) (d : Fin 3) :
    k0_pay4 (F := Ideal) a x z (ix2 r d) = z (ix2 r d) + ∑ k : Fin 1024, a (ix2 r k) * x (ix2 k d) := by
  unfold k0_pay4 k0_pay3
  simp only [shapeCast_self]
  exact congrArg (z (ix2 r d) + ·) (mm_at (truncf .bf16 a Facts₀.bitsLt_bf16_f32) (truncf .bf16 x Facts₀.bitsLt_bf16_f32) r d)

theorem pay5_at (a : Vec Ideal S1024x1024 .f32) (x : Vec Ideal S1024x3 .f32) (z : Vec Ideal S1024x3 .f32) (r : Fin 1024) (d : Fin 3) :
    k0_pay5 (F := Ideal) a x z (ix2 r d) = z (ix2 r d) + ∑ k : Fin 1024, a (ix2 r k) * x (ix2 k d) := by
  unfold k0_pay5 k0_pay3
  simp only [shapeCast_self]
  exact congrArg (z (ix2 r d) + ·) (mm_at (truncf .bf16 a Facts₀.bitsLt_bf16_f32) (truncf .bf16 x Facts₀.bitsLt_bf16_f32) r d)

/-- A column sum of the tile: the lane sum over the rows, read at column n. -/
theorem colsum_at (a : FVec Ideal S1024x1024 .f32) (h : S1024x1024.Reduces [0] S1024) (hφ : FKind.Formats .f32)
    (hacc : (0x00000000#32 : BitVec 32) = 0x00000000#32) (n : Fin 1024) :
    multiReduction .add [0] S1024 a 0x00000000#32 h hφ hacc (ix1 n) = ∑ r : Fin 1024, a (ix2 r n) := by
  refine (Ideal.multiReduction_add_single a 0x00000000#32 h hφ hacc (ix1 n)).trans ?_
  refine Finset.sum_congr rfl fun r _ => congrArg a (funext fun c => Fin.ext ?_)
  match c with
  | ⟨0, _⟩ => rfl
  | ⟨1, _⟩ => rfl

/-- One row repeated on eight sublanes: [1, 1, 1024] broadcast to [1, 8, 1024] reads (0, s, n) at (0, 0, n). -/
theorem bcast_sublanes {α : Type} (v : S1x1x1024.Idx → α) (h : S1x1x1024.Broadcasts S1x8x1024) (s : Fin 8) (n : Fin 1024) :
    broadcastTo S1x8x1024 v h (ix3 (0 : Fin 1) s n) = v (ix3 (0 : Fin 1) (0 : Fin 1) n) := by
  refine broadcastTo_apply v h _ _ fun ax => ?_
  match ax with
  | ⟨0, _⟩ => rfl
  | ⟨1, _⟩ => rfl
  | ⟨2, _⟩ =>
    show n.val = if (1024 : Nat) = 1 then 0 else n.val
    rw [if_neg (by decide)]

/-- The tile's column sums, on every sublane. -/
theorem pay6_at (a : Vec Ideal S1024x1024 .f32) (s : Fin 8) (n : Fin 1024) :
    k0_pay6 (F := Ideal) a (ix3 (0 : Fin 1) s n) = ∑ r : Fin 1024, a (ix2 r n) := by
  unfold k0_pay6
  simp only []
  refine (bcast_sublanes _ _ s n).trans ?_
  refine (shapeCast_ab_1ab_apply _ _ (0 : Fin 1) (0 : Fin 1) n).trans ?_
  refine (shapeCast_a_1a_apply _ _ (0 : Fin 1) n).trans ?_
  exact colsum_at a _ _ _ n

/-- The cleared accumulator is zero. -/
theorem kpay1_at (j : S1x1.Idx) : k1_pay1 (F := Ideal) j = (0 : EReal) := by
  unfold k1_pay1
  simp only [shapeCast_self]
  show Ideal.ofBits .f32 0x00000000#32 = 0
  exact Ideal.ofBits_zero_f32

/-- The degree column repeated on the three feature columns: [1024, 1] broadcast to [1024, 3] reads (r, d) at (r, 0). -/
theorem bcast_cols {α : Type} (v : S1024x1.Idx → α) (h : S1024x1.Broadcasts S1024x3) (r : Fin 1024) (d : Fin 3) :
    broadcastTo S1024x3 v h (ix2 r d) = v (ix2 r (0 : Fin 1)) := by
  refine broadcastTo_apply v h _ _ fun ax => ?_
  match ax with
  | ⟨0, _⟩ =>
    show r.val = if (1024 : Nat) = 1 then 0 else r.val
    rw [if_neg (by decide)]
  | ⟨1, _⟩ => rfl

/-- A vector of 1024 entries viewed as a column: [1024] cast to [1024, 1] reads (r, 0) at r. -/
theorem cast_col {α : Type} (v : S1024.Idx → α) (h : S1024.ShapeCasts S1024x1) (r : Fin 1024) (u : Fin 1) :
    shapeCast S1024x1 v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

/-- A row's sum over its three columns. -/
theorem rowsum_at (v : FVec Ideal S1024x3 .f32) (h : S1024x3.Reduces [1] S1024) (hφ : FKind.Formats .f32)
    (hacc : (0x00000000#32 : BitVec 32) = 0x00000000#32) (r : Fin 1024) :
    multiReduction .add [1] S1024 v 0x00000000#32 h hφ hacc (ix1 r) = ∑ d : Fin 3, v (ix2 r d) := by
  refine (Ideal.multiReduction_add_single v 0x00000000#32 h hφ hacc (ix1 r)).trans ?_
  refine Finset.sum_congr rfl fun d _ => congrArg v (funext fun c => Fin.ext ?_)
  match c with
  | ⟨0, _⟩ => rfl
  | ⟨1, _⟩ => rfl

/-- A column's sum over its 1024 rows. -/
theorem blocksum_at (v : FVec Ideal S1024x1 .f32) (h : S1024x1.Reduces [0] S1) (hφ : FKind.Formats .f32)
    (hacc : (0x00000000#32 : BitVec 32) = 0x00000000#32) (u : Fin 1) :
    multiReduction .add [0] S1 v 0x00000000#32 h hφ hacc (ix1 u) = ∑ r : Fin 1024, v (ix2 r (0 : Fin 1)) := by
  refine (Ideal.multiReduction_add_single v 0x00000000#32 h hφ hacc (ix1 u)).trans ?_
  refine Finset.sum_congr rfl fun r _ => congrArg v (funext fun c => Fin.ext ?_)
  match c with
  | ⟨0, _⟩ => rfl
  | ⟨1, _⟩ =>
    show u.val = 0
    omega

/-- One block of rows: the running total plus the block's squared residual differences. -/
theorem kpay2_at (x0 x1 x2 x3 : Vec Ideal S1024x3 .f32) (x4 : Vec Ideal S1024x1 .f32) (z : Vec Ideal S1x1 .f32) (j : S1x1.Idx) :
    k1_pay2 (F := Ideal) x0 x1 x2 x3 x4 z j
      = z j + ∑ r : Fin 1024, ∑ d : Fin 3,
          Cert.Spec.diffOf (x0 (ix2 r d)) (x1 (ix2 r d)) (x2 (ix2 r d)) (x3 (ix2 r d)) (x4 (ix2 r (0 : Fin 1)))
            * Cert.Spec.diffOf (x0 (ix2 r d)) (x1 (ix2 r d)) (x2 (ix2 r d)) (x3 (ix2 r d)) (x4 (ix2 r (0 : Fin 1))) := by
  obtain ⟨p, q, rfl⟩ : ∃ (p q : Fin 1), j = ix2 p q := ⟨j 0, j 1, eq_ix2 j⟩
  unfold k1_pay2
  simp only [shapeCast_self]
  refine congrArg (z (ix2 p q) + ·) ?_
  refine (shapeCast_a_1a_apply _ _ p q).trans ?_
  refine (blocksum_at _ _ _ _ q).trans ?_
  refine Finset.sum_congr rfl fun r _ => ?_
  refine (cast_col _ _ r (0 : Fin 1)).trans ?_
  refine (rowsum_at _ _ _ _ r).trans ?_
  refine Finset.sum_congr rfl fun d _ => ?_
  simp only [mulf_apply, subf_apply, divf_apply, bcast_cols, Cert.Spec.diffOf]

end Cert.KernelIdeal.Pay

end
-- ==== Proof.KI.Val0.lean ====
/-
  Pipeline 0 at the extended reals: what its three result arrays hold after the run, as functions of the arrays it
  finds. With A the matrix and p a feature matrix, the aggregate's entry (n, d) is the dot product of row n of A with
  column d of p: the 64 grid points add the 1024-column stretches one after the other, the j-th point of a row of
  tiles reaching the partial dot product over the first 1024 (j + 1) columns. The partial degrees' entry (i, s, n) is
  the sum of column n of A over the i-th block of 1024 rows, on every sublane s.
-/
import proofs.«145481_j19559281066265_2_alg».proof.Proof.KI.Data
import proofs.«145481_j19559281066265_2_alg».proof.Proof.KI.Pay
import Idealize.ShloMosaic.Lib.Pipeline.Value

set_option maxRecDepth 16384

noncomputable section

open scoped BigOperators

namespace Cert.KernelIdeal.Val

open Cert.KernelIdeal Cert.KernelIdeal.Gen Cert.KernelIdeal.Hand Cert.KernelIdeal.Pay
open Idealize.ShloMosaic Idealize.ShloMosaic.TcCoe Idealize.ShloMosaic.ValueIdx Idealize.SL.Sem
open Idealize.ShloMosaic.Pipeline (Dat)
open Cert.BlockSum Cert.Spec

variable (V : (c : Dev nD) → (b : Ref sig .tc) → Buf (Elt Ideal) ((c : Thread nD τ).loc b))

/-! ## Where each window's block sits -/

theorem idx0_0 : ∀ t : Fin cfg0.N, win0_0.index t (0 : Fin 2) = t.val / 8 ∧ win0_0.index t (1 : Fin 2) = t.val % 8 :=
  (by decide +kernel : ∀ t : Fin grid0.N, win0_0.index t (0 : Fin 2) = t.val / 8 ∧ win0_0.index t (1 : Fin 2) = t.val % 8)
theorem idx0_1 : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)
theorem idx0_2 : ∀ t : Fin cfg0.N, win0_2.index t (0 : Fin 2) = t.val % 8 ∧ win0_2.index t (1 : Fin 2) = 0 :=
  (by decide +kernel : ∀ t : Fin grid0.N, win0_2.index t (0 : Fin 2) = t.val % 8 ∧ win0_2.index t (1 : Fin 2) = 0)
theorem idx0_3 : ∀ t : Fin cfg0.N, win0_3.index t (0 : Fin 2) = t.val / 8 ∧ win0_3.index t (1 : Fin 2) = 0 :=
  (by decide +kernel : ∀ t : Fin grid0.N, win0_3.index t (0 : Fin 2) = t.val / 8 ∧ win0_3.index t (1 : Fin 2) = 0)
theorem idx0_4 : ∀ t : Fin cfg0.N, win0_4.index t (0 : Fin 2) = t.val / 8 ∧ win0_4.index t (1 : Fin 2) = 0 :=
  (by decide +kernel : ∀ t : Fin grid0.N, win0_4.index t (0 : Fin 2) = t.val / 8 ∧ win0_4.index t (1 : Fin 2) = 0)
theorem idx0_5 : ∀ t : Fin cfg0.N, win0_5.index t (0 : Fin 3) = t.val / 8 ∧ win0_5.index t (1 : Fin 3) = 0 ∧ win0_5.index t (2 : Fin 3) = t.val % 8 :=
  (by decide +kernel : ∀ t : Fin grid0.N, win0_5.index t (0 : Fin 3) = t.val / 8 ∧ win0_5.index t (1 : Fin 3) = 0 ∧ win0_5.index t (2 : Fin 3) = t.val % 8)

/-! ## The input blocks, read at an index -/

/-- The matrix tile at point t: rows from 1024 (t / 8), columns from 1024 (t % 8). -/
theorem iblk0_0_at (c : Dev nD) (t : Fin cfg0.N) (r k : Fin 1024) :
    iblk0 V c 0 t (ix2 r k) = ext2 (A := 8192) (B := 8192) (V c main_arg2) (1024 * (t.val / 8) + r.val) (1024 * (t.val % 8) + k.val) := by
  have hi := idx0_0 t
  unfold iblk0
  rw [View.read_apply]
  show V c main_arg2 _ = _
  refine apply_eq_ext2 (A := 8192) (B := 8192) (V c main_arg2) _ _ _ ?_ ?_
  · show win0_0.index t 0 * 1024 + 1 * r.val = _; rw [hi.1]; omega
  · show win0_0.index t 1 * 1024 + 1 * k.val = _; rw [hi.2]; omega

/-- The first feature matrix's row block at point t: rows from 1024 (t % 8). -/
theorem iblk0_1_at (c : Dev nD) (t : Fin cfg0.N) (k : Fin 1024) (d : Fin 3) :
    iblk0 V c 1 t (ix2 k d) = ext2 (A := 8192) (B := 3) (V c main_arg0) (1024 * (t.val % 8) + k.val) d.val := by
  have hi := idx0_1 t
  unfold iblk0
  rw [View.read_apply]
  show V c main_arg0 _ = _
  refine apply_eq_ext2 (A := 8192) (B := 3) (V c main_arg0) _ _ _ ?_ ?_
  · show win0_1.index t 0 * 1024 + 1 * k.val = _; rw [hi.1]; omega
  · show win0_1.index t 1 * 3 + 1 * d.val = _; rw [hi.2]; omega

theorem iblk0_2_at (c : Dev nD) (t : Fin cfg0.N) (k : Fin 1024) (d : Fin 3) :
    iblk0 V c 2 t (ix2 k d) = ext2 (A := 8192) (B := 3) (V c main_arg1) (1024 * (t.val % 8) + k.val) d.val := by
  have hi := idx0_2 t
  unfold iblk0
  rw [View.read_apply]
  show V c main_arg1 _ = _
  refine apply_eq_ext2 (A := 8192) (B := 3) (V c main_arg1) _ _ _ ?_ ?_
  · show win0_2.index t 0 * 1024 + 1 * k.val = _; rw [hi.1]; omega
  · show win0_2.index t 1 * 3 + 1 * d.val = _; rw [hi.2]; omega

/-! ## The aggregates' staging buffers, point by point -/

/-- One point's step on an aggregate: the tile's stretch of the dot product, read off the arrays. -/
theorem step_dot (A : Mat 8192 8192) (p : Mat 8192 3) (R K : ℕ) (a : Vec Ideal S1024x1024 .f32) (x : Vec Ideal S1024x3 .f32)
    (ha : ∀ (r k : Fin 1024), a (ix2 r k) = ext2 A (R + r.val) (K + k.val))
    (hx : ∀ (k : Fin 1024) (d : Fin 3), x (ix2 k d) = ext2 p (K + k.val) d.val)
    (r : Fin 1024) (d : Fin 3) :
    ∑ k : Fin 1024, a (ix2 r k) * x (ix2 k d) = ∑ k : Fin 1024, ext2 A (R + r.val) (K + k.val) * ext2 p (K + k.val) d.val :=
  Finset.sum_congr rfl fun k _ => by rw [ha, hx]

/-- After the body at position n the first aggregate's buffer holds, at (r, d), the dot product of row
    1024 (n / 8) + r of the matrix with column d of the first feature matrix over the first 1024 (n % 8 + 1) columns;
    the second aggregate's likewise. -/
theorem acc0_at (c : Dev nD) (n : ℕ) : ∀ (hn : n < cfg0.N) (r : Fin 1024) (d : Fin 3),
    (acc0 V c n hn).1 (ix2 r d) = dotN (N := 8192) (D := 3) (V c main_arg2) (V c main_arg0) (1024 * (n / 8) + r.val) d.val (1024 * (n % 8 + 1))
    ∧ (acc0 V c n hn).2 (ix2 r d) = dotN (N := 8192) (D := 3) (V c main_arg2) (V c main_arg1) (1024 * (n / 8) + r.val) d.val (1024 * (n % 8 + 1)) := by
  induction n with
  | zero =>
    intro hn r d
    rw [acc0_first V c ⟨0, hn⟩ rfl]
    dsimp only
    rw [pay4_at, pay5_at, pay1_at, pay2_at, zero_add, zero_add,
      step_dot (V c main_arg2) (V c main_arg0) _ _ _ _ (iblk0_0_at V c ⟨0, hn⟩) (iblk0_1_at V c ⟨0, hn⟩) r d,
      step_dot (V c main_arg2) (V c main_arg1) _ _ _ _ (iblk0_0_at V c ⟨0, hn⟩) (iblk0_2_at V c ⟨0, hn⟩) r d]
    dsimp only
    have h1 := dotN_add (N := 8192) (D := 3) (V c main_arg2) (V c main_arg0) (1024 * (0 / 8) + r.val) d.val 0 1024
    have h2 := dotN_add (N := 8192) (D := 3) (V c main_arg2) (V c main_arg1) (1024 * (0 / 8) + r.val) d.val 0 1024
    rw [dotN_zero, zero_add] at h1 h2
    exact ⟨by simpa using h1, by simpa using h2⟩
  | succ k ih =>
    intro hn r d
    by_cases h8 : (k + 1) % 8 = 0
    · rw [acc0_first V c ⟨k + 1, hn⟩ h8]
      dsimp only
      rw [pay4_at, pay5_at, pay1_at, pay2_at, zero_add, zero_add,
        step_dot (V c main_arg2) (V c main_arg0) _ _ _ _ (iblk0_0_at V c ⟨k + 1, hn⟩) (iblk0_1_at V c ⟨k + 1, hn⟩) r d,
        step_dot (V c main_arg2) (V c main_arg1) _ _ _ _ (iblk0_0_at V c ⟨k + 1, hn⟩) (iblk0_2_at V c ⟨k + 1, hn⟩) r d]
      dsimp only
      have h1 := dotN_add (N := 8192) (D := 3) (V c main_arg2) (V c main_arg0) (1024 * ((k + 1) / 8) + r.val) d.val 0 1024
      have h2 := dotN_add (N := 8192) (D := 3) (V c main_arg2) (V c main_arg1) (1024 * ((k + 1) / 8) + r.val) d.val 0 1024
      rw [dotN_zero, zero_add] at h1 h2
      rw [h8]
      exact ⟨by simpa using h1, by simpa using h2⟩
    · have ih' := ih (Nat.lt_of_succ_lt hn) r d
      have e1 : k / 8 = (k + 1) / 8 := by omega
      have e2 : k % 8 + 1 = (k + 1) % 8 := by omega
      rw [acc0_next V c ⟨k + 1, hn⟩ h8]
      dsimp only
      rw [pay4_at, pay5_at]
      simp only [Nat.add_sub_cancel]
      rw [ih'.1, ih'.2, e1, e2,
        step_dot (V c main_arg2) (V c main_arg0) _ _ _ _ (iblk0_0_at V c ⟨k + 1, hn⟩) (iblk0_1_at V c ⟨k + 1, hn⟩) r d,
        step_dot (V c main_arg2) (V c main_arg1) _ _ _ _ (iblk0_0_at V c ⟨k + 1, hn⟩) (iblk0_2_at V c ⟨k + 1, hn⟩) r d]
      dsimp only
      rw [dotN_add, dotN_add, show 1024 * ((k + 1) % 8) + 1024 = 1024 * ((k + 1) % 8 + 1) from by omega]
      exact ⟨rfl, rfl⟩

end Cert.KernelIdeal.Val

end
-- ==== Proof.KI.Arr0.lean ====
/-
  Pipeline 0's result arrays after the run. An aggregate's row block i is written back once, at the last column tile
  of its row of tiles, when its buffer has reached the dot products over all 8192 columns; the partial degrees' block
  (i, ·, j) is written at tile (i, j). The blocks written back tile each array, so each array ends as ONE function
  of the arrays the pipeline finds.
-/
import proofs.«145481_j19559281066265_2_alg».proof.Proof.KI.Val0

set_option maxRecDepth 16384

noncomputable section

open scoped BigOperators

namespace Cert.KernelIdeal.Val

open Cert.KernelIdeal Cert.KernelIdeal.Gen Cert.KernelIdeal.Hand Cert.KernelIdeal.Pay
open Idealize.ShloMosaic Idealize.ShloMosaic.TcCoe Idealize.ShloMosaic.ValueIdx Idealize.SL.Sem
open Idealize.ShloMosaic.Pipeline (Dat)
open Cert.BlockSum Cert.Spec

variable (V : (c : Dev nD) → (b : Ref sig .tc) → Buf (Elt Ideal) ((c : Thread nD τ).loc b))

/-- The matrix times a feature matrix, whole. -/
def aggOf (A : Mat 8192 8192) (p : Mat 8192 3) : Mat 8192 3 := fun i => dotN A p (i 0).val (i 1).val 8192

/-- The partial degrees: column n of the matrix summed over the i-th block of 1024 rows, on every sublane. -/
def degpOf (A : Mat 8192 8192) : (⟨3, ![8, 8, 8192]⟩ : Shape).Idx → EReal :=
  fun i => ∑ r : Fin 1024, ext2 A (1024 * (i 0).val + r.val) (i 2).val

theorem N0 : cfg0.N = 64 := N_0

/-! ## What a point writes back -/

theorem flushed3_eq (c : Dev nD) (t : Fin cfg0.N) (hf : (cfg0.win 3).flush t = true) :
    (dat0 V c).flushed 3 t = ((cfg0.win 3).blk t).view.read (Elt Ideal) (aggOf (V c main_arg2) (V c main_arg0)) := by
  have h7 : t.val % 8 = 7 := (flush0_3 t).mp hf
  obtain ⟨i0, i1⟩ := idx0_3 t
  show (cfg0.win 3).cut (grid0.coords t) ((dat0 V c).after 3 t) = _
  rw [after0_3]
  funext y
  obtain ⟨r, d, rfl⟩ : ∃ (r : Fin 1024) (d : Fin 3), y = ix2 r d := ⟨y 0, y 1, eq_ix2 y⟩
  rw [View.read_apply]
  show (acc0 V c t.val t.isLt).1 (ix2 r d) = dotN (N := 8192) (D := 3) (V c main_arg2) (V c main_arg0) (win0_3.index t 0 * 1024 + 1 * r.val) (win0_3.index t 1 * 3 + 1 * d.val) 8192
  rw [(acc0_at V c t.val t.isLt r d).1, h7, i0, i1]
  rw [show t.val / 8 * 1024 + 1 * r.val = 1024 * (t.val / 8) + r.val from by omega, show 0 * 3 + 1 * d.val = d.val from by omega]

theorem flushed4_eq (c : Dev nD) (t : Fin cfg0.N) (hf : (cfg0.win 4).flush t = true) :
    (dat0 V c).flushed 4 t = ((cfg0.win 4).blk t).view.read (Elt Ideal) (aggOf (V c main_arg2) (V c main_arg1)) := by
  have h7 : t.val % 8 = 7 := (flush0_4 t).mp hf
  obtain ⟨i0, i1⟩ := idx0_4 t
  show (cfg0.win 4).cut (grid0.coords t) ((dat0 V c).after 4 t) = _
  rw [after0_4]
  funext y
  obtain ⟨r, d, rfl⟩ : ∃ (r : Fin 1024) (d : Fin 3), y = ix2 r d := ⟨y 0, y 1, eq_ix2 y⟩
  rw [View.read_apply]
  show (acc0 V c t.val t.isLt).2 (ix2 r d) = dotN (N := 8192) (D := 3) (V c main_arg2) (V c main_arg1) (win0_4.index t 0 * 1024 + 1 * r.val) (win0_4.index t 1 * 3 + 1 * d.val) 8192
  rw [(acc0_at V c t.val t.isLt r d).2, h7, i0, i1]
  rw [show t.val / 8 * 1024 + 1 * r.val = 1024 * (t.val / 8) + r.val from by omega, show 0 * 3 + 1 * d.val = d.val from by omega]

theorem flushed5_eq (c : Dev nD) (t : Fin cfg0.N) (hf : (cfg0.win 5).flush t = true) :
    (dat0 V c).flushed 5 t = ((cfg0.win 5).blk t).view.read (Elt Ideal) (degpOf (V c main_arg2)) := by
  obtain ⟨i0, i1, i2⟩ := idx0_5 t
  show (cfg0.win 5).cut (grid0.coords t) ((dat0 V c).after 5 t) = _
  rw [after0_5]
  funext y
  obtain ⟨o, s, n, rfl⟩ : ∃ (o : Fin 1) (s : Fin 8) (n : Fin 1024), y = ix3 o s n := ⟨y 0, y 1, y 2, eq_ix3 y⟩
  obtain rfl : o = 0 := Subsingleton.elim _ _
  rw [View.read_apply]
  show k0_pay6 (F := Ideal) (iblk0 V c 0 t) (ix3 (0 : Fin 1) s n)
    = ∑ r : Fin 1024, ext2 (A := 8192) (B := 8192) (V c main_arg2) (1024 * (win0_5.index t 0 * 1 + 1 * (0 : Fin 1).val) + r.val) (win0_5.index t 2 * 1024 + 1 * n.val)
  rw [pay6_at, i0, i2]
  refine Finset.sum_congr rfl fun r _ => ?_
  rw [iblk0_0_at]
  rw [show 1024 * (t.val / 8 * 1 + 1 * (0 : Fin 1).val) + r.val = 1024 * (t.val / 8) + r.val from by simp,
    show t.val % 8 * 1024 + 1 * n.val = 1024 * (t.val % 8) + n.val from by omega]

/-! ## The blocks written back tile the arrays -/

theorem mem_blk3 (t : Fin cfg0.N) (i : S8192x3.Idx) :
    i ∈ ((cfg0.win 3).blk t).view.set ↔ ∀ a : Fin 2, win0_3.index t a * S1024x3.size a ≤ (i a).val ∧ (i a).val < win0_3.index t a * S1024x3.size a + S1024x3.size a := by
  show i ∈ ((View.whole main_v0_0).slice (win0_3.rect t)).set ↔ _
  rw [View.set_slice_whole, Rect.mem_set_unit]
  exact Iff.rfl

theorem mem_blk4 (t : Fin cfg0.N) (i : S8192x3.Idx) :
    i ∈ ((cfg0.win 4).blk t).view.set ↔ ∀ a : Fin 2, win0_4.index t a * S1024x3.size a ≤ (i a).val ∧ (i a).val < win0_4.index t a * S1024x3.size a + S1024x3.size a := by
  show i ∈ ((View.whole main_v0_1).slice (win0_4.rect t)).set ↔ _
  rw [View.set_slice_whole, Rect.mem_set_unit]
  exact Iff.rfl

theorem mem_blk5 (t : Fin cfg0.N) (i : S8x8x8192.Idx) :
    i ∈ ((cfg0.win 5).blk t).view.set ↔ ∀ a : Fin 3, win0_5.index t a * S1x8x1024.size a ≤ (i a).val ∧ (i a).val < win0_5.index t a * S1x8x1024.size a + S1x8x1024.size a := by
  show i ∈ ((View.whole main_v0_2).slice (win0_5.rect t)).set ↔ _
  rw [View.set_slice_whole, Rect.mem_set_unit]
  exact Iff.rfl

theorem cover3 (i : S8192x3.Idx) : ∃ t : Fin cfg0.N, (cfg0.win 3).flush t = true ∧ i ∈ ((cfg0.win 3).blk t).view.set := by
  have h0 : (i 0).val < 8192 := (i 0).isLt
  have h1 : (i 1).val < 3 := (i 1).isLt
  refine ⟨⟨8 * ((i 0).val / 1024) + 7, by rw [N0]; omega⟩, (flush0_3 _).mpr (by dsimp only; omega), ?_⟩
  rw [mem_blk3]
  obtain ⟨i0, i1⟩ := idx0_3 ⟨8 * ((i 0).val / 1024) + 7, by rw [N0]; omega⟩
  intro a
  match a with
  | ⟨0, _⟩ =>
    show win0_3.index _ (0 : Fin 2) * 1024 ≤ (i 0).val ∧ (i 0).val < win0_3.index _ (0 : Fin 2) * 1024 + 1024
    rw [i0]; dsimp only; omega
  | ⟨1, _⟩ =>
    show win0_3.index _ (1 : Fin 2) * 3 ≤ (i 1).val ∧ (i 1).val < win0_3.index _ (1 : Fin 2) * 3 + 3
    rw [i1]; omega

theorem cover4 (i : S8192x3.Idx) : ∃ t : Fin cfg0.N, (cfg0.win 4).flush t = true ∧ i ∈ ((cfg0.win 4).blk t).view.set := by
  have h0 : (i 0).val < 8192 := (i 0).isLt
  have h1 : (i 1).val < 3 := (i 1).isLt
  refine ⟨⟨8 * ((i 0).val / 1024) + 7, by rw [N0]; omega⟩, (flush0_4 _).mpr (by dsimp only; omega), ?_⟩
  rw [mem_blk4]
  obtain ⟨i0, i1⟩ := idx0_4 ⟨8 * ((i 0).val / 1024) + 7, by rw [N0]; omega⟩
  intro a
  match a with
  | ⟨0, _⟩ =>
    show win0_4.index _ (0 : Fin 2) * 1024 ≤ (i 0).val ∧ (i 0).val < win0_4.index _ (0 : Fin 2) * 1024 + 1024
    rw [i0]; dsimp only; omega
  | ⟨1, _⟩ =>
    show win0_4.index _ (1 : Fin 2) * 3 ≤ (i 1).val ∧ (i 1).val < win0_4.index _ (1 : Fin 2) * 3 + 3
    rw [i1]; omega

theorem cover5 (i : S8x8x8192.Idx) : ∃ t : Fin cfg0.N, (cfg0.win 5).flush t = true ∧ i ∈ ((cfg0.win 5).blk t).view.set := by
  have h0 : (i 0).val < 8 := (i 0).isLt
  have h1 : (i 1).val < 8 := (i 1).isLt
  have h2 : (i 2).val < 8192 := (i 2).isLt
  refine ⟨⟨8 * (i 0).val + (i 2).val / 1024, by rw [N0]; omega⟩, flush0_5 _, ?_⟩
  rw [mem_blk5]
  obtain ⟨i0, i1, i2⟩ := idx0_5 ⟨8 * (i 0).val + (i 2).val / 1024, by rw [N0]; omega⟩
  intro a
  match a with
  | ⟨0, _⟩ =>
    show win0_5.index _ (0 : Fin 3) * 1 ≤ (i 0).val ∧ (i 0).val < win0_5.index _ (0 : Fin 3) * 1 + 1
    rw [i0]; dsimp only; omega
  | ⟨1, _⟩ =>
    show win0_5.index _ (1 : Fin 3) * 8 ≤ (i 1).val ∧ (i 1).val < win0_5.index _ (1 : Fin 3) * 8 + 8
    rw [i1]; omega
  | ⟨2, _⟩ =>
    show win0_5.index _ (2 : Fin 3) * 1024 ≤ (i 2).val ∧ (i 2).val < win0_5.index _ (2 : Fin 3) * 1024 + 1024
    rw [i2]; dsimp only; omega

/-! ## The arrays after the run -/

theorem final3 (c : Dev nD) : (dat0 V c).arrAt 3 cfg0.N = aggOf (V c main_arg2) (V c main_arg0) :=
  (dat0 V c).arrAt_eq_of_cover 3 (aggOf (V c main_arg2) (V c main_arg0)) (flushed3_eq V c) cover3

theorem final4 (c : Dev nD) : (dat0 V c).arrAt 4 cfg0.N = aggOf (V c main_arg2) (V c main_arg1) :=
  (dat0 V c).arrAt_eq_of_cover 4 (aggOf (V c main_arg2) (V c main_arg1)) (flushed4_eq V c) cover4

theorem final5 (c : Dev nD) : (dat0 V c).arrAt 5 cfg0.N = degpOf (V c main_arg2) :=
  (dat0 V c).arrAt_eq_of_cover 5 (degpOf (V c main_arg2)) (flushed5_eq V c) cover5

end Cert.KernelIdeal.Val

end
-- ==== Proof.KI.Val1.lean ====
/-
  Pipeline 1 at the extended reals: the scratch accumulator after the block of rows n holds the squared residual
  differences of the first 1024 (n + 1) rows, totalled; the last point copies it into the 1 x 1 result, which is
  written back once.
-/
import proofs.«145481_j19559281066265_2_alg».proof.Proof.KI.Data
import proofs.«145481_j19559281066265_2_alg».proof.Proof.KI.Pay
import Idealize.ShloMosaic.Lib.Pipeline.Value

set_option maxRecDepth 16384

noncomputable section

open scoped BigOperators

namespace Cert.KernelIdeal.Val

open Cert.KernelIdeal Cert.KernelIdeal.Gen Cert.KernelIdeal.Hand Cert.KernelIdeal.Pay
open Idealize.ShloMosaic Idealize.ShloMosaic.TcCoe Idealize.ShloMosaic.ValueIdx Idealize.SL.Sem
open Idealize.ShloMosaic.Pipeline (Dat)
open Cert.BlockSum Cert.Spec

/-- The squared residual differences of the first R rows, totalled, from the five arrays pipeline 1 reads: the two
    feature matrices, the two aggregates and the degree column. -/
def totalOf (p1 p2 a1 a2 : Mat 8192 3) (dg : Mat 8192 1) (R : ℕ) : EReal :=
  ∑ n ∈ Finset.range R, ∑ d : Fin 3,
    diffOf (ext2 p1 n d.val) (ext2 p2 n d.val) (ext2 a1 n d.val) (ext2 a2 n d.val) (ext2 dg n 0)
      * diffOf (ext2 p1 n d.val) (ext2 p2 n d.val) (ext2 a1 n d.val) (ext2 a2 n d.val) (ext2 dg n 0)

theorem totalOf_zero (p1 p2 a1 a2 : Mat 8192 3) (dg : Mat 8192 1) : totalOf p1 p2 a1 a2 dg 0 = 0 := by
  unfold totalOf; rw [Finset.range_zero, Finset.sum_empty]

/-- The next T rows appended. -/
theorem totalOf_add (p1 p2 a1 a2 : Mat 8192 3) (dg : Mat 8192 1) (R T : ℕ) :
    totalOf p1 p2 a1 a2 dg R + ∑ r : Fin T, ∑ d : Fin 3,
        diffOf (ext2 p1 (R + r.val) d.val) (ext2 p2 (R + r.val) d.val) (ext2 a1 (R + r.val) d.val) (ext2 a2 (R + r.val) d.val) (ext2 dg (R + r.val) 0)
          * diffOf (ext2 p1 (R + r.val) d.val) (ext2 p2 (R + r.val) d.val) (ext2 a1 (R + r.val) d.val) (ext2 a2 (R + r.val) d.val) (ext2 dg (R + r.val) 0)
      = totalOf p1 p2 a1 a2 dg (R + T) := by
  unfold totalOf
  rw [Finset.sum_range_add, Finset.sum_range (fun x => ∑ d : Fin 3,
    diffOf (ext2 p1 (R + x) d.val) (ext2 p2 (R + x) d.val) (ext2 a1 (R + x) d.val) (ext2 a2 (R + x) d.val) (ext2 dg (R + x) 0)
      * diffOf (ext2 p1 (R + x) d.val) (ext2 p2 (R + x) d.val) (ext2 a1 (R + x) d.val) (ext2 a2 (R + x) d.val) (ext2 dg (R + x) 0))]

variable (V : (c : Dev nD) → (b : Ref sig .tc) → Buf (Elt Ideal) ((c : Thread nD τ).loc b))

/-! ## Where each window's block sits -/

theorem N1 : cfg1.N = 8 := N_1

theorem idx1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem idx1_1 : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)
theorem idx1_2 : ∀ t : Fin cfg1.N, win1_2.index t (0 : Fin 2) = t.val ∧ win1_2.index t (1 : Fin 2) = 0 :=
  (by decide +kernel : ∀ t : Fin grid1.N, win1_2.index t (0 : Fin 2) = t.val ∧ win1_2.index t (1 : Fin 2) = 0)
theorem idx1_3 : ∀ t : Fin cfg1.N, win1_3.index t (0 : Fin 2) = t.val ∧ win1_3.index t (1 : Fin 2) = 0 :=
  (by decide +kernel : ∀ t : Fin grid1.N, win1_3.index t (0 : Fin 2) = t.val ∧ win1_3.index t (1 : Fin 2) = 0)
theorem idx1_4 : ∀ t : Fin cfg1.N, win1_4.index t (0 : Fin 2) = t.val ∧ win1_4.index t (1 : Fin 2) = 0 :=
  (by decide +kernel : ∀ t : Fin grid1.N, win1_4.index t (0 : Fin 2) = t.val ∧ win1_4.index t (1 : Fin 2) = 0)
theorem idx1_5 : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)

/-! ## The input blocks, read at an index -/

/-- The row block of each of the four 8192 x 3 arrays at point t: rows from 1024 t. -/
theorem iblk1_0_at (c : Dev nD) (t : Fin cfg1.N) (r : Fin 1024) (d : Fin 3) :
    iblk1 V c 0 t (ix2 r d) = ext2 (A := 8192) (B := 3) (V c main_arg0) (1024 * t.val + r.val) d.val := by
  have hi := idx1_0 t
  unfold iblk1
  rw [View.read_apply]
  show V c main_arg0 _ = _
  refine apply_eq_ext2 (A := 8192) (B := 3) (V c main_arg0) _ _ _ ?_ ?_
  · show win1_0.index t 0 * 1024 + 1 * r.val = _; rw [hi.1]; omega
  · show win1_0.index t 1 * 3 + 1 * d.val = _; rw [hi.2]; omega

theorem iblk1_1_at (c : Dev nD) (t : Fin cfg1.N) (r : Fin 1024) (d : Fin 3) :
    iblk1 V c 1 t (ix2 r d) = ext2 (A := 8192) (B := 3) (V c main_arg1) (1024 * t.val + r.val) d.val := by
  have hi := idx1_1 t
  unfold iblk1
  rw [View.read_apply]
  show V c main_arg1 _ = _
  refine apply_eq_ext2 (A := 8192) (B := 3) (V c main_arg1) _ _ _ ?_ ?_
  · show win1_1.index t 0 * 1024 + 1 * r.val = _; rw [hi.1]; omega
  · show win1_1.index t 1 * 3 + 1 * d.val = _; rw [hi.2]; omega

theorem iblk1_2_at (c : Dev nD) (t : Fin cfg1.N) (r : Fin 1024) (d : Fin 3) :
    iblk1 V c 2 t (ix2 r d) = ext2 (A := 8192) (B := 3) (V c main_v0_0) (1024 * t.val + r.val) d.val := by
  have hi := idx1_2 t
  unfold iblk1
  rw [View.read_apply]
  show V c main_v0_0 _ = _
  refine apply_eq_ext2 (A := 8192) (B := 3) (V c main_v0_0) _ _ _ ?_ ?_
  · show win1_2.index t 0 * 1024 + 1 * r.val = _; rw [hi.1]; omega
  · show win1_2.index t 1 * 3 + 1 * d.val = _; rw [hi.2]; omega

theorem iblk1_3_at (c : Dev nD) (t : Fin cfg1.N) (r : Fin 1024) (d : Fin 3) :
    iblk1 V c 3 t (ix2 r d) = ext2 (A := 8192) (B := 3) (V c main_v0_1) (1024 * t.val + r.val) d.val := by
  have hi := idx1_3 t
  unfold iblk1
  rw [View.read_apply]
  show V c main_v0_1 _ = _
  refine apply_eq_ext2 (A := 8192) (B := 3) (V c main_v0_1) _ _ _ ?_ ?_
  · show win1_3.index t 0 * 1024 + 1 * r.val = _; rw [hi.1]; omega
  · show win1_3.index t 1 * 3 + 1 * d.val = _; rw [hi.2]; omega

/-- The degree column's row block at point t. -/
theorem iblk1_4_at (c : Dev nD) (t : Fin cfg1.N) (r : Fin 1024) :
    iblk1 V c 4 t (ix2 r (0 : Fin 1)) = ext2 (A := 8192) (B := 1) (V c main_v4) (1024 * t.val + r.val) 0 := by
  have hi := idx1_4 t
  unfold iblk1
  rw [View.read_apply]
  show V c main_v4 _ = _
  refine apply_eq_ext2 (A := 8192) (B := 1) (V c main_v4) _ _ _ ?_ ?_
  · show win1_4.index t 0 * 1024 + 1 * r.val = _; rw [hi.1]; omega
  · show win1_4.index t 1 * 1 + 1 * (0 : Fin 1).val = _; rw [hi.2]; rfl

/-! ## The accumulator, point by point -/

/-- The recursion, one step at a time. -/
theorem acc1_zero (c : Dev nD) (hn : 0 < cfg1.N) :
    acc1 V c 0 hn = k1_pay2 (iblk1 V c 0 ⟨0, hn⟩) (iblk1 V c 1 ⟨0, hn⟩) (iblk1 V c 2 ⟨0, hn⟩) (iblk1 V c 3 ⟨0, hn⟩) (iblk1 V c 4 ⟨0, hn⟩) (k1_pay1 (F := Ideal)) := rfl
theorem acc1_succ (c : Dev nD) (n : ℕ) (hn : n + 1 < cfg1.N) :
    acc1 V c (n + 1) hn = k1_pay2 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
      (acc1 V c n (Nat.lt_of_succ_lt hn)) := rfl

/-- One block's step on the total: blocks that read the five arrays at rows R + r append the next 1024 rows. -/
theorem step_total (p1 p2 a1 a2 : Mat 8192 3) (dg : Mat 8192 1) (R : ℕ) (x0 x1 x2 x3 : Vec Ideal S1024x3 .f32) (x4 : Vec Ideal S1024x1 .f32)
    (h0 : ∀ (r : Fin 1024) (d : Fin 3), x0 (ix2 r d) = ext2 p1 (R + r.val) d.val)
    (h1 : ∀ (r : Fin 1024) (d : Fin 3), x1 (ix2 r d) = ext2 p2 (R + r.val) d.val)
    (h2 : ∀ (r : Fin 1024) (d : Fin 3), x2 (ix2 r d) = ext2 a1 (R + r.val) d.val)
    (h3 : ∀ (r : Fin 1024) (d : Fin 3), x3 (ix2 r d) = ext2 a2 (R + r.val) d.val)
    (h4 : ∀ (r : Fin 1024), x4 (ix2 r (0 : Fin 1)) = ext2 dg (R + r.val) 0) :
    totalOf p1 p2 a1 a2 dg R + ∑ r : Fin 1024, ∑ d : Fin 3,
        diffOf (x0 (ix2 r d)) (x1 (ix2 r d)) (x2 (ix2 r d)) (x3 (ix2 r d)) (x4 (ix2 r (0 : Fin 1)))
          * diffOf (x0 (ix2 r d)) (x1 (ix2 r d)) (x2 (ix2 r d)) (x3 (ix2 r d)) (x4 (ix2 r (0 : Fin 1)))
      = totalOf p1 p2 a1 a2 dg (R + 1024) := by
  rw [← totalOf_add]
  refine congrArg (totalOf p1 p2 a1 a2 dg R + ·) ?_
  exact Finset.sum_congr rfl fun r _ => Finset.sum_congr rfl fun d _ => by rw [h0, h1, h2, h3, h4]

/-- After the body at position n the scratch accumulator holds the total over the first 1024 (n + 1) rows. -/
theorem acc1_at (c : Dev nD) (n : ℕ) (hn : n < cfg1.N) (j : S1x1.Idx) :
    acc1 V c n hn j = totalOf (V c main_arg0) (V c main_arg1) (V c main_v0_0) (V c main_v0_1) (V c main_v4) (1024 * (n + 1)) := by
  induction n with
  | zero =>
    rw [acc1_zero, kpay2_at, kpay1_at, show 1024 * (0 + 1) = 1024 * 0 + 1024 from rfl,
      ← step_total (V c main_arg0) (V c main_arg1) (V c main_v0_0) (V c main_v0_1) (V c main_v4) (1024 * 0) _ _ _ _ _
        (iblk1_0_at V c ⟨0, hn⟩) (iblk1_1_at V c ⟨0, hn⟩) (iblk1_2_at V c ⟨0, hn⟩) (iblk1_3_at V c ⟨0, hn⟩) (iblk1_4_at V c ⟨0, hn⟩),
      Nat.mul_zero, totalOf_zero]
  | succ k ih =>
    rw [acc1_succ, kpay2_at, ih (Nat.lt_of_succ_lt hn), show 1024 * (k + 1 + 1) = 1024 * (k + 1) + 1024 from by omega]
    exact step_total (V c main_arg0) (V c main_arg1) (V c main_v0_0) (V c main_v0_1) (V c main_v4) (1024 * (k + 1)) _ _ _ _ _
      (iblk1_0_at V c ⟨k + 1, hn⟩) (iblk1_1_at V c ⟨k + 1, hn⟩) (iblk1_2_at V c ⟨k + 1, hn⟩) (iblk1_3_at V c ⟨k + 1, hn⟩) (iblk1_4_at V c ⟨k + 1, hn⟩)

/-! ## The result array -/

/-- The one point that writes the result back is the last, where the accumulator has reached all 8192 rows. -/
theorem flushed1_5_eq (c : Dev nD) (t : Fin cfg1.N) (hf : (cfg1.win 5).flush t = true) :
    (dat1 V c).flushed 5 t = ((cfg1.win 5).blk t).view.read (Elt Ideal)
      (fun _ => totalOf (V c main_arg0) (V c main_arg1) (V c main_v0_0) (V c main_v0_1) (V c main_v4) 8192) := by
  have h7 : t.val % 8 = 7 := (flush1_5 t).mp hf
  have hN : t.val < 8 := lt_of_lt_of_eq t.isLt N1
  show (cfg1.win 5).cut (grid1.coords t) ((dat1 V c).after 5 t) = _
  rw [after1_5]
  funext y
  obtain ⟨p, q, rfl⟩ : ∃ (p q : Fin 1), y = ix2 p q := ⟨y 0, y 1, eq_ix2 y⟩
  rw [View.read_apply]
  show acc1 V c t.val t.isLt (ix2 p q) = totalOf (V c main_arg0) (V c main_arg1) (V c main_v0_0) (V c main_v0_1) (V c main_v4) 8192
  rw [acc1_at]
  exact congrArg (totalOf (V c main_arg0) (V c main_arg1) (V c main_v0_0) (V c main_v0_1) (V c main_v4)) (by omega)

theorem mem_blk1_5 (t : Fin cfg1.N) (i : S1x1.Idx) :
    i ∈ ((cfg1.win 5).blk t).view.set ↔ ∀ a : Fin 2, win1_5.index t a * S1x1.size a ≤ (i a).val ∧ (i a).val < win1_5.index t a * S1x1.size a + S1x1.size a := by
  show i ∈ ((View.whole main_v5).slice (win1_5.rect t)).set ↔ _
  rw [View.set_slice_whole, Rect.mem_set_unit]
  exact Iff.rfl

/-- The 1 x 1 array's one index is in the last point's block. -/
theorem cover1_5 (i : S1x1.Idx) : ∃ t : Fin cfg1.N, (cfg1.win 5).flush t = true ∧ i ∈ ((cfg1.win 5).blk t).view.set := by
  have h0 : (i 0).val < 1 := (i 0).isLt
  have h1 : (i 1).val < 1 := (i 1).isLt
  refine ⟨⟨7, by rw [N1]; omega⟩, (flush1_5 _).mpr rfl, ?_⟩
  rw [mem_blk1_5]
  obtain ⟨i0, i1⟩ := idx1_5 ⟨7, by rw [N1]; omega⟩
  intro a
  match a with
  | ⟨0, _⟩ =>
    show win1_5.index _ (0 : Fin 2) * 1 ≤ (i 0).val ∧ (i 0).val < win1_5.index _ (0 : Fin 2) * 1 + 1
    rw [i0]; omega
  | ⟨1, _⟩ =>
    show win1_5.index _ (1 : Fin 2) * 1 ≤ (i 1).val ∧ (i 1).val < win1_5.index _ (1 : Fin 2) * 1 + 1
    rw [i1]; omega

/-- The result array after the run: the total over all 8192 rows. -/
theorem final1 (c : Dev nD) :
    (dat1 V c).arrAt 5 cfg1.N = fun _ => totalOf (V c main_arg0) (V c main_arg1) (V c main_v0_0) (V c main_v0_1) (V c main_v4) 8192 := by
  exact (dat1 V c).arrAt_eq_of_cover 5 (fun _ => totalOf (V c main_arg0) (V c main_arg1) (V c main_v0_0) (V c main_v0_1) (V c main_v4) 8192) (flushed1_5_eq V c) cover1_5

end Cert.KernelIdeal.Val

end
-- ==== Proof.KI.Stage.lean ====
/-
  The host operations between and after the pipelines, read at an index at the extended reals: sublane 0 of the
  partial degrees, summed over the eight row blocks, gives the degree; it is laid out as a column; and a 1 x 1 array
  reshaped to a scalar holds the same number.
-/
import proofs.«145481_j19559281066265_2_alg».proof.Proof.Gen.KernelIdeal
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Stage

open Idealize.ShloMosaic Idealize.ShloMosaic.ValueIdx Cert.KernelIdeal Cert.KernelIdeal.Facts₀ Cert.KernelIdeal.Facts

/-- The degree column from the partial degrees. -/
def degCol (y : Vec Ideal S8x8x8192 .f32) : Vec Ideal S8192x1 .f32 :=
  broadcastInDim S8192x1 ![0] bcast_S8192_S8192x1_0
    (Host.reduceAdd (F := Ideal)
      (shapeCast S8x8192 (extractStridedSlice S8x1x8192 ![0, 0, 0] y slices_S8x8x8192_S8x1x8192_0_0_0) shapeCasts_S8x1x8192_S8x8192)
      (constant (F := Ideal) S_ .f32 0x00000000#32) reducesTo_S8x8192_S8192_d0 h_S_)

/-- Sublane 0 of the partial degrees viewed as an 8 x 8192 matrix: its entry (i, n) is the partial degree (i, 0, n). -/
theorem sublane0_at (y : Vec Ideal S8x8x8192 .f32) (i : Fin 8) (n : Fin 8192) :
    shapeCast S8x8192 (extractStridedSlice S8x1x8192 ![0, 0, 0] y slices_S8x8x8192_S8x1x8192_0_0_0) shapeCasts_S8x1x8192_S8x8192
        (ix2 i n)
      = y (ix3 i (0 : Fin 8) n) := by
  refine (shapeCast_apply _ shapeCasts_S8x1x8192_S8x8192 (ix2 i n) (ix3 i (0 : Fin 1) n) ?_).trans ?_
  · rw [Shape.rowMajor_val_three, Shape.rowMajor_val_two]
    show (i.val * 1 + 0) * 8192 + n.val = i.val * 8192 + n.val
    rw [Nat.mul_one, Nat.add_zero]
  · refine extractStridedSlice_apply _ y slices_S8x8x8192_S8x1x8192_0_0_0 (ix3 i (0 : Fin 1) n) (ix3 i (0 : Fin 8) n) fun a => ?_
    match a with
    | ⟨0, _⟩ => exact (Nat.zero_add _).symm
    | ⟨1, _⟩ => rfl
    | ⟨2, _⟩ => exact (Nat.zero_add _).symm

/-- Its entry n is the sum over the eight row blocks of sublane 0's entry n. -/
theorem degCol_at (y : Vec Ideal S8x8x8192 .f32) (n : Fin 8192) (o : Fin 1) :
    degCol y (ix2 n o) = ∑ i : Fin 8, y (ix3 i (0 : Fin 8) n) := by
  unfold degCol
  refine (broadcastInDim_apply _ bcast_S8192_S8192x1_0 _ (ix2 n o) (ix1 n) (fun a => match a with
    | ⟨0, _⟩ => by show n.val = if (8192 : Nat) = 1 then 0 else n.val; rw [if_neg (by decide)])).trans ?_
  simp only [Host.reduceAdd, Ideal.hostReduceAdd_def]
  rw [Ideal.hostReduceAdd_single reducesTo_S8x8192_S8192_d0 (by decide)]
  show Ideal.ofBits .f32 0x00000000#32 + _ = _
  rw [Ideal.ofBits_zero_f32, zero_add]
  refine Finset.sum_congr rfl fun (i : Fin 8) _ => ?_
  refine Eq.trans (congrArg _ (funext fun c => Fin.ext ?_)) (sublane0_at y i n)
  match c with
  | ⟨0, _⟩ => rfl
  | ⟨1, _⟩ => rfl

/-- A 1 x 1 array as a scalar. -/
theorem scalar_at (v : Vec Ideal S1x1 .f32) (i : S_.Idx) :
    shapeCast S_ v shapeCasts_S1x1_S_ i = v (ix2 (0 : Fin 1) (0 : Fin 1)) := by
  refine shapeCast_apply v shapeCasts_S1x1_S_ i (ix2 (0 : Fin 1) (0 : Fin 1)) ?_
  have h1 : (S_.rowMajor i).val < 1 := (S_.rowMajor i).isLt
  rw [Shape.rowMajor_val_two]
  show 0 * 1 + 0 = (S_.rowMajor i).val
  omega

end Cert.KernelIdeal.Stage

end
-- ==== Proof.LibRangeSum.lean ====
import Idealize.ShloMosaic.Lib.ValueIdx

/-!
# Sums over positions, split by coordinates

In a commutative monoid (the extended reals under addition are one, infinities included) a sum over the positions
below A * B is the double sum over a quotient below A and a remainder below B; nested sums over independent ranges
may be exchanged; and a sum over the index set of a rank-3 array, or of a one-column matrix, is a nested sum over
ranges of its coordinates. None of the statements evaluates an index set, so they apply at any extent.
-/

open scoped BigOperators

namespace Cert.Lib.RangeSum

open Idealize.ShloMosaic Idealize.ShloMosaic.ValueIdx

/-- Positions below A * B, split as a * B + b. -/
theorem sum_range_mul {M : Type*} [AddCommMonoid M] (f : ℕ → M) (A B : ℕ) :
    ∑ n ∈ Finset.range (A * B), f n = ∑ a ∈ Finset.range A, ∑ b ∈ Finset.range B, f (a * B + b) := by
  induction A with
  | zero => simp
  | succ A ih =>
    rw [Nat.succ_mul, Finset.sum_range_add, ih, Finset.sum_range_succ]

/-- Two outer sums exchanged with two inner ones. -/
theorem sum_comm22 {M : Type*} [AddCommMonoid M] {α β γ δ : Type*} (S : Finset α) (L : Finset β) (K : Finset γ)
    (G : Finset δ) (F : α → β → γ → δ → M) :
    ∑ s ∈ S, ∑ l ∈ L, ∑ k ∈ K, ∑ g ∈ G, F s l k g = ∑ k ∈ K, ∑ g ∈ G, ∑ s ∈ S, ∑ l ∈ L, F s l k g := by
  calc ∑ s ∈ S, ∑ l ∈ L, ∑ k ∈ K, ∑ g ∈ G, F s l k g
      = ∑ s ∈ S, ∑ k ∈ K, ∑ l ∈ L, ∑ g ∈ G, F s l k g := Finset.sum_congr rfl fun s _ => Finset.sum_comm
    _ = ∑ k ∈ K, ∑ s ∈ S, ∑ l ∈ L, ∑ g ∈ G, F s l k g := Finset.sum_comm
    _ = ∑ k ∈ K, ∑ s ∈ S, ∑ g ∈ G, ∑ l ∈ L, F s l k g :=
        Finset.sum_congr rfl fun k _ => Finset.sum_congr rfl fun s _ => Finset.sum_comm
    _ = ∑ k ∈ K, ∑ g ∈ G, ∑ s ∈ S, ∑ l ∈ L, F s l k g := Finset.sum_congr rfl fun k _ => Finset.sum_comm

/-- A rank-3 index is its three coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A sum over a rank-3 index set of a function of the coordinates' values, as nested sums over ranges. -/
theorem sum_idx3_range {M : Type*} [AddCommMonoid M] {n0 n1 n2 : Nat} (F : ℕ → ℕ → ℕ → M) :
    ∑ i : (⟨3, ![n0, n1, n2]⟩ : Shape).Idx, F (i 0).val (i 1).val (i 2).val
      = ∑ a ∈ Finset.range n0, ∑ b ∈ Finset.range n1, ∑ c ∈ Finset.range n2, F a b c := by
  rw [sum_idx3, Finset.sum_range]
  refine Finset.sum_congr rfl fun a _ => ?_
  rw [Finset.sum_range]
  refine Finset.sum_congr rfl fun b _ => ?_
  rw [Finset.sum_range]
  rfl

/-- A sum over the index set of an n-by-1 matrix of a function of the row's value, as a sum over a range. -/
theorem sum_idx_col_range {M : Type*} [AddCommMonoid M] {n : Nat} (F : ℕ → M) :
    ∑ i : (⟨2, ![n, 1]⟩ : Shape).Idx, F (i 0).val = ∑ a ∈ Finset.range n, F a := by
  rw [sum_idx2, Finset.sum_range]
  refine Finset.sum_congr rfl fun a _ => ?_
  rw [Fintype.sum_eq_single (0 : Fin 1) (fun b hb => absurd (Subsingleton.elim b 0) hb)]
  rfl

end Cert.Lib.RangeSum
-- ==== Proof.KI.Final.lean ====
/-
  The program's result at the extended reals. Following the buffers' contents through the run: pipeline 0 leaves the
  two aggregates A p1, A p2 and the partial degrees; the host operations make the degree column from sublane 0 of the
  partial degrees, eight blocks of 1024 rows summed, which is the whole column sum; pipeline 1 totals the squared
  residual differences over all rows; the final reshape keeps the number. That is the specification's total.
-/
import proofs.«145481_j19559281066265_2_alg».proof.Proof.KI.Kept
import proofs.«145481_j19559281066265_2_alg».proof.Proof.KI.Arr0
import proofs.«145481_j19559281066265_2_alg».proof.Proof.KI.Val1
import proofs.«145481_j19559281066265_2_alg».proof.Proof.KI.Stage
import proofs.«145481_j19559281066265_2_alg».proof.Proof.LibRangeSum
import Idealize.ShloMosaic.Lib.StableHlo.Run

set_option maxRecDepth 16384

noncomputable section

open scoped BigOperators

namespace Cert.KernelIdeal.Val

open Cert.KernelIdeal Cert.KernelIdeal.Gen Cert.KernelIdeal.Hand Cert.KernelIdeal.Pay
open Idealize.ShloMosaic Idealize.ShloMosaic.TcCoe Idealize.ShloMosaic.ValueIdx Idealize.SL.Sem Idealize.ShloMosaic.StableHlo
open Idealize.ShloMosaic.Pipeline (Dat)
open Cert.BlockSum Cert.Spec

variable (m : (ℓ : Loc nD τ sig) → Buf (Elt Ideal) ℓ)

/-! ## The contents at the boundaries -/

theorem Va_v0_0 (c : Dev nD) : Va m c main_v0_0 = aggOf (m ((c : Thread nD τ).loc main_arg2)) (m ((c : Thread nD τ).loc main_arg0)) :=
  (Wa_arr m c 3).trans (final3 (Vl m) c)
theorem Va_v0_1 (c : Dev nD) : Va m c main_v0_1 = aggOf (m ((c : Thread nD τ).loc main_arg2)) (m ((c : Thread nD τ).loc main_arg1)) :=
  (Wa_arr m c 4).trans (final4 (Vl m) c)
theorem Va_v0_2 (c : Dev nD) : Va m c main_v0_2 = degpOf (m ((c : Thread nD τ).loc main_arg2)) :=
  (Wa_arr m c 5).trans (final5 (Vl m) c)

theorem Vb_v4 (c : Dev nD) : Vb m c main_v4 = Stage.degCol (Va m c main_v0_2) := by
  show StableHlo.after hostOps1 (Wa m c) (Proc.devRef .tc main_v4) = _
  after_results
  rfl

theorem Vc_v5 (c : Dev nD) : Vc m c main_v5 = fun _ => totalOf (Vb m c main_arg0) (Vb m c main_arg1) (Vb m c main_v0_0) (Vb m c main_v0_1) (Vb m c main_v4) 8192 :=
  (Wc_arr m c 5).trans (final1 (Vb m) c)

theorem Wd_v6 (c : Dev nD) : Wd m c (Proc.devRef .tc main_v6) = shapeCast S_ (Vc m c main_v5) shapeCasts_S1x1_S_ := by
  show StableHlo.after hostOps2 (Wc m c) (Proc.devRef .tc main_v6) = _
  after_results
  rfl

/-! ## The arrays pipeline 1 reads, against the specification's partial sums -/

/-- An aggregate's continuation is the dot product over all columns. -/
theorem ext2_aggOf (A : Mat 8192 8192) (p : Mat 8192 3) (n : ℕ) (hn : n < 8192) (d : Fin 3) :
    ext2 (aggOf A p) n d.val = dotN A p n d.val 8192 := by
  unfold ext2
  rw [dif_pos ⟨hn, d.isLt⟩]
  rfl

/-- The degree column's continuation is the whole column sum: eight blocks of 1024 rows. -/
theorem ext2_degCol (A : Mat 8192 8192) (n : ℕ) (hn : n < 8192) :
    ext2 (A := 8192) (B := 1) (Stage.degCol (degpOf A)) n 0 = colN A n 8192 := by
  unfold ext2
  rw [dif_pos ⟨hn, Nat.one_pos⟩, Stage.degCol_at]
  unfold degpOf colN
  show _ = ∑ k ∈ Finset.range (8 * 1024), ext2 A k n
  rw [Cert.Lib.RangeSum.sum_range_mul, Finset.sum_range]
  refine Finset.sum_congr rfl fun i _ => ?_
  rw [Finset.sum_range]
  refine Finset.sum_congr rfl fun r _ => ?_
  show ext2 A (1024 * i.val + r.val) n = ext2 A (i.val * 1024 + r.val) n
  rw [Nat.mul_comm]

/-- With the aggregates and the degree column pipeline 1 finds, its total is the specification's. -/
theorem total_bridge (p1 p2 : Mat 8192 3) (A : Mat 8192 8192) :
    totalOf p1 p2 (aggOf A p1) (aggOf A p2) (Stage.degCol (degpOf A)) 8192 = Cert.Spec.loss p1 p2 A := by
  unfold totalOf Cert.Spec.loss Cert.Spec.total
  refine Finset.sum_congr rfl fun n hn => ?_
  have hn' : n < 8192 := Finset.mem_range.mp hn
  refine Finset.sum_congr rfl fun d _ => ?_
  unfold Cert.Spec.sq
  rw [ext2_aggOf A p1 n hn' d, ext2_aggOf A p2 n hn' d, ext2_degCol A n hn']

/-- THE RESULT: the returned scalar is the specification's total of the argument arrays. -/
theorem result_eq (c : Dev nD) :
    Wd m c (Proc.devRef .tc main_v6)
      = fun _ => Cert.Spec.loss (N := 8192) (D := 3) (m ((c : Thread nD τ).loc main_arg0)) (m ((c : Thread nD τ).loc main_arg1)) (m ((c : Thread nD τ).loc main_arg2)) := by
  rw [Wd_v6]
  funext i
  rw [Stage.scalar_at, Vc_v5, Vb_v4, Vb_keep m c main_arg0 (by decide), Vb_keep m c main_arg1 (by decide),
    Vb_keep m c main_v0_0 (by decide), Vb_keep m c main_v0_1 (by decide),
    Va_arg0, Va_arg1, Va_v0_0, Va_v0_1, Va_v0_2]
  exact total_bridge _ _ _

end Cert.KernelIdeal.Val

end
-- ==== Proof.Ref.lean ====
/-
  The reference's result, read back index by index at the extended reals: it is the specification's total over all
  rows n and the three columns d of ((p2 n d - (A p2) n d / deg n) - (p1 n d - (A p1) n d / deg n)) squared, with
  deg n the n-th column sum of A.
-/
import proofs.«145481_j19559281066265_2_alg».proof.Proof.Gen.ReferenceIdeal.Run
import proofs.«145481_j19559281066265_2_alg».proof.Proof.Gen.ReferenceIdeal.Read
import proofs.«145481_j19559281066265_2_alg».proof.Proof.Spec
import Idealize.ShloMosaic.Lib.ValueIdx
import Idealize.ShloMosaic.Lib.Pipeline.Value
import Idealize.ShloMosaic.PureOps.Ideal.Laws

noncomputable section

open scoped BigOperators

namespace Cert.RefValue

open Idealize.ShloMosaic Idealize.ShloMosaic.ValueIdx Cert.ReferenceIdeal Cert.ReferenceIdeal.Read Cert.BlockSum

/-- The degree: the reference's column sum of A at column n starts from the float word 0, which is the extended
    real 0, so it is the specification's column sum over all 8192 rows. -/
theorem v0_at (x2 : (⟨S8192x8192, .f32⟩ : BufTy).Contents (Elt Ideal)) (i : S8192.Idx) (n : ℕ) (hn : (i 0).val = n) :
    val_main_v0 (F := Ideal) x2 i = Cert.Spec.colN (N := 8192) x2 n 8192 := by
  rw [val_main_v0_apply, val_main_cst_apply]
  show Ideal.ofBits .f32 0x00000000#32 + _ = _
  rw [Ideal.ofBits_zero_f32, zero_add]
  unfold Cert.Spec.colN
  rw [Finset.sum_range (fun r => ext2 x2 r n)]
  exact Finset.sum_congr rfl fun k _ => apply_eq_ext2 x2 _ k.val n rfl hn

/-- The degree broadcast along the three columns (first copy): still the column sum of the entry's row number. -/
theorem v3_at (x2 : (⟨S8192x8192, .f32⟩ : BufTy).Contents (Elt Ideal)) (i : S8192x3.Idx) (n : ℕ) (hn : (i 0).val = n) :
    val_main_v3 (F := Ideal) x2 i = Cert.Spec.colN (N := 8192) x2 n 8192 := by
  rw [val_main_v3_apply, val_main_v2_apply]
  exact v0_at x2 _ n hn

/-- The degree broadcast along the three columns (second copy). -/
theorem v8_at (x2 : (⟨S8192x8192, .f32⟩ : BufTy).Contents (Elt Ideal)) (i : S8192x3.Idx) (n : ℕ) (hn : (i 0).val = n) :
    val_main_v8 (F := Ideal) x2 i = Cert.Spec.colN (N := 8192) x2 n 8192 := by
  rw [val_main_v8_apply, val_main_v7_apply]
  exact v0_at x2 _ n hn

/-- (A p1) n d: row n of A against column d of p1, over all 8192 columns of A. -/
theorem v1_at (x0 : (⟨S8192x3, .f32⟩ : BufTy).Contents (Elt Ideal)) (x2 : (⟨S8192x8192, .f32⟩ : BufTy).Contents (Elt Ideal))
    (i : S8192x3.Idx) (n d : ℕ) (hn : (i 0).val = n) (hd : (i 1).val = d) :
    val_main_v1 (F := Ideal) x0 x2 i = Cert.Spec.dotN (N := 8192) (D := 3) x2 x0 n d 8192 := by
  rw [val_main_v1_apply]
  unfold Cert.Spec.dotN
  rw [Finset.sum_range (fun k => ext2 x2 n k * ext2 x0 k d)]
  exact Finset.sum_congr rfl fun k _ =>
    congrArg₂ (· * ·) (apply_eq_ext2 x2 _ n k.val hn rfl) (apply_eq_ext2 x0 _ k.val d rfl hd)

/-- (A p2) n d likewise. -/
theorem v6_at (x1 : (⟨S8192x3, .f32⟩ : BufTy).Contents (Elt Ideal)) (x2 : (⟨S8192x8192, .f32⟩ : BufTy).Contents (Elt Ideal))
    (i : S8192x3.Idx) (n d : ℕ) (hn : (i 0).val = n) (hd : (i 1).val = d) :
    val_main_v6 (F := Ideal) x1 x2 i = Cert.Spec.dotN (N := 8192) (D := 3) x2 x1 n d 8192 := by
  rw [val_main_v6_apply]
  unfold Cert.Spec.dotN
  rw [Finset.sum_range (fun k => ext2 x2 n k * ext2 x1 k d)]
  exact Finset.sum_congr rfl fun k _ =>
    congrArg₂ (· * ·) (apply_eq_ext2 x2 _ n k.val hn rfl) (apply_eq_ext2 x1 _ k.val d rfl hd)

/-- The difference of the two normalised residuals at row n, column d. -/
theorem v11_at (x0 x1 : (⟨S8192x3, .f32⟩ : BufTy).Contents (Elt Ideal)) (x2 : (⟨S8192x8192, .f32⟩ : BufTy).Contents (Elt Ideal))
    (i : S8192x3.Idx) (n d : ℕ) (hn : (i 0).val = n) (hd : (i 1).val = d) :
    val_main_v11 (F := Ideal) x0 x1 x2 i
      = Cert.Spec.diffOf (ext2 x0 n d) (ext2 x1 n d) (Cert.Spec.dotN (N := 8192) (D := 3) x2 x0 n d 8192)
          (Cert.Spec.dotN (N := 8192) (D := 3) x2 x1 n d 8192) (Cert.Spec.colN (N := 8192) x2 n 8192) := by
  rw [val_main_v11_apply, val_main_v10_apply, val_main_v5_apply, val_main_v9_apply, val_main_v4_apply,
    v1_at x0 x2 i n d hn hd, v6_at x1 x2 i n d hn hd, v3_at x2 i n hn, v8_at x2 i n hn,
    apply_eq_ext2 x0 i n d hn hd, apply_eq_ext2 x1 i n d hn hd]
  rfl

/-- The squared difference at row n, column d. -/
theorem v12_at (x0 x1 : (⟨S8192x3, .f32⟩ : BufTy).Contents (Elt Ideal)) (x2 : (⟨S8192x8192, .f32⟩ : BufTy).Contents (Elt Ideal))
    (i : S8192x3.Idx) (n d : ℕ) (hn : (i 0).val = n) (hd : (i 1).val = d) :
    val_main_v12 (F := Ideal) x0 x1 x2 i = Cert.Spec.sq (N := 8192) (D := 3) x0 x1 x2 n d := by
  rw [val_main_v12_apply, v11_at x0 x1 x2 i n d hn hd]
  rfl

/-- The reference's result is the specification's total, whatever the arrays hold. -/
theorem ref_eq (x0 x1 : (⟨S8192x3, .f32⟩ : BufTy).Contents (Elt Ideal)) (x2 : (⟨S8192x8192, .f32⟩ : BufTy).Contents (Elt Ideal)) (i : S_.Idx) :
    val_main_v13 (F := Ideal) x0 x1 x2 i = Cert.Spec.loss (N := 8192) (D := 3) x0 x1 x2 := by
  rw [val_main_v13_apply, val_main_cst_0_apply]
  show Ideal.ofBits .f32 0x00000000#32 + _ = _
  rw [Ideal.ofBits_zero_f32, zero_add, sum_idx2]
  unfold Cert.Spec.loss Cert.Spec.total
  rw [Finset.sum_range (fun n => ∑ d : Fin 3, Cert.Spec.sq (N := 8192) (D := 3) x0 x1 x2 n d.val)]
  exact Finset.sum_congr rfl fun n _ => Finset.sum_congr rfl fun d _ =>
    v12_at x0 x1 x2 (ix2 n d) n.val d.val rfl rfl

end Cert.RefValue

end
-- ==== Proof.lean ====
/-
  The certificate's claims.

  The kernel program is two pipelines with host operations between and after them. Pipeline 0 reads every
  1024 x 1024 tile of the matrix A once: it accumulates the tile's products with the row blocks of the two feature
  matrices p1, p2 onto the aggregates A p1, A p2 along each row of tiles, and writes the tile's column sums as
  partial degrees; the host sums the partial degrees over the eight row blocks into the degree column deg (the column
  sums of A); pipeline 1 totals ((p2 - A p2 / deg) - (p1 - A p1 / deg)) squared over blocks of 1024 rows in a
  carried accumulator. The reference computes the same total in one piece. Over the extended reals the two agree for
  EVERY input: the blocked sums are regroupings of the reference's sums, which needs only that addition is
  associative and commutative, and every other operation is applied to equal operands. So the finiteness
  precondition is never opened.

  The frames: the run of the kernel program (at any float instance) follows the contents of every unscoped buffer
  from the launch to the return and finds the argument arrays unchanged; the reference's frame is its run.
-/
import proofs.«145481_j19559281066265_2_alg».proof.Defs
import proofs.«145481_j19559281066265_2_alg».proof.Proof.Gen.Kernel
import proofs.«145481_j19559281066265_2_alg».proof.Proof.Gen.KernelIdeal
import proofs.«145481_j19559281066265_2_alg».proof.Proof.Gen.ReferenceIdeal
import proofs.«145481_j19559281066265_2_alg».proof.Proof.Gen.Pre_finite_inputs
import proofs.«145481_j19559281066265_2_alg».proof.Proof.Gen.ReferenceIdeal.Run
import proofs.«145481_j19559281066265_2_alg».proof.Proof.Gen.ReferenceIdeal.Read
import proofs.«145481_j19559281066265_2_alg».proof.Proof.K.Kept
import proofs.«145481_j19559281066265_2_alg».proof.Proof.KI.Final
import proofs.«145481_j19559281066265_2_alg».proof.Proof.Ref
import Idealize.ShloMosaic.Adequacy
import Idealize.ShloMosaic.Init

noncomputable section

namespace Cert.Proof

open Idealize.ShloMosaic Idealize.ShloMosaic.TcCoe Idealize.SL.Sem

/-- The word-level kernel program runs to the end and leaves its arguments as launched. -/
theorem frame_k : Cert.frame_Kernel := fun m ρ _ =>
  (θ_run Cert.Kernel.defs _ _).mono (fun r h c =>
      ⟨(h c _ (Cert.Kernel.Hand.mem_uc Cert.Kernel.main_arg0 (by decide))).trans (Cert.Kernel.Hand.Wd_arg0 m c),
       (h c _ (Cert.Kernel.Hand.mem_uc Cert.Kernel.main_arg1 (by decide))).trans (Cert.Kernel.Hand.Wd_arg1 m c),
       (h c _ (Cert.Kernel.Hand.mem_uc Cert.Kernel.main_arg2 (by decide))).trans (Cert.Kernel.Hand.Wd_arg2 m c)⟩)
    (Cert.Kernel.Hand.run_all (F := Bits) m ρ)

/-- So does its idealization. -/
theorem frame_ki : Cert.frame_KernelIdeal := fun m ρ _ =>
  (θ_run Cert.KernelIdeal.defs _ _).mono (fun r h c =>
      ⟨(h c _ (Cert.KernelIdeal.Hand.mem_uc Cert.KernelIdeal.main_arg0 (by decide))).trans (Cert.KernelIdeal.Hand.Wd_arg0 m c),
       (h c _ (Cert.KernelIdeal.Hand.mem_uc Cert.KernelIdeal.main_arg1 (by decide))).trans (Cert.KernelIdeal.Hand.Wd_arg1 m c),
       (h c _ (Cert.KernelIdeal.Hand.mem_uc Cert.KernelIdeal.main_arg2 (by decide))).trans (Cert.KernelIdeal.Hand.Wd_arg2 m c)⟩)
    (Cert.KernelIdeal.Hand.run_all (F := Ideal) m ρ)

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- At the extended reals both programs return the specification's total of the same three arrays. -/
theorem algebraic : Cert.algebraic_KernelIdeal_ReferenceIdeal := by
  intro m ρ m' ρ' _ hagree
  refine ⟨fun c => fun _ => Cert.Spec.loss (N := 8192) (D := 3)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun r h c =>
        ⟨(h c _ (Cert.KernelIdeal.Hand.mem_uc Cert.KernelIdeal.main_v6 (by decide))).trans (Cert.KernelIdeal.Val.result_eq m c),
         (h c _ (Cert.KernelIdeal.Hand.mem_uc Cert.KernelIdeal.main_arg0 (by decide))).trans (Cert.KernelIdeal.Hand.Wd_arg0 m c),
         (h c _ (Cert.KernelIdeal.Hand.mem_uc Cert.KernelIdeal.main_arg1 (by decide))).trans (Cert.KernelIdeal.Hand.Wd_arg1 m c),
         (h c _ (Cert.KernelIdeal.Hand.mem_uc Cert.KernelIdeal.main_arg2 (by decide))).trans (Cert.KernelIdeal.Hand.Wd_arg2 m c)⟩)
      (Cert.KernelIdeal.Hand.run_all (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v13_eq]
    funext i
    rw [Cert.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
